-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v211) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S8192 : Shape := ⟨1, ![8192]⟩
abbrev S32x128 : Shape := ⟨2, ![32, 128]⟩
abbrev S32 : Shape := ⟨1, ![32]⟩
abbrev S32x32 : Shape := ⟨2, ![32, 32]⟩
abbrev S8192x8192 : Shape := ⟨2, ![8192, 8192]⟩
abbrev S1x32 : Shape := ⟨2, ![1, 32]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S32x32 .f32) (main_arg17 : FVec F S32 .f32) (main_arg18 : FVec F S1x32 .f32) (main_arg19 : FVec F S1 .f32) (main_v63 : IVec S_ 1) (main_v67 : IVec S_ 1) : IVec S_ 1 :=
  let main_v68 : IVec S_ 1 := andi main_v63 main_v67
  let main_v69 : FVec F S32x32 .f32 := Host.absf main_arg16
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S1x32 .f32 := Host.absf main_arg18
  let main_cst_30 : FVec F S_ .f32 := constant S_ .f32 0x7F800000#32
  let main_v80 : FVec F S1x32 .f32 := broadcastInDim S1x32 ![] bcast_S_S1x32 main_cst_30
  let main_v81 : IVec S1x32 1 := cmpf .olt main_v79 main_v80
  let main_c_31 : IVec S_ 1 := constantI S_ 1 1#1
  let main_v82 : IVec S_ 1 := (fun x v => Host.reduce IntOp.andi x v reducesTo_S1x32_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S32 .f32) (main_arg14 : FVec F S32x32 .f32) (main_arg15 : FVec F S32 .f32) (main_arg16 : FVec F S32x32 .f32) (main_arg17 : FVec F S32 .f32) (main_arg18 : FVec F S1x32 .f32) (main_arg19 : FVec F S1 .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg14
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_arg19 main_v63 main_v67

def fn_part2 {F : FTy → Type} [FloatOps F] (main_arg9 : FVec F S32 .f32) (main_arg10 : FVec F S8192x8192 .f32) (main_arg11 : FVec F S8192 .f32) (main_arg12 : FVec F S32x128 .f32) (main_arg13 : FVec F S32 .f32) (main_arg14 : FVec F S32x32 .f32) (main_arg15 : FVec F S32 .f32) (main_arg16 : FVec F S32x32 .f32) (main_arg17 : FVec F S32 .f32) (main_arg18 : FVec F S1x32 .f32) (main_arg19 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S8192x8192 .f32 := Host.absf main_arg10
  let main_cst_14 : FVec F S_ .f32 := constant S_ .f32 0x7F800000#32
  let main_v40 : FVec F S8192x8192 .f32 := broadcastInDim S8192x8192 ![] bcast_S_S8192x8192 main_cst_14
  let main_v41 : IVec S8192x8192 1 := cmpf .olt main_v39 main_v40
  let main_c_15 : IVec S_ 1 := constantI S_ 1 1#1
  let main_v42 : IVec S_ 1 := (fun x v => Host.reduce IntOp.andi x v reducesTo_S8192x8192_S_d0_1 h_S_) main_v41 main_c_15
  let main_v43 : IVec S_ 1 := andi main_v38 main_v42
  let main_v44 : FVec F S8192 .f32 := Host.absf main_arg11
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  let main_v49 : FVec F S32x128 .f32 := Host.absf main_arg12
  let main_cst_18 : FVec F S_ .f32 := constant S_ .f32 0x7F800000#32
  let main_v50 : FVec F S32x128 .f32 := broadcastInDim S32x128 ![] bcast_S_S32x128 main_cst_18
  fn_part3 (F := F) main_arg13 main_arg14 main_arg15 main_arg16 main_arg17 main_arg18 main_arg19 main_v48 main_v49 main_v50

def fn_part1 {F : FTy → Type} [FloatOps F] (main_arg6 : FVec F S32x32 .f32) (main_arg7 : FVec F S32 .f32) (main_arg8 : FVec F S32x32 .f32) (main_arg9 : FVec F S32 .f32) (main_arg10 : FVec F S8192x8192 .f32) (main_arg11 : FVec F S8192 .f32) (main_arg12 : FVec F S32x128 .f32) (main_arg13 : FVec F S32 .f32) (main_arg14 : FVec F S32x32 .f32) (main_arg15 : FVec F S32 .f32) (main_arg16 : FVec F S32x32 .f32) (main_arg17 : FVec F S32 .f32) (main_arg18 : FVec F S1x32 .f32) (main_arg19 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S8192x128 .f32) (main_arg1 : FVec F S8192x128 .f32) (main_arg2 : IVec S2x262144 32) (main_arg3 : IVec S8192 1) (main_arg4 : FVec F S32x128 .f32) (main_arg5 : FVec F S32 .f32) (main_arg6 : FVec F S32x32 .f32) (main_arg7 : FVec F S32 .f32) (main_arg8 : FVec F S32x32 .f32) (main_arg9 : FVec F S32 .f32) (main_arg10 : FVec F S8192x8192 .f32) (main_arg11 : FVec F S8192 .f32) (main_arg12 : FVec F S32x128 .f32) (main_arg13 : FVec F S32 .f32) (main_arg14 : FVec F S32x32 .f32) (main_arg15 : FVec F S32 .f32) (main_arg16 : FVec F S32x32 .f32) (main_arg17 : FVec F S32 .f32) (main_arg18 : FVec F S1x32 .f32) (main_arg19 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S8192x128 : Shape := ⟨2, ![8192, 128]⟩
abbrev S2x262144 : Shape := ⟨2, ![2, 262144]⟩
abbrev S8192 : Shape := ⟨1, ![8192]⟩
abbrev S32x128 : Shape := ⟨2, ![32, 128]⟩
abbrev S32 : Shape := ⟨1, ![32]⟩
abbrev S32x32 : Shape := ⟨2, ![32, 32]⟩
abbrev S8192x8192 : Shape := ⟨2, ![8192, 8192]⟩
abbrev S1x32 : Shape := ⟨2, ![1, 32]⟩
abbrev S1 : Shape := ⟨1, ![1]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S128x32 : Shape := ⟨2, ![128, 32]⟩
abbrev S8192x32 : Shape := ⟨2, ![8192, 32]⟩
abbrev S8192x64 : Shape := ⟨2, ![8192, 64]⟩
abbrev S270336x64 : Shape := ⟨2, ![270336, 64]⟩
abbrev S32x8192 : Shape := ⟨2, ![32, 8192]⟩
abbrev S1x8192 : Shape := ⟨2, ![1, 8192]⟩
abbrev S512x8192 : Shape := ⟨2, ![512, 8192]⟩
abbrev S1x512 : Shape := ⟨2, ![1, 512]⟩
abbrev S32x1 : Shape := ⟨2, ![32, 1]⟩
abbrev S1x1 : Shape := ⟨2, ![1, 1]⟩

abbrev nBuf : Space → Nat
  | .hbm => 151
  | .vmem => 7
  | .smem => 0
  | _ => 0

abbrev hbmTy0_0 (i : Nat) : BufTy := match i % 128 with
  | 0 => ⟨S8192x128, .f32⟩
  | 1 => ⟨S8192x128, .f32⟩
  | 2 => ⟨S2x262144, .i32⟩
  | 3 => ⟨S8192, .i1⟩
  | 4 => ⟨S32x128, .f32⟩
  | 5 => ⟨S32, .f32⟩
  | 6 => ⟨S32x32, .f32⟩
  | 7 => ⟨S32, .f32⟩
  | 8 => ⟨S32x32, .f32⟩
  | 9 => ⟨S32, .f32⟩
  | 10 => ⟨S8192x8192, .f32⟩
  | 11 => ⟨S8192, .f32⟩
  | 12 => ⟨S32x128, .f32⟩
  | 13 => ⟨S32, .f32⟩
  | 14 => ⟨S32x32, .f32⟩
  | 15 => ⟨S32, .f32⟩
  | 16 => ⟨S32x32, .f32⟩
  | 17 => ⟨S32, .f32⟩
  | 18 => ⟨S1x32, .f32⟩
  | 19 => ⟨S1, .f32⟩
  | 20 => ⟨S1x262144, .i32⟩
  | 21 => ⟨S262144, .i32⟩
  | 22 => ⟨S1x262144, .i32⟩
  | 23 => ⟨S262144, .i32⟩
  | 24 => ⟨S8192, .i32⟩
  | 25 => ⟨S270336, .i32⟩
  | 26 => ⟨S270336, .i32⟩
  | 27 => ⟨S_, .f32⟩
  | 28 => ⟨S270336, .f32⟩
  | 29 => ⟨S_, .f32⟩
  | 30 => ⟨S8192, .f32⟩
  | 31 => ⟨S270336x1, .i32⟩
  | 32 => ⟨S8192, .f32⟩
  | 33 => ⟨S_, .f32⟩
  | 34 => ⟨S8192, .f32⟩
  | 35 => ⟨S8192, .i1⟩
  | 36 => ⟨S8192, .f32⟩
  | 37 => ⟨S_, .f32⟩
  | 38 => ⟨S_, .f32⟩
  | 39 => ⟨S8192, .f32⟩
  | 40 => ⟨S8192, .f32⟩
  | 41 => ⟨S_, .i32⟩
  | 42 => ⟨S270336, .i32⟩
  | 43 => ⟨S270336, .i1⟩
  | 44 => ⟨S_, .i32⟩
  | 45 => ⟨S270336, .i32⟩
  | 46 => ⟨S270336, .i32⟩
  | 47 => ⟨S270336, .i32⟩
  | 48 => ⟨S270336x1, .i32⟩
  | 49 => ⟨S270336, .f32⟩
  | 50 => ⟨S_, .i32⟩
  | 51 => ⟨S270336, .i32⟩
  | 52 => ⟨S270336, .i1⟩
  | 53 => ⟨S_, .i32⟩
  | 54 => ⟨S270336, .i32⟩
  | 55 => ⟨S270336, .i32⟩
  | 56 => ⟨S270336, .i32⟩
  | 57 => ⟨S270336x1, .i32⟩
  | 58 => ⟨S270336, .f32⟩
  | 59 => ⟨S270336, .f32⟩
  | 60 => ⟨S270336x1, .f32⟩
  | 61 => ⟨S128x32, .f32⟩
  | 62 => ⟨S8192x32, .f32⟩
  | 63 => ⟨S128x32, .f32⟩
  | 64 => ⟨S8192x32, .f32⟩
  | 65 => ⟨S8192x64, .f32⟩
  | 66 => ⟨S_, .i32⟩
  | 67 => ⟨S270336, .i32⟩
  | 68 => ⟨S270336, .i1⟩
  | 69 => ⟨S_, .i32⟩
  | 70 => ⟨S270336, .i32⟩
  | 71 => ⟨S270336, .i32⟩
  | 72 => ⟨S270336, .i32⟩
  | 73 => ⟨S270336x1, .i32⟩
  | 74 => ⟨S270336x64, .f32⟩
  | 75 => ⟨S270336x64, .f32⟩
  | 76 => ⟨S270336x64, .f32⟩
  | 77 => ⟨S_, .f32⟩
  | 78 => ⟨S8192x64, .f32⟩
  | 79 => ⟨S270336x1, .i32⟩
  | 80 => ⟨S8192x64, .f32⟩
  | 81 => ⟨S8192x32, .f32⟩
  | 82 => ⟨S1x32, .f32⟩
  | 83 => ⟨S8192x32, .f32⟩
  | 84 => ⟨S8192x32, .f32⟩
  | 85 => ⟨S8192x32, .f32⟩
  | 86 => ⟨S8192x32, .f32⟩
  | 87 => ⟨S1x32, .f32⟩
  | 88 => ⟨S8192x32, .f32⟩
  | 89 => ⟨S8192x32, .f32⟩
  | 90 => ⟨S8192x32, .f32⟩
  | 91 => ⟨S32x32, .f32⟩
  | 92 => ⟨S8192x32, .f32⟩
  | 93 => ⟨S32x32, .f32⟩
  | 94 => ⟨S8192x32, .f32⟩
  | 95 => ⟨S8192x64, .f32⟩
  | 96 => ⟨S_, .i32⟩
  | 97 => ⟨S270336, .i32⟩
  | 98 => ⟨S270336, .i1⟩
  | 99 => ⟨S_, .i32⟩
  | 100 => ⟨S270336, .i32⟩
  | 101 => ⟨S270336, .i32⟩
  | 102 => ⟨S270336, .i32⟩
  | 103 => ⟨S270336x1, .i32⟩
  | 104 => ⟨S270336x64, .f32⟩
  | 105 => ⟨S270336x64, .f32⟩
  | 106 => ⟨S270336x64, .f32⟩
  | 107 => ⟨S_, .f32⟩
  | 108 => ⟨S8192x64, .f32⟩
  | 109 => ⟨S270336x1, .i32⟩
  | 110 => ⟨S8192x64, .f32⟩
  | 111 => ⟨S8192x32, .f32⟩
  | 112 => ⟨S1x32, .f32⟩
  | 113 => ⟨S8192x32, .f32⟩
  | 114 => ⟨S8192x32, .f32⟩
  | 115 => ⟨S8192x32, .f32⟩
  | 116 => ⟨S8192x32, .f32⟩
  | 117 => ⟨S1x32, .f32⟩
  | 118 => ⟨S8192x32, .f32⟩
  | 119 => ⟨S8192x32, .f32⟩
  | 120 => ⟨S8192x32, .f32⟩
  | 121 => ⟨S32x32, .f32⟩
  | 122 => ⟨S8192x32, .f32⟩
  | 123 => ⟨S1x32, .f32⟩
  | 124 => ⟨S8192x32, .f32⟩
  | 125 => ⟨S8192x32, .f32⟩
  | 126 => ⟨S8192x32, .f32⟩
  | 127 => ⟨S32x8192, .f32⟩
  | _ => ⟨S8192x128, .f32⟩

abbrev hbmTy0_1 (i : Nat) : BufTy := match i % 128 with
  | 0 => ⟨S_, .f32⟩
  | 1 => ⟨S8192, .f32⟩
  | 2 => ⟨S1x8192, .f32⟩
  | 3 => ⟨S1x8192, .f32⟩
  | 4 => ⟨S1x8192, .f32⟩
  | 5 => ⟨S8192, .f32⟩
  | 6 => ⟨S_, .f32⟩
  | 7 => ⟨S8192, .f32⟩
  | 8 => ⟨S8192, .f32⟩
  | 9 => ⟨S32x32, .f32⟩
  | 10 => ⟨S8192x32, .f32⟩
  | 11 => ⟨S1x32, .f32⟩
  | 12 => ⟨S8192x32, .f32⟩
  | 13 => ⟨S8192x32, .f32⟩
  | 14 => ⟨S8192x32, .f32⟩
  | 15 => ⟨S_, .f32⟩
  | 16 => ⟨S32, .f32⟩
  | 17 => ⟨S1x32, .f32⟩
  | 18 => ⟨S32x1, .f32⟩
  | 19 => ⟨S1x1, .f32⟩
  | 20 => ⟨S1x1, .f32⟩
  | 21 => ⟨S1x1, .f32⟩
  | 22 => ⟨S1, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1x8192, .f32⟩
  | .local _ .vmem, ⟨1, _⟩ => ⟨S512x8192, .f32⟩
  | .local _ .vmem, ⟨2, _⟩ => ⟨S512x8192, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_9 : Ref sig .tc := ⟨.hbm, 96, rfl⟩
abbrev main_v63 : Ref sig .tc := ⟨.hbm, 97, rfl⟩
abbrev main_v64 : Ref sig .tc := ⟨.hbm, 98, rfl⟩
abbrev main_c_10 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_12 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_13 : Ref sig .tc := ⟨.hbm, 134, rfl⟩
abbrev main_call1_v0 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_14 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  transposes_S32x128_S128x32_1_0 : S32x128.Transposes [1, 0] S128x32
  concatenates_S8192x32_S8192x32_S8192x64_d1 : Shape.Concatenates [S8192x32, S8192x32] S8192x64 1
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  slices_S8192x64_S8192x32_0_0 : S8192x64.Slices ![0, 0] S8192x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  slices_S8192x64_S8192x32_0_32 : S8192x64.Slices ![0, 32] S8192x32
  transposes_S32x32_S32x32_1_0 : S32x32.Transposes [1, 0] S32x32
  transposes_S8192x32_S32x8192_1_0 : S8192x32.Transposes [1, 0] S32x8192
  reducesTo_S32x8192_S8192_d0 : S32x8192.ReducesTo [0] S8192
  h_S_ : 0 < S_.numel
  bcast_S8192_S1x8192_1 : S8192.BroadcastsInDim S1x8192 (![1] : Fin 1 → Fin S1x8192.rank)
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  bitsLt_bf16_f32 : FTy.bits .bf16 < FTy.bits .f32
  inb_S512x8192_S512x8192_0_0 : ∀ a, (![0, 0] : Fin 2 → Nat) a + S512x8192.size a ≤ S512x8192.size a
  h_S512x8192 : 0 < S512x8192.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x8192_S8192 : S1x8192.ShapeCasts S8192
  reducesTo_S8192x32_S32_d0 : S8192x32.ReducesTo [0] S32
  transposes_S1x32_S32x1_1_0 : S1x32.Transposes [1, 0] S32x1
  bcast_S1_S1x1_1 : S1.BroadcastsInDim S1x1 (![1] : Fin 1 → Fin S1x1.rank)
  shapeCasts_S1x1_S1 : S1x1.ShapeCasts S1
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x32_S8192x32_1_0_0_1_n_n_wf : DotDims.WF S8192x128 S128x32 S8192x32 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x32_S32x32_S8192x32_1_0_0_1_n_n_wf : DotDims.WF S8192x32 S32x32 S8192x32 [1] [0] [0] [1] [] []
  dot_S1x8192_S512x8192_S1x512_1_1_0_0_n_n_wf : DotDims.WF S1x8192 S512x8192 S1x512 [1] [1] [0] [0] [] []
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .f32 = 32 ∨ (Rect.block (s := S8192x8192) S512x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1x8192_S512x8192_S1x512_1_1_0_0_n_n : DotDims S1x8192 S512x8192 S1x512 where
  lhsContracting := [1]
  rhsContracting := [1]
  lhsNonContracting := [0]
  rhsNonContracting := [0]
  lhsBatch := []
  rhsBatch := []
  wf := dot_S1x8192_S512x8192_S1x512_1_1_0_0_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_v93) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v94) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v95) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S8192 : Shape := ⟨1, ![8192]⟩
abbrev S32x128 : Shape := ⟨2, ![32, 128]⟩
abbrev S32 : Shape := ⟨1, ![32]⟩
abbrev S32x32 : Shape := ⟨2, ![32, 32]⟩
abbrev S8192x8192 : Shape := ⟨2, ![8192, 8192]⟩
abbrev S1x32 : Shape := ⟨2, ![1, 32]⟩
abbrev S1 : Shape := ⟨1, ![1]⟩
abbrev S1x262144 : Shape := ⟨2, ![1, 262144]⟩
abbrev S262144 : Shape := ⟨1, ![262144]⟩
abbrev S128x32 : Shape := ⟨2, ![128, 32]⟩
abbrev S8192x32 : Shape := ⟨2, ![8192, 32]⟩
abbrev S270336 : Shape := ⟨1, ![270336]⟩
abbrev S_ : Shape := ⟨0, ![]⟩
abbrev S270336x1 : Shape := ⟨2, ![270336, 1]⟩
abbrev S270336x32 : Shape := ⟨2, ![270336, 32]⟩
abbrev S32x8192 : Shape := ⟨2, ![32, 8192]⟩
abbrev S1x8192 : Shape := ⟨2, ![1, 8192]⟩
abbrev S32x1 : Shape := ⟨2, ![32, 1]⟩
abbrev S1x1 : Shape := ⟨2, ![1, 1]⟩

abbrev nBuf : Space → Nat
  | .hbm => 288
  | .vmem => 0
  | .smem => 0
  | _ => 0

abbrev hbmTy0_0 (i : Nat) : BufTy := match i % 128 with
  | 0 => ⟨S8192x128, .f32⟩
  | 1 => ⟨S8192x128, .f32⟩
  | 2 => ⟨S2x262144, .i32⟩
  | 3 => ⟨S8192, .i1⟩
  | 4 => ⟨S32x128, .f32⟩
  | 5 => ⟨S32, .f32⟩
  | 6 => ⟨S32x32, .f32⟩
  | 7 => ⟨S32, .f32⟩
  | 8 => ⟨S32x32, .f32⟩
  | 9 => ⟨S32, .f32⟩
  | 10 => ⟨S8192x8192, .f32⟩
  | 11 => ⟨S8192, .f32⟩
  | 12 => ⟨S32x128, .f32⟩
  | 13 => ⟨S32, .f32⟩
  | 14 => ⟨S32x32, .f32⟩
  | 15 => ⟨S32, .f32⟩
  | 16 => ⟨S32x32, .f32⟩
  | 17 => ⟨S32, .f32⟩
  | 18 => ⟨S1x32, .f32⟩
  | 19 => ⟨S1, .f32⟩
  | 20 => ⟨S1x262144, .i32⟩
  | 21 => ⟨S262144, .i32⟩
  | 22 => ⟨S1x262144, .i32⟩
  | 23 => ⟨S262144, .i32⟩
  | 24 => ⟨S128x32, .f32⟩
  | 25 => ⟨S8192x32, .f32⟩
  | 26 => ⟨S8192, .i32⟩
  | 27 => ⟨S270336, .i32⟩
  | 28 => ⟨S270336, .i32⟩
  | 29 => ⟨S_, .f32⟩
  | 30 => ⟨S270336, .f32⟩
  | 31 => ⟨S_, .f32⟩
  | 32 => ⟨S8192, .f32⟩
  | 33 => ⟨S270336x1, .i32⟩
  | 34 => ⟨S8192, .f32⟩
  | 35 => ⟨S_, .f32⟩
  | 36 => ⟨S8192, .f32⟩
  | 37 => ⟨S8192, .i1⟩
  | 38 => ⟨S8192, .f32⟩
  | 39 => ⟨S_, .f32⟩
  | 40 => ⟨S_, .f32⟩
  | 41 => ⟨S8192, .f32⟩
  | 42 => ⟨S8192, .f32⟩
  | 43 => ⟨S_, .i32⟩
  | 44 => ⟨S270336, .i32⟩
  | 45 => ⟨S270336, .i1⟩
  | 46 => ⟨S_, .i32⟩
  | 47 => ⟨S270336, .i32⟩
  | 48 => ⟨S270336, .i32⟩
  | 49 => ⟨S270336, .i32⟩
  | 50 => ⟨S270336x1, .i32⟩
  | 51 => ⟨S270336, .f32⟩
  | 52 => ⟨S_, .i32⟩
  | 53 => ⟨S270336, .i32⟩
  | 54 => ⟨S270336, .i1⟩
  | 55 => ⟨S_, .i32⟩
  | 56 => ⟨S270336, .i32⟩
  | 57 => ⟨S270336, .i32⟩
  | 58 => ⟨S270336, .i32⟩
  | 59 => ⟨S270336x1, .i32⟩
  | 60 => ⟨S270336, .f32⟩
  | 61 => ⟨S270336, .f32⟩
  | 62 => ⟨S270336x1, .f32⟩
  | 63 => ⟨S_, .i32⟩
  | 64 => ⟨S270336, .i32⟩
  | 65 => ⟨S270336, .i1⟩
  | 66 => ⟨S_, .i32⟩
  | 67 => ⟨S270336, .i32⟩
  | 68 => ⟨S270336, .i32⟩
  | 69 => ⟨S270336, .i32⟩
  | 70 => ⟨S270336x1, .i32⟩
  | 71 => ⟨S270336x32, .f32⟩
  | 72 => ⟨S270336x32, .f32⟩
  | 73 => ⟨S270336x32, .f32⟩
  | 74 => ⟨S_, .f32⟩
  | 75 => ⟨S8192x32, .f32⟩
  | 76 => ⟨S270336x1, .i32⟩
  | 77 => ⟨S8192x32, .f32⟩
  | 78 => ⟨S1x32, .f32⟩
  | 79 => ⟨S8192x32, .f32⟩
  | 80 => ⟨S8192x32, .f32⟩
  | 81 => ⟨S8192x32, .f32⟩
  | 82 => ⟨S32x32, .f32⟩
  | 83 => ⟨S8192x32, .f32⟩
  | 84 => ⟨S8192, .i32⟩
  | 85 => ⟨S270336, .i32⟩
  | 86 => ⟨S270336, .i32⟩
  | 87 => ⟨S_, .f32⟩
  | 88 => ⟨S270336, .f32⟩
  | 89 => ⟨S_, .f32⟩
  | 90 => ⟨S8192, .f32⟩
  | 91 => ⟨S270336x1, .i32⟩
  | 92 => ⟨S8192, .f32⟩
  | 93 => ⟨S_, .f32⟩
  | 94 => ⟨S8192, .f32⟩
  | 95 => ⟨S8192, .i1⟩
  | 96 => ⟨S8192, .f32⟩
  | 97 => ⟨S_, .f32⟩
  | 98 => ⟨S_, .f32⟩
  | 99 => ⟨S8192, .f32⟩
  | 100 => ⟨S8192, .f32⟩
  | 101 => ⟨S_, .i32⟩
  | 102 => ⟨S270336, .i32⟩
  | 103 => ⟨S270336, .i1⟩
  | 104 => ⟨S_, .i32⟩
  | 105 => ⟨S270336, .i32⟩
  | 106 => ⟨S270336, .i32⟩
  | 107 => ⟨S270336, .i32⟩
  | 108 => ⟨S270336x1, .i32⟩
  | 109 => ⟨S270336, .f32⟩
  | 110 => ⟨S_, .i32⟩
  | 111 => ⟨S270336, .i32⟩
  | 112 => ⟨S270336, .i1⟩
  | 113 => ⟨S_, .i32⟩
  | 114 => ⟨S270336, .i32⟩
  | 115 => ⟨S270336, .i32⟩
  | 116 => ⟨S270336, .i32⟩
  | 117 => ⟨S270336x1, .i32⟩
  | 118 => ⟨S270336, .f32⟩
  | 119 => ⟨S270336, .f32⟩
  | 120 => ⟨S270336x1, .f32⟩
  | 121 => ⟨S_, .i32⟩
  | 122 => ⟨S270336, .i32⟩
  | 123 => ⟨S270336, .i1⟩
  | 124 => ⟨S_, .i32⟩
  | 125 => ⟨S270336, .i32⟩
  | 126 => ⟨S270336, .i32⟩
  | 127 => ⟨S270336, .i32⟩
  | _ => ⟨S8192x128, .f32⟩

abbrev hbmTy0_1 (i : Nat) : BufTy := match i % 128 with
  | 0 => ⟨S270336x1, .i32⟩
  | 1 => ⟨S270336x32, .f32⟩
  | 2 => ⟨S270336x32, .f32⟩
  | 3 => ⟨S270336x32, .f32⟩
  | 4 => ⟨S_, .f32⟩
  | 5 => ⟨S8192x32, .f32⟩
  | 6 => ⟨S270336x1, .i32⟩
  | 7 => ⟨S8192x32, .f32⟩
  | 8 => ⟨S1x32, .f32⟩
  | 9 => ⟨S8192x32, .f32⟩
  | 10 => ⟨S8192x32, .f32⟩
  | 11 => ⟨S8192x32, .f32⟩
  | 12 => ⟨S32x32, .f32⟩
  | 13 => ⟨S8192x32, .f32⟩
  | 14 => ⟨S1x32, .f32⟩
  | 15 => ⟨S8192x32, .f32⟩
  | 16 => ⟨S8192x32, .f32⟩
  | 17 => ⟨S8192x32, .f32⟩
  | 18 => ⟨S32x8192, .f32⟩
  | 19 => ⟨S_, .f32⟩
  | 20 => ⟨S8192, .f32⟩
  | 21 => ⟨S1x8192, .f32⟩
  | 22 => ⟨S8192x8192, .f32⟩
  | 23 => ⟨S1x8192, .f32⟩
  | 24 => ⟨S1x8192, .f32⟩
  | 25 => ⟨S1x8192, .f32⟩
  | 26 => ⟨S8192, .f32⟩
  | 27 => ⟨S_, .f32⟩
  | 28 => ⟨S8192, .f32⟩
  | 29 => ⟨S8192, .f32⟩
  | 30 => ⟨S128x32, .f32⟩
  | 31 => ⟨S8192x32, .f32⟩
  | 32 => ⟨S8192, .i32⟩
  | 33 => ⟨S270336, .i32⟩
  | 34 => ⟨S270336, .i32⟩
  | 35 => ⟨S_, .f32⟩
  | 36 => ⟨S270336, .f32⟩
  | 37 => ⟨S_, .f32⟩
  | 38 => ⟨S8192, .f32⟩
  | 39 => ⟨S270336x1, .i32⟩
  | 40 => ⟨S8192, .f32⟩
  | 41 => ⟨S_, .f32⟩
  | 42 => ⟨S8192, .f32⟩
  | 43 => ⟨S8192, .i1⟩
  | 44 => ⟨S8192, .f32⟩
  | 45 => ⟨S_, .f32⟩
  | 46 => ⟨S_, .f32⟩
  | 47 => ⟨S8192, .f32⟩
  | 48 => ⟨S8192, .f32⟩
  | 49 => ⟨S_, .i32⟩
  | 50 => ⟨S270336, .i32⟩
  | 51 => ⟨S270336, .i1⟩
  | 52 => ⟨S_, .i32⟩
  | 53 => ⟨S270336, .i32⟩
  | 54 => ⟨S270336, .i32⟩
  | 55 => ⟨S270336, .i32⟩
  | 56 => ⟨S270336x1, .i32⟩
  | 57 => ⟨S270336, .f32⟩
  | 58 => ⟨S_, .i32⟩
  | 59 => ⟨S270336, .i32⟩
  | 60 => ⟨S270336, .i1⟩
  | 61 => ⟨S_, .i32⟩
  | 62 => ⟨S270336, .i32⟩
  | 63 => ⟨S270336, .i32⟩
  | 64 => ⟨S270336, .i32⟩
  | 65 => ⟨S270336x1, .i32⟩
  | 66 => ⟨S270336, .f32⟩
  | 67 => ⟨S270336, .f32⟩
  | 68 => ⟨S270336x1, .f32⟩
  | 69 => ⟨S_, .i32⟩
  | 70 => ⟨S270336, .i32⟩
  | 71 => ⟨S270336, .i1⟩
  | 72 => ⟨S_, .i32⟩
  | 73 => ⟨S270336, .i32⟩
  | 74 => ⟨S270336, .i32⟩
  | 75 => ⟨S270336, .i32⟩
  | 76 => ⟨S270336x1, .i32⟩
  | 77 => ⟨S270336x32, .f32⟩
  | 78 => ⟨S270336x32, .f32⟩
  | 79 => ⟨S270336x32, .f32⟩
  | 80 => ⟨S_, .f32⟩
  | 81 => ⟨S8192x32, .f32⟩
  | 82 => ⟨S270336x1, .i32⟩
  | 83 => ⟨S8192x32, .f32⟩
  | 84 => ⟨S1x32, .f32⟩
  | 85 => ⟨S8192x32, .f32⟩
  | 86 => ⟨S8192x32, .f32⟩
  | 87 => ⟨S8192x32, .f32⟩
  | 88 => ⟨S32x32, .f32⟩
  | 89 => ⟨S8192x32, .f32⟩
  | 90 => ⟨S8192, .i32⟩
  | 91 => ⟨S270336, .i32⟩
  | 92 => ⟨S270336, .i32⟩
  | 93 => ⟨S_, .f32⟩
  | 94 => ⟨S270336, .f32⟩
  | 95 => ⟨S_, .f32⟩
  | 96 => ⟨S8192, .f32⟩
  | 97 => ⟨S270336x1, .i32⟩
  | 98 => ⟨S8192, .f32⟩
  | 99 => ⟨S_, .f32⟩
  | 100 => ⟨S8192, .f32⟩
  | 101 => ⟨S8192, .i1⟩
  | 102 => ⟨S8192, .f32⟩
  | 103 => ⟨S_, .f32⟩
  | 104 => ⟨S_, .f32⟩
  | 105 => ⟨S8192, .f32⟩
  | 106 => ⟨S8192, .f32⟩
  | 107 => ⟨S_, .i32⟩
  | 108 => ⟨S270336, .i32⟩
  | 109 => ⟨S270336, .i1⟩
  | 110 => ⟨S_, .i32⟩
  | 111 => ⟨S270336, .i32⟩
  | 112 => ⟨S270336, .i32⟩
  | 113 => ⟨S270336, .i32⟩
  | 114 => ⟨S270336x1, .i32⟩
  | 115 => ⟨S270336, .f32⟩
  | 116 => ⟨S_, .i32⟩
  | 117 => ⟨S270336, .i32⟩
  | 118 => ⟨S270336, .i1⟩
  | 119 => ⟨S_, .i32⟩
  | 120 => ⟨S270336, .i32⟩
  | 121 => ⟨S270336, .i32⟩
  | 122 => ⟨S270336, .i32⟩
  | 123 => ⟨S270336x1, .i32⟩
  | 124 => ⟨S270336, .f32⟩
  | 125 => ⟨S270336, .f32⟩
  | 126 => ⟨S270336x1, .f32⟩
  | 127 => ⟨S_, .i32⟩
  | _ => ⟨S8192x128, .f32⟩

abbrev hbmTy0_2 (i : Nat) : BufTy := match i % 128 with
  | 0 => ⟨S270336, .i32⟩
  | 1 => ⟨S270336, .i1⟩
  | 2 => ⟨S_, .i32⟩
  | 3 => ⟨S270336, .i32⟩
  | 4 => ⟨S270336, .i32⟩
  | 5 => ⟨S270336, .i32⟩
  | 6 => ⟨S270336x1, .i32⟩
  | 7 => ⟨S270336x32, .f32⟩
  | 8 => ⟨S270336x32, .f32⟩
  | 9 => ⟨S270336x32, .f32⟩
  | 10 => ⟨S_, .f32⟩
  | 11 => ⟨S8192x32, .f32⟩
  | 12 => ⟨S270336x1, .i32⟩
  | 13 => ⟨S8192x32, .f32⟩
  | 14 => ⟨S1x32, .f32⟩
  | 15 => ⟨S8192x32, .f32⟩
  | 16 => ⟨S8192x32, .f32⟩
  | 17 => ⟨S8192x32, .f32⟩
  | 18 => ⟨S32x32, .f32⟩
  | 19 => ⟨S8192x32, .f32⟩
  | 20 => ⟨S1x32, .f32⟩
  | 21 => ⟨S8192x32, .f32⟩
  | 22 => ⟨S8192x32, .f32⟩
  | 23 => ⟨S8192x32, .f32⟩
  | 24 => ⟨S_, .f32⟩
  | 25 => ⟨S32, .f32⟩
  | 26 => ⟨S1x32, .f32⟩
  | 27 => ⟨S32x1, .f32⟩
  | 28 => ⟨S1x1, .f32⟩
  | 29 => ⟨S1x1, .f32⟩
  | 30 => ⟨S1x1, .f32⟩
  | 31 => ⟨S1, .f32⟩
  | _ => ⟨S8192x128, .f32⟩

abbrev hbmTy (i : Nat) : BufTy := match i / 128 with
  | 0 => hbmTy0_0 i
  | 1 => hbmTy0_1 i
  | 2 => hbmTy0_2 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_call1_v0 : Ref sig .tc := ⟨.hbm, 98, rfl⟩
abbrev main_call1_v1 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_c_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_c_15 : Ref sig .tc := ⟨.hbm, 110, rfl⟩
abbrev main_v69 : Ref sig .tc := ⟨.hbm, 111, rfl⟩
abbrev main_v70 : Ref sig .tc := ⟨.hbm, 112, rfl⟩
abbrev main_c_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_17 : Ref sig .tc := ⟨.hbm, 121, rfl⟩
abbrev main_v78 : Ref sig .tc := ⟨.hbm, 122, rfl⟩
abbrev main_v79 : Ref sig .tc := ⟨.hbm, 123, rfl⟩
abbrev main_c_18 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_19 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_21 : Ref sig .tc := ⟨.hbm, 155, rfl⟩
abbrev main_call2_v0 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_22 : Ref sig .tc := ⟨.hbm, 163, rfl⟩
abbrev main_v114 : Ref sig .tc := ⟨.hbm, 164, rfl⟩
abbrev main_cst_23 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_24 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_25 : Ref sig .tc := ⟨.hbm, 173, rfl⟩
abbrev main_call3_v0 : Ref sig .tc := ⟨.hbm, 174, rfl⟩
abbrev main_call3_v1 : Ref sig .tc := ⟨.hbm, 175, rfl⟩
abbrev main_v121 : Ref sig .tc := ⟨.hbm, 176, rfl⟩
abbrev main_c_26 : Ref sig .tc := ⟨.hbm, 177, rfl⟩
abbrev main_v122 : Ref sig .tc := ⟨.hbm, 178, rfl⟩
abbrev main_v123 : Ref sig .tc := ⟨.hbm, 179, rfl⟩
abbrev main_c_27 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_c_28 : Ref sig .tc := ⟨.hbm, 186, rfl⟩
abbrev main_v129 : Ref sig .tc := ⟨.hbm, 187, rfl⟩
abbrev main_v130 : Ref sig .tc := ⟨.hbm, 188, rfl⟩
abbrev main_c_29 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_c_30 : Ref sig .tc := ⟨.hbm, 197, rfl⟩
abbrev main_v138 : Ref sig .tc := ⟨.hbm, 198, rfl⟩
abbrev main_v139 : Ref sig .tc := ⟨.hbm, 199, rfl⟩
abbrev main_c_31 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_32 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_cst_33 : Ref sig .tc := ⟨.hbm, 221, rfl⟩
abbrev main_v159 : Ref sig .tc := ⟨.hbm, 222, rfl⟩
abbrev main_cst_34 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_cst_35 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_cst_36 : Ref sig .tc := ⟨.hbm, 231, rfl⟩
abbrev main_call4_v0 : Ref sig .tc := ⟨.hbm, 232, rfl⟩
abbrev main_call4_v1 : Ref sig .tc := ⟨.hbm, 233, rfl⟩
abbrev main_v166 : Ref sig .tc := ⟨.hbm, 234, rfl⟩
abbrev main_c_37 : Ref sig .tc := ⟨.hbm, 235, rfl⟩
abbrev main_v167 : Ref sig .tc := ⟨.hbm, 236, rfl⟩
abbrev main_v168 : Ref sig .tc := ⟨.hbm, 237, rfl⟩
abbrev main_c_38 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_c_39 : Ref sig .tc := ⟨.hbm, 244, rfl⟩
abbrev main_v174 : Ref sig .tc := ⟨.hbm, 245, rfl⟩
abbrev main_v175 : Ref sig .tc := ⟨.hbm, 246, rfl⟩
abbrev main_c_40 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_c_41 : Ref sig .tc := ⟨.hbm, 255, rfl⟩
abbrev main_v183 : Ref sig .tc := ⟨.hbm, 256, rfl⟩
abbrev main_v184 : Ref sig .tc := ⟨.hbm, 257, rfl⟩
abbrev main_c_42 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_cst_43 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_cst_44 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  transposes_S32x128_S128x32_1_0 : S32x128.Transposes [1, 0] S128x32
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S32x32_S32x32_1_0 : S32x32.Transposes [1, 0] S32x32
  transposes_S8192x32_S32x8192_1_0 : S8192x32.Transposes [1, 0] S32x8192
  reducesTo_S32x8192_S8192_d0 : S32x8192.ReducesTo [0] S8192
  h_S_ : 0 < S_.numel
  bcast_S8192_S1x8192_1 : S8192.BroadcastsInDim S1x8192 (![1] : Fin 1 → Fin S1x8192.rank)
  transposes_S8192x8192_S8192x8192_1_0 : S8192x8192.Transposes [1, 0] S8192x8192
  shapeCasts_S1x8192_S8192 : S1x8192.ShapeCasts S8192
  reducesTo_S8192x32_S32_d0 : S8192x32.ReducesTo [0] S32
  transposes_S1x32_S32x1_1_0 : S1x32.Transposes [1, 0] S32x1
  bcast_S1_S1x1_1 : S1.BroadcastsInDim S1x1 (![1] : Fin 1 → Fin S1x1.rank)
  shapeCasts_S1x1_S1 : S1x1.ShapeCasts S1
  dot_S8192x128_S128x32_S8192x32_1_0_0_1_n_n_wf : DotDims.WF S8192x128 S128x32 S8192x32 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S8192x32_S32x32_S8192x32_1_0_0_1_n_n_wf : DotDims.WF S8192x32 S32x32 S8192x32 [1] [0] [0] [1] [] []
  dot_S1x8192_S8192x8192_S1x8192_1_0_0_1_n_n_wf : DotDims.WF S1x8192 S8192x8192 S1x8192 [1] [0] [0] [1] [] []
  dot_S1x32_S32x1_S1x1_1_0_0_1_n_n_wf : DotDims.WF S1x32 S32x1 S1x1 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.Spec.lean ====
/-
  The graph network of this certificate, stage by stage, as functions of whole arrays.

  Two stacked graph convolutions feed a policy head and a value head.  One convolution of a feature matrix X
  (8192 nodes) over the edge list e (262144 edges, to which the 8192 self loops are appended) is

      agg X [r, c] = sum over the edges j with target r of  X[source j, c] * norm [j],
      norm [j]     = dinv[source j] * dinv[target j],   dinv = 1 / sqrt(degree) where the degree is positive, else 0,

  the degree of a node being the number of edges that point at it.  A negative source index is read from the end
  of the array (8192 is added to it); a gather clamps, a scatter drops what falls outside.

  The reference aggregates the policy features and the value features separately, 32 columns each
  (`agg32`).  The kernel's program lays the two 32-column blocks side by side (`pack`), aggregates the 64
  columns at once (`agg64`) and cuts the two halves out again (`lo`, `hi`).  Every stage below is spelt with
  the printed programs' own operations and dimension records, so that each program's buffers ARE these
  functions of the argument arrays; nothing here depends on the float instance.
-/
import proofs.«128091_j10213432230367_2_alg».proof.KernelIdeal
import proofs.«128091_j10213432230367_2_alg».proof.ReferenceIdeal

noncomputable section

namespace Cert.Spec

open Idealize.ShloMosaic Cert.ReferenceIdeal

variable {F : FTy → Type} [FloatOps F] [Cert.ReferenceIdeal.Facts₀] [Cert.KernelIdeal.Facts₀]

open Cert.ReferenceIdeal.Facts₀

/-- A float array of shape `s`. -/
abbrev Fv (F : FTy → Type) [FloatOps F] (s : Shape) : Type := (⟨s, .f32⟩ : BufTy).Contents (Elt F)
/-- An index array of shape `s`. -/
abbrev Iv (F : FTy → Type) [FloatOps F] (s : Shape) : Type := (⟨s, .i32⟩ : BufTy).Contents (Elt F)
/-- A mask of shape `s`. -/
abbrev Bv (F : FTy → Type) [FloatOps F] (s : Shape) : Type := (⟨s, .i1⟩ : BufTy).Contents (Elt F)

/-- An index vector of the 262144 edges followed by the self loops 0, …, 8191. -/
def loops (row : Iv F S262144) : Iv F S270336 :=
  concatenate S270336 0 [⟨S262144, row⟩, ⟨S8192, iotaInDim S8192 32 0⟩] concatenates_S262144_S8192_S270336_d0

/-- The edges' sources: row 0 of the edge list. -/
def row0 (e : Iv F S2x262144) : Iv F S262144 :=
  shapeCast S262144 (extractStridedSlice S1x262144 ![0, 0] e slices_S2x262144_S1x262144_0_0) shapeCasts_S1x262144_S262144

/-- The edges' targets: row 1 of the edge list. -/
def row1 (e : Iv F S2x262144) : Iv F S262144 :=
  shapeCast S262144 (extractStridedSlice S1x262144 ![1, 0] e slices_S2x262144_S1x262144_1_0) shapeCasts_S1x262144_S262144

/-- The sources with the self loops appended. -/
def src (e : Iv F S2x262144) : Iv F S270336 := loops (row0 e)

/-- The targets with the self loops appended. -/
def dst (e : Iv F S2x262144) : Iv F S270336 := loops (row1 e)

/-- An index vector as the index column a scatter reads. -/
def col (i : Iv F S270336) : Iv F S270336x1 := broadcastInDim S270336x1 ![0] bcast_S270336_S270336x1_0 i

/-- An index vector with its negative entries counted from the end (8192 added), as the index column a gather reads. -/
def wrapCol (i : Iv F S270336) : Iv F S270336x1 :=
  broadcastInDim S270336x1 ![0] bcast_S270336_S270336x1_0
    (select (cmpi .slt i (broadcastInDim S270336 ![] bcast_S_S270336 (constantI S_ 32 0#32)))
      (addi i (broadcastInDim S270336 ![] bcast_S_S270336 (constantI S_ 32 8192#32))) i)

/-- The degree of every node: the number of edges (self loops included) with that target. -/
def deg (d : Iv F S270336) : Fv F S8192 :=
  Host.scatterAdd scatter_S8192_S270336x1_S270336_n_0_0_1 (broadcastInDim S8192 ![] bcast_S_S8192 (constant S_ .f32 0x00000000#32))
    (col d) (broadcastInDim S270336 ![] bcast_S_S270336 (constant S_ .f32 0x3F800000#32))

/-- `1 / sqrt(degree)` where the degree is positive, `0` elsewhere. -/
def dinv (d : Iv F S270336) : Fv F S8192 :=
  select (cmpf .ogt (deg d) (broadcastInDim S8192 ![] bcast_S_S8192 (constant S_ .f32 0x00000000#32))) (Host.rsqrt (deg d))
    (broadcastInDim S8192 ![] bcast_S_S8192 (id (constant S_ .f32 0x00000000#32)))

/-- The edge weights `dinv[source] * dinv[target]`, as a column. -/
def norm (s d : Iv F S270336) : Fv F S270336x1 :=
  broadcastInDim S270336x1 ![0] bcast_S270336_S270336x1_0
    (mulf (Host.gather gather_S8192_S270336x1_S270336_n_0_n_n_0_1_1 (dinv d) (wrapCol s))
      (Host.gather gather_S8192_S270336x1_S270336_n_0_n_n_0_1_1 (dinv d) (wrapCol d)))

/-- The first layer's linear map: a 128-feature matrix times the transposed 32 x 128 weights. -/
def xw128 (X : Fv F S8192x128) (W : Fv F S32x128) : Fv F S8192x32 :=
  Host.dotGeneral dot_S8192x128_S128x32_S8192x32_1_0_0_1_n_n none X (transpose S128x32 [1, 0] W transposes_S32x128_S128x32_1_0)

/-- A later layer's linear map: a 32-feature matrix times the transposed 32 x 32 weights. -/
def xw32 (X : Fv F S8192x32) (W : Fv F S32x32) : Fv F S8192x32 :=
  Host.dotGeneral dot_S8192x32_S32x32_S8192x32_1_0_0_1_n_n none X (transpose S32x32 [1, 0] W transposes_S32x32_S32x32_1_0)

/-- The weighted aggregation of a 32-column feature matrix: row `r` collects, over the edges with target `r`,
    the source's row times the edge's weight. -/
def agg32 (s d : Iv F S270336) (nrm : Fv F S270336x1) (X : Fv F S8192x32) : Fv F S8192x32 :=
  Host.scatterAdd scatter_S8192x32_S270336x1_S270336x32_1_0_0_1 (broadcastInDim S8192x32 ![] bcast_S_S8192x32 (constant S_ .f32 0x00000000#32))
    (col d)
    (mulf (Host.gather gather_S8192x32_S270336x1_S270336x32_1_0_n_n_0_1_132 X (wrapCol s))
      (broadcastInDim S270336x32 ![0, 1] bcast_S270336x1_S270336x32_0_1 nrm))

/-- The same aggregation of a 64-column feature matrix. -/
def agg64 (s d : Iv F S270336) (nrm : Fv F S270336x1) (X : Fv F Cert.KernelIdeal.S8192x64) : Fv F Cert.KernelIdeal.S8192x64 :=
  Host.scatterAdd Cert.KernelIdeal.scatter_S8192x64_S270336x1_S270336x64_1_0_0_1
    (broadcastInDim Cert.KernelIdeal.S8192x64 ![] Cert.KernelIdeal.Facts₀.bcast_S_S8192x64 (constant S_ .f32 0x00000000#32))
    (col d)
    (mulf (Host.gather Cert.KernelIdeal.gather_S8192x64_S270336x1_S270336x64_1_0_n_n_0_1_164 X (wrapCol s))
      (broadcastInDim Cert.KernelIdeal.S270336x64 ![0, 1] Cert.KernelIdeal.Facts₀.bcast_S270336x1_S270336x64_0_1 nrm))

/-- Two 32-column blocks side by side. -/
def pack (A B : Fv F S8192x32) : Fv F Cert.KernelIdeal.S8192x64 :=
  concatenate Cert.KernelIdeal.S8192x64 1 [⟨S8192x32, A⟩, ⟨S8192x32, B⟩] Cert.KernelIdeal.Facts₀.concatenates_S8192x32_S8192x32_S8192x64_d1

/-- Columns 0 … 31 of a 64-column matrix. -/
def lo (X : Fv F Cert.KernelIdeal.S8192x64) : Fv F S8192x32 :=
  extractStridedSlice S8192x32 ![0, 0] X Cert.KernelIdeal.Facts₀.slices_S8192x64_S8192x32_0_0

/-- Columns 32 … 63 of a 64-column matrix. -/
def hi (X : Fv F Cert.KernelIdeal.S8192x64) : Fv F S8192x32 :=
  extractStridedSlice S8192x32 ![0, 32] X Cert.KernelIdeal.Facts₀.slices_S8192x64_S8192x32_0_32

/-- A layer's activation: `tanh (Y + b)`, the bias `b` added to every row. -/
def act (Y : Fv F S8192x32) (b : Fv F S32) : Fv F S8192x32 :=
  Host.tanh (addf Y (broadcastInDim S8192x32 ![0, 1] bcast_S1x32_S8192x32_0_1 (broadcastInDim S1x32 ![1] bcast_S32_S1x32_1 b)))

/-- The policy head's pooled row: entry `n` is the sum of node `n`'s 32 features. -/
def pooled (h : Fv F S8192x32) : Fv F S1x8192 :=
  broadcastInDim S1x8192 ![1] bcast_S8192_S1x8192_1
    (Host.reduceAdd (transpose S32x8192 [1, 0] h transposes_S8192x32_S32x8192_1_0) (constant S_ .f32 0x00000000#32) reducesTo_S32x8192_S8192_d0 h_S_)

/-- The value head: the features summed over the nodes, times the transposed 1 x 32 weights, plus the bias. -/
def valueHead (v : Fv F S8192x32) (Wov : Fv F S1x32) (bov : Fv F S1) : Fv F S1 :=
  shapeCast S1
    (addf (Host.dotGeneral dot_S1x32_S32x1_S1x1_1_0_0_1_n_n none
        (broadcastInDim S1x32 ![1] bcast_S32_S1x32_1 (Host.reduceAdd v (constant S_ .f32 0x00000000#32) reducesTo_S8192x32_S32_d0 h_S_))
        (transpose S32x1 [1, 0] Wov transposes_S1x32_S32x1_1_0))
      (broadcastInDim S1x1 ![1] bcast_S1_S1x1_1 bov))
    shapeCasts_S1x1_S1

/-- The masked logits: the logits where the mask holds, the sentinel `-1e32` elsewhere. -/
def masked (mk : Bv F S8192) (l : Fv F S8192) : Fv F S8192 :=
  select mk l (broadcastInDim S8192 ![] bcast_S_S8192 (constant S_ .f32 0xF49DC5AE#32))

/-- The reference's logits row from the pooled row: `pooled · Wopᵀ + bop`. -/
def logitsRow (p : Fv F S1x8192) (Wop : Fv F S8192x8192) (bop : Fv F S8192) : Fv F S1x8192 :=
  addf (Host.dotGeneral dot_S1x8192_S8192x8192_S1x8192_1_0_0_1_n_n none p (transpose S8192x8192 [1, 0] Wop transposes_S8192x8192_S8192x8192_1_0))
    (broadcastInDim S1x8192 ![1] bcast_S8192_S1x8192_1 bop)

/-- One graph convolution as the reference runs it: the linear map's output aggregated with freshly computed weights,
    then the activation. -/
def conv (s d : Iv F S270336) (XW : Fv F S8192x32) (b : Fv F S32) : Fv F S8192x32 :=
  act (agg32 s d (norm s d) XW) b

/-- The policy features after both convolutions and the head's linear layer. -/
def policyFeat (e : Iv F S2x262144) (xp : Fv F S8192x128) (W1 : Fv F S32x128) (b1 : Fv F S32) (W2 : Fv F S32x32) (b2 : Fv F S32)
    (Wl : Fv F S32x32) (bl : Fv F S32) : Fv F S8192x32 :=
  act (xw32 (conv (src e) (dst e) (xw32 (conv (src e) (dst e) (xw128 xp W1) b1) W2) b2) Wl) bl

/-- The masked logits, the network's first result. -/
def out0 (mk : Bv F S8192) (h : Fv F S8192x32) (Wop : Fv F S8192x8192) (bop : Fv F S8192) : Fv F S8192 :=
  masked mk (shapeCast S8192 (logitsRow (pooled h) Wop bop) shapeCasts_S1x8192_S8192)

end Cert.Spec

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.KStretchA.lean ====
/-
  The graph's bookkeeping in the kernel's program, read off its host operations.

  From any contents W of the buffers: the two rows of the edge list get the 8192 self loops appended (sources and
  targets), the targets are counted into the degrees, the degrees are inverted under a square root where positive,
  and every edge's weight is the product of that quantity at its source and at its target.  The three values the
  later stretches read (sources, targets, weights) are stated as the specification's functions of the edge list.
-/
import proofs.«128091_j10213432230367_2_alg».proof.Proof.Gen.KernelIdeal.Launch
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The operations of this stretch, in the program's order. -/
abbrev sA : List (HloOp τ sig (Elt F)) :=
  [ StableHlo.unary main_arg2 main_v0 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v0 main_v1 rfl shapeCasts_S1x262144_S262144,
    StableHlo.unary main_arg2 main_v2 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v2 main_v3 rfl shapeCasts_S1x262144_S262144,
    StableHlo.nullary main_v4 (iotaInDim S8192 32 0),
    StableHlo.binary main_v1 main_v4 main_v5 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.binary main_v3 main_v4 main_v6 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    StableHlo.nullary main_cst (constant S_ .f32 0x3F800000#32),
    StableHlo.unary main_cst main_v7 (broadcastInDim S270336 ![] bcast_S_S270336 : (⟨S_, .f32⟩ : BufTy).Contents (Elt F) → (⟨S270336, .f32⟩ : BufTy).Contents (Elt F)),
    StableHlo.nullary main_cst_0 (constant S_ .f32 0x00000000#32),
    StableHlo.unary main_cst_0 main_v8 (broadcastInDim S8192 ![] bcast_S_S8192 : (⟨S_, .f32⟩ : BufTy).Contents (Elt F) → (⟨S8192, .f32⟩ : BufTy).Contents (Elt F)),
    StableHlo.unary main_v6 main_v9 (broadcastInDim S270336x1 ![0] bcast_S270336_S270336x1_0 : (⟨S270336, .i32⟩ : BufTy).Contents (Elt F) → (⟨S270336x1, .i32⟩ : BufTy).Contents (Elt F)),
    StableHlo.ternary main_v8 main_v9 main_v7 main_v10 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    StableHlo.nullary main_cst_1 (constant S_ .f32 0x00000000#32),
    StableHlo.unary main_cst_1 main_v11 (broadcastInDim S8192 ![] bcast_S_S8192 : (⟨S_, .f32⟩ : BufTy).Contents (Elt F) → (⟨S8192, .f32⟩ : BufTy).Contents (Elt F)),
    StableHlo.binary main_v10 main_v11 main_v12 (cmpf .ogt : (⟨S8192, .f32⟩ : BufTy).Contents (Elt F) → (⟨S8192, .f32⟩ : BufTy).Contents (Elt F) → (⟨S8192, .i1⟩ : BufTy).Contents (Elt F)),
    StableHlo.unary main_v10 main_v13 (Host.rsqrt : (⟨S8192, .f32⟩ : BufTy).Contents (Elt F) → (⟨S8192, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8192, .f32⟩) (broadcastInDim S8192 ![] bcast_S_S8192),
    StableHlo.TRef.ternary (.of main_v12 : StableHlo.TRef sig ⟨S8192, .i1⟩) (.of main_v13 : StableHlo.TRef sig ⟨S8192, .f32⟩) (.of main_call0_v1 : StableHlo.TRef sig ⟨S8192, .f32⟩) (.of main_v14 : StableHlo.TRef sig ⟨S8192, .f32⟩) select,
    StableHlo.nullary main_c (constantI S_ 32 0#32),
    StableHlo.unary main_c main_v15 (broadcastInDim S270336 ![] bcast_S_S270336 : (⟨S_, .i32⟩ : BufTy).Contents (Elt F) → (⟨S270336, .i32⟩ : BufTy).Contents (Elt F)),
    StableHlo.binary main_v5 main_v15 main_v16 (cmpi .slt : (⟨S270336, .i32⟩ : BufTy).Contents (Elt F) → (⟨S270336, .i32⟩ : BufTy).Contents (Elt F) → (⟨S270336, .i1⟩ : BufTy).Contents (Elt F)),
    StableHlo.nullary main_c_3 (constantI S_ 32 8192#32),
    StableHlo.unary main_c_3 main_v17 (broadcastInDim S270336 ![] bcast_S_S270336 : (⟨S_, .i32⟩ : BufTy).Contents (Elt F) → (⟨S270336, .i32⟩ : BufTy).Contents (Elt F)),
    StableHlo.binary main_v5 main_v17 main_v18 (addi : (⟨S270336, .i32⟩ : BufTy).Contents (Elt F) → (⟨S270336, .i32⟩ : BufTy).Contents (Elt F) → (⟨S270336, .i32⟩ : BufTy).Contents (Elt F)),
    StableHlo.ternary main_v16 main_v18 main_v5 main_v19 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v19 main_v20 (broadcastInDim S270336x1 ![0] bcast_S270336_S270336x1_0 : (⟨S270336, .i32⟩ : BufTy).Contents (Elt F) → (⟨S270336x1, .i32⟩ : BufTy).Contents (Elt F)),
    StableHlo.binary main_v14 main_v20 main_v21 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.nullary main_c_4 (constantI S_ 32 0#32),
    StableHlo.unary main_c_4 main_v22 (broadcastInDim S270336 ![] bcast_S_S270336 : (⟨S_, .i32⟩ : BufTy).Contents (Elt F) → (⟨S270336, .i32⟩ : BufTy).Contents (Elt F)),
    StableHlo.binary main_v6 main_v22 main_v23 (cmpi .slt : (⟨S270336, .i32⟩ : BufTy).Contents (Elt F) → (⟨S270336, .i32⟩ : BufTy).Contents (Elt F) → (⟨S270336, .i1⟩ : BufTy).Contents (Elt F)),
    StableHlo.nullary main_c_5 (constantI S_ 32 8192#32),
    StableHlo.unary main_c_5 main_v24 (broadcastInDim S270336 ![] bcast_S_S270336 : (⟨S_, .i32⟩ : BufTy).Contents (Elt F) → (⟨S270336, .i32⟩ : BufTy).Contents (Elt F)),
    StableHlo.binary main_v6 main_v24 main_v25 (addi : (⟨S270336, .i32⟩ : BufTy).Contents (Elt F) → (⟨S270336, .i32⟩ : BufTy).Contents (Elt F) → (⟨S270336, .i32⟩ : BufTy).Contents (Elt F)),
    StableHlo.ternary main_v23 main_v25 main_v6 main_v26 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v26 main_v27 (broadcastInDim S270336x1 ![0] bcast_S270336_S270336x1_0 : (⟨S270336, .i32⟩ : BufTy).Contents (Elt F) → (⟨S270336x1, .i32⟩ : BufTy).Contents (Elt F)),
    StableHlo.binary main_v14 main_v27 main_v28 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    StableHlo.binary main_v21 main_v28 main_v29 (mulf : (⟨S270336, .f32⟩ : BufTy).Contents (Elt F) → (⟨S270336, .f32⟩ : BufTy).Contents (Elt F) → (⟨S270336, .f32⟩ : BufTy).Contents (Elt F)),
    StableHlo.unary main_v29 main_v30 (broadcastInDim S270336x1 ![0] bcast_S270336_S270336x1_0 : (⟨S270336, .f32⟩ : BufTy).Contents (Elt F) → (⟨S270336x1, .f32⟩ : BufTy).Contents (Elt F)) ]

/-- The buffers the stretch writes. -/
abbrev sA_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30]

theorem sA_writes : (sA : List (HloOp τ sig (Elt F))).Forall fun op => op.writes ⊆ (sA_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the stretch does not write keeps its contents through it. -/
theorem sA_keep (W : Valuation τ sig (Elt F)) (r : Ref sig .tc) (h : r ∉ sA_W) :
    after sA W (Proc.devRef .tc r) = W (Proc.devRef .tc r) :=
  after_of_writes_sub sA _ sA_writes h

/-- The sources with the self loops. -/
theorem sA_v5 (W : Valuation τ sig (Elt F)) :
    after sA W (Proc.devRef .tc main_v5) = Spec.src (W (Proc.devRef .tc main_arg2)) := by
  after_results_simp
  rfl

/-- The targets with the self loops. -/
theorem sA_v6 (W : Valuation τ sig (Elt F)) :
    after sA W (Proc.devRef .tc main_v6) = Spec.dst (W (Proc.devRef .tc main_arg2)) := by
  after_results_simp
  rfl

/-- The edge weights. -/
theorem sA_v30 (W : Valuation τ sig (Elt F)) :
    after sA W (Proc.devRef .tc main_v30) = Spec.norm (Spec.src (W (Proc.devRef .tc main_arg2))) (Spec.dst (W (Proc.devRef .tc main_arg2))) := by
  after_results_simp
  simp only [Cert.LibTypedRef.ofBuf_toBuf]
  rfl

end Cert.KernelIdeal.Host

end
-- ==== Proof.KStretchB.lean ====
/-
  The first graph convolution of the kernel's program, read off its host operations.

  From any contents W of the buffers: the two linear maps' outputs are laid side by side, gathered along the edges'
  sources, weighted, scatter-added at the edges' targets (all 64 columns at once), and the two 32-column halves are
  cut out, each given its bias and its tanh.  The two activations are stated as the specification's functions of
  what W holds at the buffers the stretch reads.
-/
import proofs.«128091_j10213432230367_2_alg».proof.Proof.Gen.KernelIdeal.Launch
import proofs.«128091_j10213432230367_2_alg».proof.Proof.Gen.ReferenceIdeal
import proofs.«128091_j10213432230367_2_alg».proof.Proof.Spec
import Idealize.ShloMosaic.Lib.StableHlo.Run

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The operations of this stretch, in the program's order. -/
abbrev sB : List (HloOp τ sig (Elt F)) :=
  [ StableHlo.unary main_arg4 main_v31 ((transpose S128x32 [1, 0] · transposes_S32x128_S128x32_1_0) : (⟨S32x128, .f32⟩ : BufTy).Contents (Elt F) → (⟨S128x32, .f32⟩ : BufTy).Contents (Elt F)),
    StableHlo.binary main_arg0 main_v31 main_v32 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    StableHlo.unary main_arg12 main_v33 ((transpose S128x32 [1, 0] · transposes_S32x128_S128x32_1_0) : (⟨S32x128, .f32⟩ : BufTy).Contents (Elt F) → (⟨S128x32, .f32⟩ : BufTy).Contents (Elt F)),
    StableHlo.binary main_arg1 main_v33 main_v34 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    StableHlo.binary main_v32 main_v34 main_v35 ((fun a b => concatenate S8192x64 1 [⟨S8192x32, a⟩, ⟨S8192x32, b⟩] concatenates_S8192x32_S8192x32_S8192x64_d1) : (⟨S8192x32, .f32⟩ : BufTy).Contents (Elt F) → (⟨S8192x32, .f32⟩ : BufTy).Contents (Elt F) → (⟨S8192x64, .f32⟩ : BufTy).Contents (Elt F)),
    StableHlo.nullary main_c_6 (constantI S_ 32 0#32),
    StableHlo.unary main_c_6 main_v36 (broadcastInDim S270336 ![] bcast_S_S270336 : (⟨S_, .i32⟩ : BufTy).Contents (Elt F) → (⟨S270336, .i32⟩ : BufTy).Contents (Elt F)),
    StableHlo.binary main_v5 main_v36 main_v37 (cmpi .slt : (⟨S270336, .i32⟩ : BufTy).Contents (Elt F) → (⟨S270336, .i32⟩ : BufTy).Contents (Elt F) → (⟨S270336, .i1⟩ : BufTy).Contents (Elt F)),
    StableHlo.nullary main_c_7 (constantI S_ 32 8192#32),
    StableHlo.unary main_c_7 main_v38 (broadcastInDim S270336 ![] bcast_S_S270336 : (⟨S_, .i32⟩ : BufTy).Contents (Elt F) → (⟨S270336, .i32⟩ : BufTy).Contents (Elt F)),
    StableHlo.binary main_v5 main_v38 main_v39 (addi : (⟨S270336, .i32⟩ : BufTy).Contents (Elt F) → (⟨S270336, .i32⟩ : BufTy).Contents (Elt F) → (⟨S270336, .i32⟩ : BufTy).Contents (Elt F)),
    StableHlo.ternary main_v37 main_v39 main_v5 main_v40 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v40 main_v41 (broadcastInDim S270336x1 ![0] bcast_S270336_S270336x1_0 : (⟨S270336, .i32⟩ : BufTy).Contents (Elt F) → (⟨S270336x1, .i32⟩ : BufTy).Contents (Elt F)),
    StableHlo.binary main_v35 main_v41 main_v42 ((fun x i => Host.gather gather_S8192x64_S270336x1_S270336x64_1_0_n_n_0_1_164 x i) : (⟨S8192x64, .f32⟩ : BufTy).Contents (Elt F) → (⟨S270336x1, .i32⟩ : BufTy).Contents (Elt F) → (⟨S270336x64, .f32⟩ : BufTy).Contents (Elt F)),
    StableHlo.unary main_v30 main_v43 (broadcastInDim S270336x64 ![0, 1] bcast_S270336x1_S270336x64_0_1 : (⟨S270336x1, .f32⟩ : BufTy).Contents (Elt F) → (⟨S270336x64, .f32⟩ : BufTy).Contents (Elt F)),
    StableHlo.binary main_v42 main_v43 main_v44 (mulf : (⟨S270336x64, .f32⟩ : BufTy).Contents (Elt F) → (⟨S270336x64, .f32⟩ : BufTy).Contents (Elt F) → (⟨S270336x64, .f32⟩ : BufTy).Contents (Elt F)),
    StableHlo.nullary main_cst_8 (constant S_ .f32 0x00000000#32),
    StableHlo.unary main_cst_8 main_v45 (broadcastInDim S8192x64 ![] bcast_S_S8192x64 : (⟨S_, .f32⟩ : BufTy).Contents (Elt F) → (⟨S8192x64, .f32⟩ : BufTy).Contents (Elt F)),
    StableHlo.unary main_v6 main_v46 (broadcastInDim S270336x1 ![0] bcast_S270336_S270336x1_0 : (⟨S270336, .i32⟩ : BufTy).Contents (Elt F) → (⟨S270336x1, .i32⟩ : BufTy).Contents (Elt F)),
    StableHlo.ternary main_v45 main_v46 main_v44 main_v47 ((fun x i u => Host.scatterAdd scatter_S8192x64_S270336x1_S270336x64_1_0_0_1 x i u) : (⟨S8192x64, .f32⟩ : BufTy).Contents (Elt F) → (⟨S270336x1, .i32⟩ : BufTy).Contents (Elt F) → (⟨S270336x64, .f32⟩ : BufTy).Contents (Elt F) → (⟨S8192x64, .f32⟩ : BufTy).Contents (Elt F)),
    StableHlo.unary main_v47 main_v48 ((extractStridedSlice S8192x32 ![0, 0] · slices_S8192x64_S8192x32_0_0) : (⟨S8192x64, .f32⟩ : BufTy).Contents (Elt F) → (⟨S8192x32, .f32⟩ : BufTy).Contents (Elt F)),
    StableHlo.unary main_arg5 main_v49 (broadcastInDim S1x32 ![1] bcast_S32_S1x32_1 : (⟨S32, .f32⟩ : BufTy).Contents (Elt F) → (⟨S1x32, .f32⟩ : BufTy).Contents (Elt F)),
    StableHlo.unary main_v49 main_v50 (broadcastInDim S8192x32 ![0, 1] bcast_S1x32_S8192x32_0_1 : (⟨S1x32, .f32⟩ : BufTy).Contents (Elt F) → (⟨S8192x32, .f32⟩ : BufTy).Contents (Elt F)),
    StableHlo.binary main_v48 main_v50 main_v51 (addf : (⟨S8192x32, .f32⟩ : BufTy).Contents (Elt F) → (⟨S8192x32, .f32⟩ : BufTy).Contents (Elt F) → (⟨S8192x32, .f32⟩ : BufTy).Contents (Elt F)),
    StableHlo.unary main_v51 main_v52 (Host.tanh : (⟨S8192x32, .f32⟩ : BufTy).Contents (Elt F) → (⟨S8192x32, .f32⟩ : BufTy).Contents (Elt F)),
    StableHlo.unary main_v47 main_v53 ((extractStridedSlice S8192x32 ![0, 32] · slices_S8192x64_S8192x32_0_32) : (⟨S8192x64, .f32⟩ : BufTy).Contents (Elt F) → (⟨S8192x32, .f32⟩ : BufTy).Contents (Elt F)),
    StableHlo.unary main_arg13 main_v54 (broadcastInDim S1x32 ![1] bcast_S32_S1x32_1 : (⟨S32, .f32⟩ : BufTy).Contents (Elt F) → (⟨S1x32, .f32⟩ : BufTy).Contents (Elt F)),
    StableHlo.unary main_v54 main_v55 (broadcastInDim S8192x32 ![0, 1] bcast_S1x32_S8192x32_0_1 : (⟨S1x32, .f32⟩ : BufTy).Contents (Elt F) → (⟨S8192x32, .f32⟩ : BufTy).Contents (Elt F)),
    StableHlo.binary main_v53 main_v55 main_v56 (addf : (⟨S8192x32, .f32⟩ : BufTy).Contents (Elt F) → (⟨S8192x32, .f32⟩ : BufTy).Contents (Elt F) → (⟨S8192x32, .f32⟩ : BufTy).Contents (Elt F)),
    StableHlo.unary main_v56 main_v57 (Host.tanh : (⟨S8192x32, .f32⟩ : BufTy).Contents (Elt F) → (⟨S8192x32, .f32⟩ : BufTy).Contents (Elt F)) ]

/-- The buffers the stretch writes. -/
abbrev sB_W : List (Ref sig .tc) := [main_v31, main_v32, main_v33, main_v34, main_v35, main_c_6, main_v36, main_v37, main_c_7, main_v38, main_v39, main_v40, main_v41, main_v42, main_v43, main_v44, main_cst_8, main_v45, main_v46, main_v47, main_v48, main_v49, main_v50, main_v51, main_v52, main_v53, main_v54, main_v55, main_v56, main_v57]

theorem sB_writes : (sB : List (HloOp τ sig (Elt F))).Forall fun op => op.writes ⊆ (sB_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the stretch does not write keeps its contents through it. -/
theorem sB_keep (W : Valuation τ sig (Elt F)) (r : Ref sig .tc) (h : r ∉ sB_W) :
    after sB W (Proc.devRef .tc r) = W (Proc.devRef .tc r) :=
  after_of_writes_sub sB _ sB_writes h

/-- The policy half after the first convolution. -/
theorem sB_v52 (W : Valuation τ sig (Elt F)) :
    after sB W (Proc.devRef .tc main_v52)
      = Spec.act (Spec.lo (Spec.agg64 (W (Proc.devRef .tc main_v5)) (W (Proc.devRef .tc main_v6)) (W (Proc.devRef .tc main_v30))
          (Spec.pack (Spec.xw128 (W (Proc.devRef .tc main_arg0)) (W (Proc.devRef .tc main_arg4))) (Spec.xw128 (W (Proc.devRef .tc main_arg1)) (W (Proc.devRef .tc main_arg12))))))
          (W (Proc.devRef .tc main_arg5)) := by
  after_results_simp
  rfl

/-- The value half after the first convolution. -/
theorem sB_v57 (W : Valuation τ sig (Elt F)) :
    after sB W (Proc.devRef .tc main_v57)
      = Spec.act (Spec.hi (Spec.agg64 (W (Proc.devRef .tc main_v5)) (W (Proc.devRef .tc main_v6)) (W (Proc.devRef .tc main_v30))
          (Spec.pack (Spec.xw128 (W (Proc.devRef .tc main_arg0)) (W (Proc.devRef .tc main_arg4))) (Spec.xw128 (W (Proc.devRef .tc main_arg1)) (W (Proc.devRef .tc main_arg12))))))
          (W (Proc.devRef .tc main_arg13)) := by
  after_results_simp
  rfl

end Cert.KernelIdeal.Host

end
-- ==== Proof.KStretchC.lean ====
/-
  The second graph convolution of the kernel's program, read off its host operations.

  From any contents W of the buffers: the first layer's two activations go through their linear maps, are laid side
  by side, aggregated over the graph in one 64-column pass with the same sources, targets and weights as before,
  and the two halves are cut out, each given its bias and its tanh.
-/
import proofs.«128091_j10213432230367_2_alg».proof.Proof.Gen.KernelIdeal.Launch
import proofs.«128091_j10213432230367_2_alg».proof.Proof.Gen.ReferenceIdeal
import proofs.«128091_j10213432230367_2_alg».proof.Proof.Spec
import Idealize.ShloMosaic.Lib.StableHlo.Run

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The operations of this stretch, in the program's order. -/
abbrev sC : List (HloOp τ sig (Elt F)) :=
  [ StableHlo.unary main_arg6 main_v58 ((transpose S32x32 [1, 0] · transposes_S32x32_S32x32_1_0) : (⟨S32x32, .f32⟩ : BufTy).Contents (Elt F) → (⟨S32x32, .f32⟩ : BufTy).Contents (Elt F)),
    StableHlo.binary main_v52 main_v58 main_v59 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg14 main_v60 ((transpose S32x32 [1, 0] · transposes_S32x32_S32x32_1_0) : (⟨S32x32, .f32⟩ : BufTy).Contents (Elt F) → (⟨S32x32, .f32⟩ : BufTy).Contents (Elt F)),
    StableHlo.binary main_v57 main_v60 main_v61 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.binary main_v59 main_v61 main_v62 ((fun a b => concatenate S8192x64 1 [⟨S8192x32, a⟩, ⟨S8192x32, b⟩] concatenates_S8192x32_S8192x32_S8192x64_d1) : (⟨S8192x32, .f32⟩ : BufTy).Contents (Elt F) → (⟨S8192x32, .f32⟩ : BufTy).Contents (Elt F) → (⟨S8192x64, .f32⟩ : BufTy).Contents (Elt F)),
    StableHlo.nullary main_c_9 (constantI S_ 32 0#32),
    StableHlo.unary main_c_9 main_v63 (broadcastInDim S270336 ![] bcast_S_S270336 : (⟨S_, .i32⟩ : BufTy).Contents (Elt F) → (⟨S270336, .i32⟩ : BufTy).Contents (Elt F)),
    StableHlo.binary main_v5 main_v63 main_v64 (cmpi .slt : (⟨S270336, .i32⟩ : BufTy).Contents (Elt F) → (⟨S270336, .i32⟩ : BufTy).Contents (Elt F) → (⟨S270336, .i1⟩ : BufTy).Contents (Elt F)),
    StableHlo.nullary main_c_10 (constantI S_ 32 8192#32),
    StableHlo.unary main_c_10 main_v65 (broadcastInDim S270336 ![] bcast_S_S270336 : (⟨S_, .i32⟩ : BufTy).Contents (Elt F) → (⟨S270336, .i32⟩ : BufTy).Contents (Elt F)),
    StableHlo.binary main_v5 main_v65 main_v66 (addi : (⟨S270336, .i32⟩ : BufTy).Contents (Elt F) → (⟨S270336, .i32⟩ : BufTy).Contents (Elt F) → (⟨S270336, .i32⟩ : BufTy).Contents (Elt F)),
    StableHlo.ternary main_v64 main_v66 main_v5 main_v67 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    StableHlo.unary main_v67 main_v68 (broadcastInDim S270336x1 ![0] bcast_S270336_S270336x1_0 : (⟨S270336, .i32⟩ : BufTy).Contents (Elt F) → (⟨S270336x1, .i32⟩ : BufTy).Contents (Elt F)),
    StableHlo.binary main_v62 main_v68 main_v69 ((fun x i => Host.gather gather_S8192x64_S270336x1_S270336x64_1_0_n_n_0_1_164 x i) : (⟨S8192x64, .f32⟩ : BufTy).Contents (Elt F) → (⟨S270336x1, .i32⟩ : BufTy).Contents (Elt F) → (⟨S270336x64, .f32⟩ : BufTy).Contents (Elt F)),
    StableHlo.unary main_v30 main_v70 (broadcastInDim S270336x64 ![0, 1] bcast_S270336x1_S270336x64_0_1 : (⟨S270336x1, .f32⟩ : BufTy).Contents (Elt F) → (⟨S270336x64, .f32⟩ : BufTy).Contents (Elt F)),
    StableHlo.binary main_v69 main_v70 main_v71 (mulf : (⟨S270336x64, .f32⟩ : BufTy).Contents (Elt F) → (⟨S270336x64, .f32⟩ : BufTy).Contents (Elt F) → (⟨S270336x64, .f32⟩ : BufTy).Contents (Elt F)),
    StableHlo.nullary main_cst_11 (constant S_ .f32 0x00000000#32),
    StableHlo.unary main_cst_11 main_v72 (broadcastInDim S8192x64 ![] bcast_S_S8192x64 : (⟨S_, .f32⟩ : BufTy).Contents (Elt F) → (⟨S8192x64, .f32⟩ : BufTy).Contents (Elt F)),
    StableHlo.unary main_v6 main_v73 (broadcastInDim S270336x1 ![0] bcast_S270336_S270336x1_0 : (⟨S270336, .i32⟩ : BufTy).Contents (Elt F) → (⟨S270336x1, .i32⟩ : BufTy).Contents (Elt F)),
    StableHlo.ternary main_v72 main_v73 main_v71 main_v74 ((fun x i u => Host.scatterAdd scatter_S8192x64_S270336x1_S270336x64_1_0_0_1 x i u) : (⟨S8192x64, .f32⟩ : BufTy).Contents (Elt F) → (⟨S270336x1, .i32⟩ : BufTy).Contents (Elt F) → (⟨S270336x64, .f32⟩ : BufTy).Contents (Elt F) → (⟨S8192x64, .f32⟩ : BufTy).Contents (Elt F)),
    StableHlo.unary main_v74 main_v75 ((extractStridedSlice S8192x32 ![0, 0] · slices_S8192x64_S8192x32_0_0) : (⟨S8192x64, .f32⟩ : BufTy).Contents (Elt F) → (⟨S8192x32, .f32⟩ : BufTy).Contents (Elt F)),
    StableHlo.unary main_arg7 main_v76 (broadcastInDim S1x32 ![1] bcast_S32_S1x32_1 : (⟨S32, .f32⟩ : BufTy).Contents (Elt F) → (⟨S1x32, .f32⟩ : BufTy).Contents (Elt F)),
    StableHlo.unary main_v76 main_v77 (broadcastInDim S8192x32 ![0, 1] bcast_S1x32_S8192x32_0_1 : (⟨S1x32, .f32⟩ : BufTy).Contents (Elt F) → (⟨S8192x32, .f32⟩ : BufTy).Contents (Elt F)),
    StableHlo.binary main_v75 main_v77 main_v78 (addf : (⟨S8192x32, .f32⟩ : BufTy).Contents (Elt F) → (⟨S8192x32, .f32⟩ : BufTy).Contents (Elt F) → (⟨S8192x32, .f32⟩ : BufTy).Contents (Elt F)),
    StableHlo.unary main_v78 main_v79 (Host.tanh : (⟨S8192x32, .f32⟩ : BufTy).Contents (Elt F) → (⟨S8192x32, .f32⟩ : BufTy).Contents (Elt F)),
    StableHlo.unary main_v74 main_v80 ((extractStridedSlice S8192x32 ![0, 32] · slices_S8192x64_S8192x32_0_32) : (⟨S8192x64, .f32⟩ : BufTy).Contents (Elt F) → (⟨S8192x32, .f32⟩ : BufTy).Contents (Elt F)),
    StableHlo.unary main_arg15 main_v81 (broadcastInDim S1x32 ![1] bcast_S32_S1x32_1 : (⟨S32, .f32⟩ : BufTy).Contents (Elt F) → (⟨S1x32, .f32⟩ : BufTy).Contents (Elt F)),
    StableHlo.unary main_v81 main_v82 (broadcastInDim S8192x32 ![0, 1] bcast_S1x32_S8192x32_0_1 : (⟨S1x32, .f32⟩ : BufTy).Contents (Elt F) → (⟨S8192x32, .f32⟩ : BufTy).Contents (Elt F)),
    StableHlo.binary main_v80 main_v82 main_v83 (addf : (⟨S8192x32, .f32⟩ : BufTy).Contents (Elt F) → (⟨S8192x32, .f32⟩ : BufTy).Contents (Elt F) → (⟨S8192x32, .f32⟩ : BufTy).Contents (Elt F)),
    StableHlo.unary main_v83 main_v84 (Host.tanh : (⟨S8192x32, .f32⟩ : BufTy).Contents (Elt F) → (⟨S8192x32, .f32⟩ : BufTy).Contents (Elt F)) ]

/-- The buffers the stretch writes. -/
abbrev sC_W : List (Ref sig .tc) := [main_v58, main_v59, main_v60, main_v61, main_v62, main_c_9, main_v63, main_v64, main_c_10, main_v65, main_v66, main_v67, main_v68, main_v69, main_v70, main_v71, main_cst_11, main_v72, main_v73, main_v74, main_v75, main_v76, main_v77, main_v78, main_v79, main_v80, main_v81, main_v82, main_v83, main_v84]

theorem sC_writes : (sC : List (HloOp τ sig (Elt F))).Forall fun op => op.writes ⊆ (sC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the stretch does not write keeps its contents through it. -/
theorem sC_keep (W : Valuation τ sig (Elt F)) (r : Ref sig .tc) (h : r ∉ sC_W) :
    after sC W (Proc.devRef .tc r) = W (Proc.devRef .tc r) :=
  after_of_writes_sub sC _ sC_writes h

/-- The policy half after the second convolution. -/
theorem sC_v79 (W : Valuation τ sig (Elt F)) :
    after sC W (Proc.devRef .tc main_v79)
      = Spec.act (Spec.lo (Spec.agg64 (W (Proc.devRef .tc main_v5)) (W (Proc.devRef .tc main_v6)) (W (Proc.devRef .tc main_v30))
          (Spec.pack (Spec.xw32 (W (Proc.devRef .tc main_v52)) (W (Proc.devRef .tc main_arg6))) (Spec.xw32 (W (Proc.devRef .tc main_v57)) (W (Proc.devRef .tc main_arg14))))))
          (W (Proc.devRef .tc main_arg7)) := by
  after_results_simp
  rfl

/-- The value half after the second convolution. -/
theorem sC_v84 (W : Valuation τ sig (Elt F)) :
    after sC W (Proc.devRef .tc main_v84)
      = Spec.act (Spec.hi (Spec.agg64 (W (Proc.devRef .tc main_v5)) (W (Proc.devRef .tc main_v6)) (W (Proc.devRef .tc main_v30))
          (Spec.pack (Spec.xw32 (W (Proc.devRef .tc main_v52)) (W (Proc.devRef .tc main_arg6))) (Spec.xw32 (W (Proc.devRef .tc main_v57)) (W (Proc.devRef .tc main_arg14))))))
          (W (Proc.devRef .tc main_arg15)) := by
  after_results_simp
  rfl

end Cert.KernelIdeal.Host

end
-- ==== Proof.KStretchD.lean ====
/-
  The policy head's host operations before the kernel's region.

  From any contents W of the buffers: the policy features go through the head's linear layer, bias and tanh, each
  node's 32 features are summed into one row of 8192 entries (the region's first operand), and the output bias is
  recast as a row (its third operand).
-/
import proofs.«128091_j10213432230367_2_alg».proof.Proof.Gen.KernelIdeal.Launch
import proofs.«128091_j10213432230367_2_alg».proof.Proof.Gen.ReferenceIdeal
import proofs.«128091_j10213432230367_2_alg».proof.Proof.Spec
import Idealize.ShloMosaic.Lib.StableHlo.Run

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The operations of this stretch, in the program's order. -/
abbrev sD : List (HloOp τ sig (Elt F)) :=
  [ StableHlo.unary main_arg8 main_v85 ((transpose S32x32 [1, 0] · transposes_S32x32_S32x32_1_0) : (⟨S32x32, .f32⟩ : BufTy).Contents (Elt F) → (⟨S32x32, .f32⟩ : BufTy).Contents (Elt F)),
    StableHlo.binary main_v79 main_v85 main_v86 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    StableHlo.unary main_arg9 main_v87 (broadcastInDim S1x32 ![1] bcast_S32_S1x32_1 : (⟨S32, .f32⟩ : BufTy).Contents (Elt F) → (⟨S1x32, .f32⟩ : BufTy).Contents (Elt F)),
    StableHlo.unary main_v87 main_v88 (broadcastInDim S8192x32 ![0, 1] bcast_S1x32_S8192x32_0_1 : (⟨S1x32, .f32⟩ : BufTy).Contents (Elt F) → (⟨S8192x32, .f32⟩ : BufTy).Contents (Elt F)),
    StableHlo.binary main_v86 main_v88 main_v89 (addf : (⟨S8192x32, .f32⟩ : BufTy).Contents (Elt F) → (⟨S8192x32, .f32⟩ : BufTy).Contents (Elt F) → (⟨S8192x32, .f32⟩ : BufTy).Contents (Elt F)),
    StableHlo.unary main_v89 main_v90 (Host.tanh : (⟨S8192x32, .f32⟩ : BufTy).Contents (Elt F) → (⟨S8192x32, .f32⟩ : BufTy).Contents (Elt F)),
    StableHlo.unary main_v90 main_v91 ((transpose S32x8192 [1, 0] · transposes_S8192x32_S32x8192_1_0) : (⟨S8192x32, .f32⟩ : BufTy).Contents (Elt F) → (⟨S32x8192, .f32⟩ : BufTy).Contents (Elt F)),
    StableHlo.nullary main_cst_12 (constant S_ .f32 0x00000000#32),
    StableHlo.binary main_v91 main_cst_12 main_v92 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    StableHlo.unary main_v92 main_v93 (broadcastInDim S1x8192 ![1] bcast_S8192_S1x8192_1 : (⟨S8192, .f32⟩ : BufTy).Contents (Elt F) → (⟨S1x8192, .f32⟩ : BufTy).Contents (Elt F)),
    StableHlo.reshape main_arg11 main_v94 rfl shapeCasts_S8192_S1x8192 ]

/-- The buffers the stretch writes. -/
abbrev sD_W : List (Ref sig .tc) := [main_v85, main_v86, main_v87, main_v88, main_v89, main_v90, main_v91, main_cst_12, main_v92, main_v93, main_v94]

theorem sD_writes : (sD : List (HloOp τ sig (Elt F))).Forall fun op => op.writes ⊆ (sD_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A buffer the stretch does not write keeps its contents through it. -/
theorem sD_keep (W : Valuation τ sig (Elt F)) (r : Ref sig .tc) (h : r ∉ sD_W) :
    after sD W (Proc.devRef .tc r) = W (Proc.devRef .tc r) :=
  after_of_writes_sub sD _ sD_writes h

/-- The pooled row the region reads. -/
theorem sD_v93 (W : Valuation τ sig (Elt F)) :
    after sD W (Proc.devRef .tc main_v93)
      = Spec.pooled (Spec.act (Spec.xw32 (W (Proc.devRef .tc main_v79)) (W (Proc.devRef .tc main_arg8))) (W (Proc.devRef .tc main_arg9))) := by
  after_results_simp
  rfl

/-- The output bias as a row. -/
theorem sD_v94 (W : Valuation τ sig (Elt F)) :
    after sD W (Proc.devRef .tc main_v94) = shapeCast S1x8192 (W (Proc.devRef .tc main_arg11)) shapeCasts_S8192_S1x8192 := by
  after_results_simp
  rfl

end Cert.KernelIdeal.Host

end
-- ==== Proof.Net.lean ====
/-
  The two arrangements of the network over one bundle of argument arrays.

  `Net` bundles the twenty arguments (node features for the policy and the value net, the edge list, the action
  mask, and each net's weights and biases).  Over it the reference's arrangement runs every graph convolution on its
  own 32 columns (`rH3`, `rV3`: the features after two convolutions and the head's layer), and the kernel's
  arrangement lays the policy and value features side by side and runs each of the two convolutions once on 64
  columns, computing the edge weights once (`kH1`, `kV1`, `kH2`, `kV2`, then the heads).
-/
import proofs.«128091_j10213432230367_2_alg».proof.Proof.Spec

noncomputable section

namespace Cert.Spec

open Idealize.ShloMosaic Cert.ReferenceIdeal

variable {F : FTy → Type} [FloatOps F] [Cert.ReferenceIdeal.Facts₀] [Cert.KernelIdeal.Facts₀]

/-- The network's arguments. -/
structure Net (F : FTy → Type) [FloatOps F] where
  xp : Fv F S8192x128
  xs : Fv F S8192x128
  e : Iv F S2x262144
  msk : Bv F S8192
  W1p : Fv F S32x128
  b1p : Fv F S32
  W2p : Fv F S32x32
  b2p : Fv F S32
  Wlp : Fv F S32x32
  blp : Fv F S32
  Wop : Fv F S8192x8192
  bop : Fv F S8192
  W1v : Fv F S32x128
  b1v : Fv F S32
  W2v : Fv F S32x32
  b2v : Fv F S32
  Wlv : Fv F S32x32
  blv : Fv F S32
  Wov : Fv F S1x32
  bov : Fv F S1

namespace Net

variable (a : Cert.Spec.Net F)

/-! ## The reference's arrangement -/

/-- The policy features after both convolutions and the head's layer. -/
def rH3 : Fv F S8192x32 := policyFeat a.e a.xp a.W1p a.b1p a.W2p a.b2p a.Wlp a.blp
/-- The value features after both convolutions and the head's layer (the same chain with the value net's weights). -/
def rV3 : Fv F S8192x32 := policyFeat a.e a.xs a.W1v a.b1v a.W2v a.b2v a.Wlv a.blv
/-- The masked logits. -/
def rOut0 : Fv F S8192 := out0 a.msk a.rH3 a.Wop a.bop
/-- The value. -/
def rOut1 : Fv F S1 := valueHead a.rV3 a.Wov a.bov

/-! ## The kernel's arrangement -/

/-- The first convolution on the 64 packed columns. -/
def kL1 : Fv F Cert.KernelIdeal.S8192x64 :=
  agg64 (src a.e) (dst a.e) (norm (src a.e) (dst a.e)) (pack (xw128 a.xp a.W1p) (xw128 a.xs a.W1v))
/-- The policy half after the first convolution. -/
def kH1 : Fv F S8192x32 := act (lo a.kL1) a.b1p
/-- The value half after the first convolution. -/
def kV1 : Fv F S8192x32 := act (hi a.kL1) a.b1v
/-- The second convolution on the 64 packed columns. -/
def kL2 : Fv F Cert.KernelIdeal.S8192x64 :=
  agg64 (src a.e) (dst a.e) (norm (src a.e) (dst a.e)) (pack (xw32 a.kH1 a.W2p) (xw32 a.kV1 a.W2v))
/-- The policy half after the second convolution. -/
def kH2 : Fv F S8192x32 := act (lo a.kL2) a.b2p
/-- The value half after the second convolution. -/
def kV2 : Fv F S8192x32 := act (hi a.kL2) a.b2v
/-- The policy features after the head's layer. -/
def kH3 : Fv F S8192x32 := act (xw32 a.kH2 a.Wlp) a.blp
/-- The value features after the head's layer. -/
def kV3 : Fv F S8192x32 := act (xw32 a.kV2 a.Wlv) a.blv
/-- The value. -/
def kOut1 : Fv F S1 := valueHead a.kV3 a.Wov a.bov

end Net

end Cert.Spec

end
-- ==== Proof.KPrefix.lean ====
/-
  What the kernel's region finds: the host operations before it, composed.

  The three printed stretches of host operations before the region are, in order, the four stretches read
  separately (graph bookkeeping; first convolution; second convolution; policy head), so the buffers' contents when
  the region is entered are the fourth stretch's results over the third's over the second's over the first's over
  the launch contents.  Reading each stretch's results at the previous one's gives the region's operands, and the
  value features its tail will read, as the kernel's arrangement of the network over the argument arrays.
-/
import proofs.«128091_j10213432230367_2_alg».proof.Proof.KStretchA
import proofs.«128091_j10213432230367_2_alg».proof.Proof.KStretchB
import proofs.«128091_j10213432230367_2_alg».proof.Proof.KStretchC
import proofs.«128091_j10213432230367_2_alg».proof.Proof.KStretchD
import proofs.«128091_j10213432230367_2_alg».proof.Proof.Net
import proofs.«128091_j10213432230367_2_alg».proof.Proof.Gen.KernelIdeal.Frame
import Idealize.ShloMosaic.Lib.Pipeline.Frame

set_option maxRecDepth 8192

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The argument arrays of core `c`, bundled. -/
def argsK (c : Dev nD) : Spec.Net F where
  xp := m ((c.tc : Thread nD τ).loc main_arg0)
  xs := m ((c.tc : Thread nD τ).loc main_arg1)
  e := m ((c.tc : Thread nD τ).loc main_arg2)
  msk := m ((c.tc : Thread nD τ).loc main_arg3)
  W1p := m ((c.tc : Thread nD τ).loc main_arg4)
  b1p := m ((c.tc : Thread nD τ).loc main_arg5)
  W2p := m ((c.tc : Thread nD τ).loc main_arg6)
  b2p := m ((c.tc : Thread nD τ).loc main_arg7)
  Wlp := m ((c.tc : Thread nD τ).loc main_arg8)
  blp := m ((c.tc : Thread nD τ).loc main_arg9)
  Wop := m ((c.tc : Thread nD τ).loc main_arg10)
  bop := m ((c.tc : Thread nD τ).loc main_arg11)
  W1v := m ((c.tc : Thread nD τ).loc main_arg12)
  b1v := m ((c.tc : Thread nD τ).loc main_arg13)
  W2v := m ((c.tc : Thread nD τ).loc main_arg14)
  b2v := m ((c.tc : Thread nD τ).loc main_arg15)
  Wlv := m ((c.tc : Thread nD τ).loc main_arg16)
  blv := m ((c.tc : Thread nD τ).loc main_arg17)
  Wov := m ((c.tc : Thread nD τ).loc main_arg18)
  bov := m ((c.tc : Thread nD τ).loc main_arg19)

/-- The printed stretches before the region are the four stretches in order. -/
theorem prefix_eq : (List.flatten [hostOps0, hostOps0_1, hostOps0_2] : List (HloOp τ sig (Elt F))) = sA ++ (sB ++ (sC ++ sD)) := rfl

/-- The contents after the graph bookkeeping. -/
abbrev WA (c : Dev nD) : Valuation τ sig (Elt F) := after sA (fun b => m (c, b))
/-- The contents after the first convolution. -/
abbrev WB (c : Dev nD) : Valuation τ sig (Elt F) := after sB (WA m c)
/-- The contents after the second convolution. -/
abbrev WC (c : Dev nD) : Valuation τ sig (Elt F) := after sC (WB m c)

theorem V0_eq (c : Dev nD) : Gen.V0 m c = after sD (WC m c) := by
  show StableHlo.after (List.flatten [hostOps0, hostOps0_1, hostOps0_2]) (fun b => m (c, b)) = _
  rw [prefix_eq, after_append, after_append, after_append]

/-! ## After the graph bookkeeping -/

theorem WA_keep (c : Dev nD) (r : Ref sig .tc) (h : r ∉ sA_W) : WA m c (Proc.devRef .tc r) = m ((c.tc : Thread nD τ).loc r) :=
  sA_keep _ r h
theorem WA_v5 (c : Dev nD) : WA m c (Proc.devRef .tc main_v5) = Spec.src (argsK m c).e := sA_v5 _
theorem WA_v6 (c : Dev nD) : WA m c (Proc.devRef .tc main_v6) = Spec.dst (argsK m c).e := sA_v6 _
theorem WA_v30 (c : Dev nD) : WA m c (Proc.devRef .tc main_v30) = Spec.norm (Spec.src (argsK m c).e) (Spec.dst (argsK m c).e) := sA_v30 _

/-! ## After the first convolution -/

theorem WB_keep (c : Dev nD) (r : Ref sig .tc) (hA : r ∉ sA_W) (hB : r ∉ sB_W) : WB m c (Proc.devRef .tc r) = m ((c.tc : Thread nD τ).loc r) :=
  (sB_keep _ r hB).trans (WA_keep m c r hA)
theorem WB_v5 (c : Dev nD) : WB m c (Proc.devRef .tc main_v5) = Spec.src (argsK m c).e := (sB_keep _ main_v5 (by decide)).trans (WA_v5 m c)
theorem WB_v6 (c : Dev nD) : WB m c (Proc.devRef .tc main_v6) = Spec.dst (argsK m c).e := (sB_keep _ main_v6 (by decide)).trans (WA_v6 m c)
theorem WB_v30 (c : Dev nD) : WB m c (Proc.devRef .tc main_v30) = Spec.norm (Spec.src (argsK m c).e) (Spec.dst (argsK m c).e) :=
  (sB_keep _ main_v30 (by decide)).trans (WA_v30 m c)
theorem WB_v52 (c : Dev nD) : WB m c (Proc.devRef .tc main_v52) = (argsK m c).kH1 := by
  show after sB (WA m c) _ = _
  rw [sB_v52, WA_v5, WA_v6, WA_v30, WA_keep m c main_arg0 (by decide), WA_keep m c main_arg4 (by decide), WA_keep m c main_arg1 (by decide),
    WA_keep m c main_arg12 (by decide), WA_keep m c main_arg5 (by decide)]
  rfl
theorem WB_v57 (c : Dev nD) : WB m c (Proc.devRef .tc main_v57) = (argsK m c).kV1 := by
  show after sB (WA m c) _ = _
  rw [sB_v57, WA_v5, WA_v6, WA_v30, WA_keep m c main_arg0 (by decide), WA_keep m c main_arg4 (by decide), WA_keep m c main_arg1 (by decide),
    WA_keep m c main_arg12 (by decide), WA_keep m c main_arg13 (by decide)]
  rfl

/-! ## After the second convolution -/

theorem WC_keep (c : Dev nD) (r : Ref sig .tc) (hA : r ∉ sA_W) (hB : r ∉ sB_W) (hC : r ∉ sC_W) : WC m c (Proc.devRef .tc r) = m ((c.tc : Thread nD τ).loc r) :=
  (sC_keep _ r hC).trans (WB_keep m c r hA hB)
theorem WC_v79 (c : Dev nD) : WC m c (Proc.devRef .tc main_v79) = (argsK m c).kH2 := by
  show after sC (WB m c) _ = _
  rw [sC_v79, WB_v5, WB_v6, WB_v30, WB_v52, WB_v57, WB_keep m c main_arg6 (by decide) (by decide), WB_keep m c main_arg14 (by decide) (by decide),
    WB_keep m c main_arg7 (by decide) (by decide)]
  rfl
theorem WC_v84 (c : Dev nD) : WC m c (Proc.devRef .tc main_v84) = (argsK m c).kV2 := by
  show after sC (WB m c) _ = _
  rw [sC_v84, WB_v5, WB_v6, WB_v30, WB_v52, WB_v57, WB_keep m c main_arg6 (by decide) (by decide), WB_keep m c main_arg14 (by decide) (by decide),
    WB_keep m c main_arg15 (by decide) (by decide)]
  rfl

/-! ## When the region is entered -/

/-- The region's first operand: the pooled policy features. -/
theorem V_v93 (c : Dev nD) : Gen.V m c main_v93 = Spec.pooled (argsK m c).kH3 := by
  show Gen.V0 m c (Proc.devRef .tc main_v93) = _
  rw [V0_eq, sD_v93, WC_v79, WC_keep m c main_arg8 (by decide) (by decide) (by decide), WC_keep m c main_arg9 (by decide) (by decide) (by decide)]
  rfl

/-- The region's third operand: the output bias as a row. -/
theorem V_v94 (c : Dev nD) : Gen.V m c main_v94 = shapeCast S1x8192 (argsK m c).bop shapeCasts_S8192_S1x8192 := by
  show Gen.V0 m c (Proc.devRef .tc main_v94) = _
  rw [V0_eq, sD_v94, WC_keep m c main_arg11 (by decide) (by decide) (by decide)]
  rfl

/-- The value features the tail reads. -/
theorem V_v84 (c : Dev nD) : Gen.V m c main_v84 = (argsK m c).kV2 := by
  show Gen.V0 m c (Proc.devRef .tc main_v84) = _
  rw [V0_eq, sD_keep _ main_v84 (by decide), WC_v84]

end Cert.KernelIdeal.Host

end
-- ==== Proof.PackCols.lean ====
/-
  A row scatter-add only ever moves column c of the updates to column c of the result.

  The aggregation out[r, c] = x[r, c] + (sum over the update rows e whose index word is r of upd[e, c]) is
  read at one entry: the set of updates landing on (r, c) is { (e, c) : index word of e is r }, so the sum is
  a sum over the rows e alone.  Run on two 32-column blocks A and B laid side by side (64 columns), the
  columns 0..31 of the result are the aggregation of A alone and the columns 32..63 that of B alone: at each
  entry the two sums range over the same rows e with equal summands.  Nothing about finiteness of the values
  is used; the sums are in the extended reals.
-/
import Idealize.ShloMosaic.Lib.ValueIdx
import Idealize.ShloMosaic.Lib.ValueLayout
import Idealize.ShloMosaic.Lib.Pipeline.Value
import proofs.«128091_j10213432230367_2_alg».proof.KernelIdeal
import proofs.«128091_j10213432230367_2_alg».proof.ReferenceIdeal

noncomputable section
open scoped BigOperators
namespace Cert.PackCols
open Idealize.ShloMosaic Idealize.ShloMosaic.ValueIdx

/-! ## A scatter of rows, and a gather of rows, at an entry (any sizes) -/

abbrev rowScatter (R E C : Nat) (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

section
variable {R E C w : Nat} (wf : ScatterDims.WF ⟨2, ![R, C]⟩ ⟨2, ![E, 1]⟩ ⟨2, ![E, C]⟩ [1] [0] [0] 1)

theorem rowScatter_start0 (j : (⟨2, ![E, C]⟩ : Shape).Idx) (idx : IVec ⟨2, ![E, 1]⟩ w) :
    (rowScatter R E C wf).start j idx 0 = (idx (ix2 (j 0) 0)).toInt := by
  unfold ScatterDims.start
  rw [dif_pos (show (0 : Fin 2) ∈ (rowScatter R E C wf).scatterDimsToOperandDims from List.mem_singleton.mpr rfl)]
  have hsi : (rowScatter R E C wf).siIdx j ⟨List.idxOf (0 : Fin 2) (rowScatter R E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]; rfl

theorem rowScatter_start1 (j : (⟨2, ![E, C]⟩ : Shape).Idx) (idx : IVec ⟨2, ![E, 1]⟩ w) :
    (rowScatter R E C wf).start j idx 1 = 0 := by
  unfold ScatterDims.start
  rw [dif_neg (show ¬ (1 : Fin 2) ∈ ([0] : List (Fin 2)) by decide)]

theorem rowScatter_window0 (j : (⟨2, ![E, C]⟩ : Shape).Idx) :
    (rowScatter R E C wf).window j 0 = 0 := by
  unfold ScatterDims.window
  have h : (0 : Fin 2) ∉ (rowScatter R E C wf).sKept := by
    show ¬ (0 : Fin 2) ∈ (List.finRange 2).filter (· ∉ [(0 : Fin 2)]); decide
  rw [dif_neg h]

theorem rowScatter_window1 (j : (⟨2, ![E, C]⟩ : Shape).Idx) :
    (rowScatter R E C wf).window j 1 = (j 1).val := by
  unfold ScatterDims.window
  have h : (1 : Fin 2) ∈ (rowScatter R E C wf).sKept := by
    show (1 : Fin 2) ∈ (List.finRange 2).filter (· ∉ [(0 : Fin 2)]); decide
  rw [dif_pos h]
  rfl

/-- An update at (e, b) lands on (r, c) exactly when row e's index word, read signed, is r and b = c. -/
theorem rowScatter_resultIdx_iff (idx : IVec ⟨2, ![E, 1]⟩ w) (e : Fin E) (b : Fin C) (r : Fin R) (c : Fin C) :
    (rowScatter R E C wf).resultIdx? (ix2 e b) idx = some (ix2 r c) ↔
      ((idx (ix2 e 0)).toInt = (r.val : Int) ∧ b = c) := by
  unfold ScatterDims.resultIdx?
  have hr := r.isLt
  have hc := c.isLt
  have hb := b.isLt
  split
  · next h =>
    rw [Option.some.injEq]
    constructor
    · intro hEq
      have h0 : ((rowScatter R E C wf).start (ix2 e b) idx 0 + ((rowScatter R E C wf).window (ix2 e b) 0 : Nat)).toNat = r.val :=
        congrArg (fun f => (f 0).val) hEq
      have h1 : ((rowScatter R E C wf).start (ix2 e b) idx 1 + ((rowScatter R E C wf).window (ix2 e b) 1 : Nat)).toNat = c.val :=
        congrArg (fun f => (f 1).val) hEq
      have g0 := (h 0).1
      rw [rowScatter_start0, rowScatter_window0] at h0 g0
      rw [rowScatter_start1, rowScatter_window1] at h1
      have h0' : ((idx (ix2 e 0)).toInt + ((0 : Nat) : Int)).toNat = r.val := h0
      have g0' : 0 ≤ (idx (ix2 e 0)).toInt + ((0 : Nat) : Int) := g0
      have h1' : ((0 : Int) + ((b.val : Nat) : Int)).toNat = c.val := h1
      refine ⟨by omega, Fin.ext (by omega)⟩
    · rintro ⟨h0, rfl⟩
      funext a
      refine Fin.ext ?_
      match a with
      | ⟨0, _⟩ =>
        show ((rowScatter R E C wf).start (ix2 e b) idx 0 + ((rowScatter R E C wf).window (ix2 e b) 0 : Nat)).toNat = r.val
        rw [rowScatter_start0, rowScatter_window0]
        show ((idx (ix2 e 0)).toInt + ((0 : Nat) : Int)).toNat = r.val
        omega
      | ⟨1, _⟩ =>
        show ((rowScatter R E C wf).start (ix2 e b) idx 1 + ((rowScatter R E C wf).window (ix2 e b) 1 : Nat)).toNat = b.val
        rw [rowScatter_start1, rowScatter_window1]
        show ((0 : Int) + ((b.val : Nat) : Int)).toNat = b.val
        omega
  · next h =>
    constructor
    · intro hEq; exact absurd hEq (by simp)
    · rintro ⟨h0, rfl⟩
      exfalso; apply h
      intro a
      match a with
      | ⟨0, _⟩ =>
        show 0 ≤ (rowScatter R E C wf).start (ix2 e b) idx 0 + ((rowScatter R E C wf).window (ix2 e b) 0 : Nat) ∧
          (rowScatter R E C wf).start (ix2 e b) idx 0 + ((rowScatter R E C wf).window (ix2 e b) 0 : Nat) < (R : Nat)
        rw [rowScatter_start0, rowScatter_window0]
        show 0 ≤ (idx (ix2 e 0)).toInt + ((0 : Nat) : Int) ∧ (idx (ix2 e 0)).toInt + ((0 : Nat) : Int) < (R : Nat)
        omega
      | ⟨1, _⟩ =>
        show 0 ≤ (rowScatter R E C wf).start (ix2 e b) idx 1 + ((rowScatter R E C wf).window (ix2 e b) 1 : Nat) ∧
          (rowScatter R E C wf).start (ix2 e b) idx 1 + ((rowScatter R E C wf).window (ix2 e b) 1 : Nat) < (C : Nat)
        rw [rowScatter_start1, rowScatter_window1]
        show 0 ≤ (0 : Int) + ((b.val : Nat) : Int) ∧ (0 : Int) + ((b.val : Nat) : Int) < (C : Nat)
        omega

/-- The accumulating row scatter read at (r, c): the operand there plus, over the update rows e whose
    index word (read signed) is r, the update at (e, c). Column c only ever sees column c. -/
theorem rowScatter_apply (x : (⟨2, ![R, C]⟩ : Shape).Idx → EReal) (idx : IVec ⟨2, ![E, 1]⟩ w)
    (upd : (⟨2, ![E, C]⟩ : Shape).Idx → EReal) (r : Fin R) (c : Fin C) :
    Ideal.hostScatterAdd (rowScatter R E C wf) x idx upd (ix2 r c)
      = x (ix2 r c) + ∑ e : Fin E, if (idx (ix2 e 0)).toInt = (r.val : Int) then upd (ix2 e c) else 0 := by
  unfold Ideal.hostScatterAdd
  congr 1
  rw [Finset.sum_filter, sum_idx2]
  refine Finset.sum_congr rfl fun e _ => ?_
  by_cases hP : (idx (ix2 e 0)).toInt = (r.val : Int)
  · rw [if_pos hP, Finset.sum_eq_single c]
    · rw [if_pos ((rowScatter_resultIdx_iff wf idx e c r c).2 ⟨hP, rfl⟩)]
    · intro b _ hbc
      rw [if_neg (fun h => hbc ((rowScatter_resultIdx_iff wf idx e b r c).1 h).2)]
    · intro h; exact absurd (Finset.mem_univ c) h
  · rw [if_neg hP]
    refine Finset.sum_eq_zero fun b _ => ?_
    rw [if_neg (fun h => hP ((rowScatter_resultIdx_iff wf idx e b r c).1 h).1)]
end

abbrev rowGather (R E C : Nat) (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable {R E C w : Nat} (wf : GatherDims.WF ⟨2, ![R, C]⟩ ⟨2, ![E, 1]⟩ ⟨2, ![E, C]⟩ [1] [0] [] [0] [] 1 ![1, C])

/-- The row gather read at (e, c): the operand at row "index word of e, read signed and clamped into [0, R-1]", column c. -/
theorem rowGather_apply {α : Type} (hR : 0 < R) (x : (⟨2, ![R, C]⟩ : Shape).Idx → α) (idx : IVec ⟨2, ![E, 1]⟩ w)
    (e : Fin E) (c : Fin C) :
    Host.gather (rowGather R E C wf) x idx (ix2 e c)
      = x (ix2 ⟨min (idx (ix2 e 0)).toInt.toNat (R - 1), by omega⟩ c) := by
  unfold Host.gather
  congr 1
  funext a
  refine Fin.ext ?_
  match a with
  | ⟨0, _⟩ =>
    show (rowGather R E C wf).start (ix2 e c) idx 0 + (rowGather R E C wf).batchCoord (ix2 e c) 0
      + (rowGather R E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R E C wf).startIndexMap from List.mem_singleton.mpr rfl)]
    have hsi : (rowGather R E C wf).siIdx (ix2 e c) ⟨List.idxOf (0 : Fin 2) (rowGather R E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather R E C wf).start (ix2 e c) idx 1 + (rowGather R E C wf).batchCoord (ix2 e c) 1
      + (rowGather R E C wf).offCoord (ix2 e c) 1 = c.val
    rw [GatherDims.batchCoord_eq_zero _ _ _ List.not_mem_nil]
    have hs : (rowGather R E C wf).start (ix2 e c) idx 1 = 0 := by
      unfold GatherDims.start
      have h : (1 : Fin 2) ∉ (rowGather R E C wf).startIndexMap := by
        show ¬ (1 : Fin 2) ∈ ([0] : List (Fin 2)); decide
      rw [dif_neg h]
    have ho : (rowGather R E C wf).offCoord (ix2 e c) 1 = c.val := by
      unfold GatherDims.offCoord
      have h : (1 : Fin 2) ∈ (rowGather R E C wf).sKept :=
        (GatherDims.mem_sKept _ _).2 ⟨(show ¬ (1 : Fin 2) ∈ ([0] : List (Fin 2)) by decide), List.not_mem_nil⟩
      rw [dif_pos h]
      rfl
    rw [hs, ho]; omega
end

/-! ## The two programs' records are these -/

section Pack
variable [Cert.KernelIdeal.Facts₀] [Cert.ReferenceIdeal.Facts₀]

/-- The 64-column aggregation read at an entry. -/
theorem scatter64_apply (x : FVec Ideal Cert.KernelIdeal.S8192x64 .f32) (idx : IVec Cert.KernelIdeal.S270336x1 32)
    (upd : FVec Ideal Cert.KernelIdeal.S270336x64 .f32) (r : Fin 8192) (c : Fin 64) :
    Host.scatterAdd Cert.KernelIdeal.scatter_S8192x64_S270336x1_S270336x64_1_0_0_1 x idx upd (ix2 r c)
      = x (ix2 r c) + ∑ e : Fin 270336, if (idx (ix2 e 0)).toInt = (r.val : Int) then upd (ix2 e c) else 0 :=
  rowScatter_apply (R := 8192) (E := 270336) (C := 64) Cert.KernelIdeal.Facts₀.scatter_S8192x64_S270336x1_S270336x64_1_0_0_1_wf x idx upd r c

/-- The 32-column aggregation read at an entry. -/
theorem scatter32_apply (x : FVec Ideal Cert.ReferenceIdeal.S8192x32 .f32) (idx : IVec Cert.ReferenceIdeal.S270336x1 32)
    (upd : FVec Ideal Cert.ReferenceIdeal.S270336x32 .f32) (r : Fin 8192) (c : Fin 32) :
    Host.scatterAdd Cert.ReferenceIdeal.scatter_S8192x32_S270336x1_S270336x32_1_0_0_1 x idx upd (ix2 r c)
      = x (ix2 r c) + ∑ e : Fin 270336, if (idx (ix2 e 0)).toInt = (r.val : Int) then upd (ix2 e c) else 0 :=
  rowScatter_apply (R := 8192) (E := 270336) (C := 32) Cert.ReferenceIdeal.Facts₀.scatter_S8192x32_S270336x1_S270336x32_1_0_0_1_wf x idx upd r c

/-- The wide update array at (e, c), c < 32: the narrow one built from A. -/
theorem upd_lo (A B : FVec Ideal Cert.KernelIdeal.S8192x32 .f32) (iS : IVec Cert.KernelIdeal.S270336x1 32)
    (nrm : FVec Ideal Cert.KernelIdeal.S270336x1 .f32) (e : Fin 270336) (c : Fin 32) :
    (mulf (Host.gather Cert.KernelIdeal.gather_S8192x64_S270336x1_S270336x64_1_0_n_n_0_1_164
            (concatenate Cert.KernelIdeal.S8192x64 1 [⟨Cert.KernelIdeal.S8192x32, A⟩, ⟨Cert.KernelIdeal.S8192x32, B⟩]
              Cert.KernelIdeal.Facts₀.concatenates_S8192x32_S8192x32_S8192x64_d1) iS)
          (broadcastInDim Cert.KernelIdeal.S270336x64 ![0, 1] Cert.KernelIdeal.Facts₀.bcast_S270336x1_S270336x64_0_1 nrm))
          (ix2 e ⟨c.val, by omega⟩)
      = (mulf (Host.gather Cert.ReferenceIdeal.gather_S8192x32_S270336x1_S270336x32_1_0_n_n_0_1_132 A iS)
          (broadcastInDim Cert.ReferenceIdeal.S270336x32 ![0, 1] Cert.ReferenceIdeal.Facts₀.bcast_S270336x1_S270336x32_0_1 nrm))
          (ix2 e c) := by
  rw [mulf_apply, mulf_apply]
  have g64 := rowGather_apply (R := 8192) (E := 270336) (C := 64)
    Cert.KernelIdeal.Facts₀.gather_S8192x64_S270336x1_S270336x64_1_0_n_n_0_1_164_wf (by omega)
    (concatenate Cert.KernelIdeal.S8192x64 1 [⟨Cert.KernelIdeal.S8192x32, A⟩, ⟨Cert.KernelIdeal.S8192x32, B⟩]
              Cert.KernelIdeal.Facts₀.concatenates_S8192x32_S8192x32_S8192x64_d1) iS e ⟨c.val, by omega⟩
  have g32 := rowGather_apply (R := 8192) (E := 270336) (C := 32)
    Cert.ReferenceIdeal.Facts₀.gather_S8192x32_S270336x1_S270336x32_1_0_n_n_0_1_132_wf (by omega) A iS e c
  have hc := concatenate_pair_apply_left (1 : Fin 2) A B Cert.KernelIdeal.Facts₀.concatenates_S8192x32_S8192x32_S8192x64_d1
    (ix2 (⟨min (iS (ix2 e 0)).toInt.toNat (8192 - 1), by omega⟩ : Fin 8192) (⟨c.val, by omega⟩ : Fin 64)) rfl
    (ix2 (⟨min (iS (ix2 e 0)).toInt.toNat (8192 - 1), by omega⟩ : Fin 8192) c)
    (fun b => match b with | ⟨0, _⟩ => rfl | ⟨1, _⟩ => rfl)
  have b64 := broadcastInDim_apply (![0, 1] : Fin 2 → Fin 2) Cert.KernelIdeal.Facts₀.bcast_S270336x1_S270336x64_0_1 nrm
    (ix2 e (⟨c.val, by omega⟩ : Fin 64)) (ix2 e 0)
    (fun a => match a with
      | ⟨0, _⟩ => (if_neg (show ¬ (270336 : Nat) = 1 by decide)).symm
      | ⟨1, _⟩ => (if_pos rfl).symm)
  have b32 := broadcastInDim_apply (![0, 1] : Fin 2 → Fin 2) Cert.ReferenceIdeal.Facts₀.bcast_S270336x1_S270336x32_0_1 nrm
    (ix2 e c) (ix2 e 0)
    (fun a => match a with
      | ⟨0, _⟩ => (if_neg (show ¬ (270336 : Nat) = 1 by decide)).symm
      | ⟨1, _⟩ => (if_pos rfl).symm)
  exact (congrArg₂ (· * ·) (g64.trans hc) b64).trans (congrArg₂ (· * ·) g32 b32).symm

/-- The wide update array at (e, 32 + c), c < 32: the narrow one built from B. -/
theorem upd_hi (A B : FVec Ideal Cert.KernelIdeal.S8192x32 .f32) (iS : IVec Cert.KernelIdeal.S270336x1 32)
    (nrm : FVec Ideal Cert.KernelIdeal.S270336x1 .f32) (e : Fin 270336) (c : Fin 32) :
    (mulf (Host.gather Cert.KernelIdeal.gather_S8192x64_S270336x1_S270336x64_1_0_n_n_0_1_164
            (concatenate Cert.KernelIdeal.S8192x64 1 [⟨Cert.KernelIdeal.S8192x32, A⟩, ⟨Cert.KernelIdeal.S8192x32, B⟩]
              Cert.KernelIdeal.Facts₀.concatenates_S8192x32_S8192x32_S8192x64_d1) iS)
          (broadcastInDim Cert.KernelIdeal.S270336x64 ![0, 1] Cert.KernelIdeal.Facts₀.bcast_S270336x1_S270336x64_0_1 nrm))
          (ix2 e ⟨32 + c.val, by omega⟩)
      = (mulf (Host.gather Cert.ReferenceIdeal.gather_S8192x32_S270336x1_S270336x32_1_0_n_n_0_1_132 B iS)
          (broadcastInDim Cert.ReferenceIdeal.S270336x32 ![0, 1] Cert.ReferenceIdeal.Facts₀.bcast_S270336x1_S270336x32_0_1 nrm))
          (ix2 e c) := by
  rw [mulf_apply, mulf_apply]
  have g64 := rowGather_apply (R := 8192) (E := 270336) (C := 64)
    Cert.KernelIdeal.Facts₀.gather_S8192x64_S270336x1_S270336x64_1_0_n_n_0_1_164_wf (by omega)
    (concatenate Cert.KernelIdeal.S8192x64 1 [⟨Cert.KernelIdeal.S8192x32, A⟩, ⟨Cert.KernelIdeal.S8192x32, B⟩]
              Cert.KernelIdeal.Facts₀.concatenates_S8192x32_S8192x32_S8192x64_d1) iS e ⟨32 + c.val, by omega⟩
  have g32 := rowGather_apply (R := 8192) (E := 270336) (C := 32)
    Cert.ReferenceIdeal.Facts₀.gather_S8192x32_S270336x1_S270336x32_1_0_n_n_0_1_132_wf (by omega) B iS e c
  have hc := concatenate_pair_apply_right (1 : Fin 2) A B Cert.KernelIdeal.Facts₀.concatenates_S8192x32_S8192x32_S8192x64_d1
    (ix2 (⟨min (iS (ix2 e 0)).toInt.toNat (8192 - 1), by omega⟩ : Fin 8192) (⟨32 + c.val, by omega⟩ : Fin 64)) rfl rfl
    (ix2 (⟨min (iS (ix2 e 0)).toInt.toNat (8192 - 1), by omega⟩ : Fin 8192) c)
    (fun b => match b with | ⟨0, _⟩ => fun _ => rfl | ⟨1, _⟩ => fun h => absurd rfl h)
    (show c.val + 32 = 32 + c.val by omega)
  have b64 := broadcastInDim_apply (![0, 1] : Fin 2 → Fin 2) Cert.KernelIdeal.Facts₀.bcast_S270336x1_S270336x64_0_1 nrm
    (ix2 e (⟨32 + c.val, by omega⟩ : Fin 64)) (ix2 e 0)
    (fun a => match a with
      | ⟨0, _⟩ => (if_neg (show ¬ (270336 : Nat) = 1 by decide)).symm
      | ⟨1, _⟩ => (if_pos rfl).symm)
  have b32 := broadcastInDim_apply (![0, 1] : Fin 2 → Fin 2) Cert.ReferenceIdeal.Facts₀.bcast_S270336x1_S270336x32_0_1 nrm
    (ix2 e c) (ix2 e 0)
    (fun a => match a with
      | ⟨0, _⟩ => (if_neg (show ¬ (270336 : Nat) = 1 by decide)).symm
      | ⟨1, _⟩ => (if_pos rfl).symm)
  exact (congrArg₂ (· * ·) (g64.trans hc) b64).trans (congrArg₂ (· * ·) g32 b32).symm

/-- Columns 0..31 of the 64-column aggregation of [A | B] are the 32-column aggregation of A. -/
theorem pack_lo (A B : FVec Ideal Cert.KernelIdeal.S8192x32 .f32) (iS iD : IVec Cert.KernelIdeal.S270336x1 32)
    (nrm : FVec Ideal Cert.KernelIdeal.S270336x1 .f32) :
    extractStridedSlice Cert.KernelIdeal.S8192x32 ![0, 0]
      (Host.scatterAdd Cert.KernelIdeal.scatter_S8192x64_S270336x1_S270336x64_1_0_0_1
        (broadcastInDim Cert.KernelIdeal.S8192x64 ![] Cert.KernelIdeal.Facts₀.bcast_S_S8192x64 (constant (F := Ideal) Cert.KernelIdeal.S_ .f32 0x00000000#32)) iD
        (mulf (Host.gather Cert.KernelIdeal.gather_S8192x64_S270336x1_S270336x64_1_0_n_n_0_1_164
            (concatenate Cert.KernelIdeal.S8192x64 1 [⟨Cert.KernelIdeal.S8192x32, A⟩, ⟨Cert.KernelIdeal.S8192x32, B⟩]
              Cert.KernelIdeal.Facts₀.concatenates_S8192x32_S8192x32_S8192x64_d1) iS)
          (broadcastInDim Cert.KernelIdeal.S270336x64 ![0, 1] Cert.KernelIdeal.Facts₀.bcast_S270336x1_S270336x64_0_1 nrm)))
      Cert.KernelIdeal.Facts₀.slices_S8192x64_S8192x32_0_0
    = Host.scatterAdd Cert.ReferenceIdeal.scatter_S8192x32_S270336x1_S270336x32_1_0_0_1
        (broadcastInDim Cert.ReferenceIdeal.S8192x32 ![] Cert.ReferenceIdeal.Facts₀.bcast_S_S8192x32 (constant (F := Ideal) Cert.ReferenceIdeal.S_ .f32 0x00000000#32)) iD
        (mulf (Host.gather Cert.ReferenceIdeal.gather_S8192x32_S270336x1_S270336x32_1_0_n_n_0_1_132 A iS)
          (broadcastInDim Cert.ReferenceIdeal.S270336x32 ![0, 1] Cert.ReferenceIdeal.Facts₀.bcast_S270336x1_S270336x32_0_1 nrm)) := by
  funext i
  obtain ⟨r, c, rfl⟩ : ∃ r c, i = ix2 r c := ⟨i 0, i 1, eq_ix2 i⟩
  refine (extractStridedSlice_apply _ _ _ (ix2 r c) (ix2 r (⟨c.val, by omega⟩ : Fin 64))
    (fun a => match a with | ⟨0, _⟩ => (Nat.zero_add _).symm | ⟨1, _⟩ => (Nat.zero_add _).symm)).trans ?_
  rw [scatter64_apply, scatter32_apply]
  refine congrArg₂ (· + ·) rfl (Finset.sum_congr rfl fun e _ => ?_)
  rw [upd_lo]

/-- Columns 32..63 of the 64-column aggregation of [A | B] are the 32-column aggregation of B. -/
theorem pack_hi (A B : FVec Ideal Cert.KernelIdeal.S8192x32 .f32) (iS iD : IVec Cert.KernelIdeal.S270336x1 32)
    (nrm : FVec Ideal Cert.KernelIdeal.S270336x1 .f32) :
    extractStridedSlice Cert.KernelIdeal.S8192x32 ![0, 32]
      (Host.scatterAdd Cert.KernelIdeal.scatter_S8192x64_S270336x1_S270336x64_1_0_0_1
        (broadcastInDim Cert.KernelIdeal.S8192x64 ![] Cert.KernelIdeal.Facts₀.bcast_S_S8192x64 (constant (F := Ideal) Cert.KernelIdeal.S_ .f32 0x00000000#32)) iD
        (mulf (Host.gather Cert.KernelIdeal.gather_S8192x64_S270336x1_S270336x64_1_0_n_n_0_1_164
            (concatenate Cert.KernelIdeal.S8192x64 1 [⟨Cert.KernelIdeal.S8192x32, A⟩, ⟨Cert.KernelIdeal.S8192x32, B⟩]
              Cert.KernelIdeal.Facts₀.concatenates_S8192x32_S8192x32_S8192x64_d1) iS)
          (broadcastInDim Cert.KernelIdeal.S270336x64 ![0, 1] Cert.KernelIdeal.Facts₀.bcast_S270336x1_S270336x64_0_1 nrm)))
      Cert.KernelIdeal.Facts₀.slices_S8192x64_S8192x32_0_32
    = Host.scatterAdd Cert.ReferenceIdeal.scatter_S8192x32_S270336x1_S270336x32_1_0_0_1
        (broadcastInDim Cert.ReferenceIdeal.S8192x32 ![] Cert.ReferenceIdeal.Facts₀.bcast_S_S8192x32 (constant (F := Ideal) Cert.ReferenceIdeal.S_ .f32 0x00000000#32)) iD
        (mulf (Host.gather Cert.ReferenceIdeal.gather_S8192x32_S270336x1_S270336x32_1_0_n_n_0_1_132 B iS)
          (broadcastInDim Cert.ReferenceIdeal.S270336x32 ![0, 1] Cert.ReferenceIdeal.Facts₀.bcast_S270336x1_S270336x32_0_1 nrm)) := by
  funext i
  obtain ⟨r, c, rfl⟩ : ∃ r c, i = ix2 r c := ⟨i 0, i 1, eq_ix2 i⟩
  refine (extractStridedSlice_apply _ _ _ (ix2 r c) (ix2 r (⟨32 + c.val, by omega⟩ : Fin 64))
    (fun a => match a with | ⟨0, _⟩ => (Nat.zero_add _).symm | ⟨1, _⟩ => rfl)).trans ?_
  rw [scatter64_apply, scatter32_apply]
  refine congrArg₂ (· + ·) rfl (Finset.sum_congr rfl fun e _ => ?_)
  rw [upd_hi]
end Pack
end Cert.PackCols
-- ==== Proof.RegionValue.lean ====
/- The value of the output-projection region: over the grid of 16 points, point `t` multiplies the row vector
   (1 × 8192) by the transpose of rows `512 t … 512 t + 511` of the weight array (8192 × 8192) and adds columns
   `512 t … 512 t + 511` of the bias row, so that after the last point entry `(0, r)` of the result row is
   `∑ k, p(0, k) · w(r, k) + b(0, r)`. Here: the block product read at an index (`pay_apply`), that function of
   the three whole arrays (`rowDot`), each input block as a part of its array (`iblk0_apply` … `iblk2_apply`),
   what each point writes back (`flushed_eq`), the cover of the result row by the points' blocks (`cover`), and
   the result row after the region (`final`). -/
import proofs.«128091_j10213432230367_2_alg».proof.Proof.Gen.KernelIdeal.Frame
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen

/-- The block product's dimension numbers: row vector times the transpose of a 512-row block. -/
abbrev DD : DotDims S1x8192 S512x8192 S1x512 := dot_S1x8192_S512x8192_S1x512_1_1_0_0_n_n

theorem lhs_0 (i : S1x512.Idx) (q : DD.contr.Idx) : (DD.lhsIdx i q 0).val = (i 0).val := by
  unfold DotDims.lhsIdx
  rw [dif_neg (show ¬(0 : Fin S1x8192.rank) ∈ DD.lhsBatch by decide), dif_pos (show (0 : Fin S1x8192.rank) ∈ DD.lhsNonContracting by decide)]
  rfl
theorem lhs_1 (i : S1x512.Idx) (q : DD.contr.Idx) : (DD.lhsIdx i q 1).val = (q ⟨0, by decide⟩).val :=
  DD.lhsIdx_val_of_single rfl i q
theorem rhs_0 (i : S1x512.Idx) (q : DD.contr.Idx) : (DD.rhsIdx i q 0).val = (i 1).val := by
  unfold DotDims.rhsIdx
  rw [dif_neg (show ¬(0 : Fin S512x8192.rank) ∈ DD.rhsBatch by decide), dif_pos (show (0 : Fin S512x8192.rank) ∈ DD.rhsNonContracting by decide)]
  rfl
theorem rhs_1 (i : S1x512.Idx) (q : DD.contr.Idx) : (DD.rhsIdx i q 1).val = (q ⟨0, by decide⟩).val :=
  DD.rhsIdx_val_of_single rfl i q

/-- The body's result at column `q` of its block: the row vector against row `q` of the weight block, plus the bias there. -/
theorem pay_apply (x0 : Vec Ideal S1x8192 .f32) (x1 : Vec Ideal S512x8192 .f32) (x2 : Vec Ideal S1x512 .f32) (q : Fin 512) :
    k0_pay1 x0 x1 x2 (ix2 (0 : Fin 1) q)
      = (∑ k : Fin 8192, x0 (ix2 (0 : Fin 1) k) * x1 (ix2 q k)) + x2 (ix2 (0 : Fin 1) q) := by
  unfold k0_pay1
  simp only [shapeCast_self]
  rw [addf_apply]
  refine congrArg (· + x2 (ix2 (0 : Fin 1) q)) ?_
  simp only [matmul]
  rw [Ideal.matmul_constant_zero_apply, ← Equiv.sum_comp (contrEquiv1 DD 8192 rfl rfl).symm]
  refine Finset.sum_congr rfl fun k _ => ?_
  have hk := contrEquiv1_symm_val DD 8192 rfl rfl k
  have el : DD.lhsIdx (ix2 (0 : Fin 1) q) ((contrEquiv1 DD 8192 rfl rfl).symm k) = ix2 (0 : Fin 1) k := funext fun a => Fin.ext (by
    match a with
    | ⟨0, _⟩ => exact lhs_0 _ _
    | ⟨1, _⟩ => exact (lhs_1 _ _).trans hk)
  have er : DD.rhsIdx (ix2 (0 : Fin 1) q) ((contrEquiv1 DD 8192 rfl rfl).symm k) = ix2 q k := funext fun a => Fin.ext (by
    match a with
    | ⟨0, _⟩ => exact rhs_0 _ _
    | ⟨1, _⟩ => exact (rhs_1 _ _).trans hk)
  rw [truncf_apply, truncf_apply, el, er]

/-! ## The region's value as one function of the three arrays -/

/-- Entry `(0, r)` of the result: the row vector `p` against row `r` of `w`, plus `b` there. -/
def rowDot (p : S1x8192.Idx → EReal) (w : S8192x8192.Idx → EReal) (b : S1x8192.Idx → EReal) : S1x8192.Idx → EReal :=
  fun i => (∑ k : Fin 8192, p (ix2 (0 : Fin 1) k) * w (ix2 (⟨(i 1).val, idx2_lt1 i⟩ : Fin 8192) k)) + b i

theorem rowDot_apply (p : S1x8192.Idx → EReal) (w : S8192x8192.Idx → EReal) (b : S1x8192.Idx → EReal) (r : Fin 8192) :
    rowDot p w b (ix2 (0 : Fin 1) r) = (∑ k : Fin 8192, p (ix2 (0 : Fin 1) k) * w (ix2 r k)) + b (ix2 (0 : Fin 1) r) := rfl

/-! ## From blocks to the array -/

variable (m : (ℓ : Loc nD τ sig) → Buf (Elt Ideal) ℓ)

theorem hz : (![0, 0] : Fin 2 → Nat) = fun _ => 0 := funext fun a => by fin_cases a <;> rfl

/-- The index maps over the grid: the row vector stays put, the weight block moves down the rows, the bias and the
    result blocks move along the columns, all with the point's number. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The row vector's block at any point is the row vector. -/
theorem iblk0_apply (c : Dev nD) (t : Fin cfg0.N) (x : S1x8192.Idx) (i : S1x8192.Idx)
    (h0 : (i 0).val = (x 0).val) (h1 : (i 1).val = (x 1).val) :
    (iblk m c 0 t : Vec Ideal S1x8192 .f32) x = (V m c main_v93 : S1x8192.Idx → EReal) i := by
  obtain ⟨e0, e1, -⟩ := idx_facts t
  unfold iblk
  rw [View.read_apply]
  show V m c main_v93 _ = V m c main_v93 _
  congr 1
  funext a
  apply Fin.ext
  match a with
  | ⟨0, _⟩ => show win0_0.index t 0 * 1 + 1 * (x 0).val = (i 0).val; rw [e0, h0]; omega
  | ⟨1, _⟩ => show win0_0.index t 1 * 8192 + 1 * (x 1).val = (i 1).val; rw [e1, h1]; omega

/-- The weight block at point `t` is rows `512 t … 512 t + 511` of the weight array. -/
theorem iblk1_apply (c : Dev nD) (t : Fin cfg0.N) (x : S512x8192.Idx) (i : S8192x8192.Idx)
    (h0 : (i 0).val = 512 * t.val + (x 0).val) (h1 : (i 1).val = (x 1).val) :
    (iblk m c 1 t : Vec Ideal S512x8192 .f32) x = (V m c main_arg10 : S8192x8192.Idx → EReal) i := by
  obtain ⟨-, -, e2, e3, -⟩ := idx_facts t
  unfold iblk
  rw [View.read_apply]
  show V m c main_arg10 _ = V m c main_arg10 _
  congr 1
  funext a
  apply Fin.ext
  match a with
  | ⟨0, _⟩ => show win0_1.index t 0 * 512 + 1 * (x 0).val = (i 0).val; rw [e2, h0]; omega
  | ⟨1, _⟩ => show win0_1.index t 1 * 8192 + 1 * (x 1).val = (i 1).val; rw [e3, h1]; omega

/-- The bias block at point `t` is columns `512 t … 512 t + 511` of the bias row. -/
theorem iblk2_apply (c : Dev nD) (t : Fin cfg0.N) (x : S1x512.Idx) (i : S1x8192.Idx)
    (h0 : (i 0).val = (x 0).val) (h1 : (i 1).val = 512 * t.val + (x 1).val) :
    (iblk m c 2 t : Vec Ideal S1x512 .f32) x = (V m c main_v94 : S1x8192.Idx → EReal) i := by
  obtain ⟨-, -, -, -, e4, e5, -⟩ := idx_facts t
  unfold iblk
  rw [View.read_apply]
  show V m c main_v94 _ = V m c main_v94 _
  congr 1
  funext a
  apply Fin.ext
  match a with
  | ⟨0, _⟩ => show win0_2.index t 0 * 1 + 1 * (x 0).val = (i 0).val; rw [e4, h0]; omega
  | ⟨1, _⟩ => show win0_2.index t 1 * 512 + 1 * (x 1).val = (i 1).val; rw [e5, h1]; omega

/-- What point `t` writes back is block `t` of `rowDot` of the three arrays as the region finds them. -/
theorem flushed_eq (c : Dev nD) (t : Fin cfg0.N) :
    (dats m 0 c).flushed 3 t
      = ((cfg0.win 3).blk t).view.read (Elt Ideal) (rowDot (V m c main_v93) (V m c main_arg10) (V m c main_v94)) := by
  show (cfg0.win 3).cut (grid0.coords t) ((dats m 0 c).after 3 t) = _
  rw [after0_3]
  unfold out0_3
  rw [View.canon_unit_zero hz]
  simp only [View.ld_unit_zero (S := S1x8192) hz, View.ld_unit_zero (S := S512x8192) hz, View.ld_unit_zero (S := S1x512) hz]
  obtain ⟨-, -, -, -, -, -, e6, e7⟩ := idx_facts t
  have hN : cfg0.N = 16 := N_0
  have ht : t.val < 16 := by have := t.isLt; omega
  funext j
  have hj0 : (j 0).val < 1 := (j 0).isLt
  have hj1 : (j 1).val < 512 := (j 1).isLt
  have hx : (cfg0.win 3).xinj (grid0.coords t) j = ix2 (0 : Fin 1) (⟨(j 1).val, hj1⟩ : Fin 512) := funext fun a => Fin.ext (by
    match a with
    | ⟨0, _⟩ => show (j 0).val = 0; omega
    | ⟨1, _⟩ => rfl)
  have hy : ((cfg0.win 3).blk t).view.emb j = ix2 (0 : Fin 1) (⟨512 * t.val + (j 1).val, by omega⟩ : Fin 8192) := funext fun a => Fin.ext (by
    match a with
    | ⟨0, _⟩ => show win0_3.index t 0 * 1 + 1 * (j 0).val = 0; rw [e6]; omega
    | ⟨1, _⟩ => show win0_3.index t 1 * 512 + 1 * (j 1).val = 512 * t.val + (j 1).val; rw [e7]; omega)
  show k0_pay1 (iblk m c 0 t) (iblk m c 1 t) (iblk m c 2 t) ((cfg0.win 3).xinj (grid0.coords t) j)
    = rowDot (V m c main_v93) (V m c main_arg10) (V m c main_v94) (((cfg0.win 3).blk t).view.emb j)
  refine (congrArg (k0_pay1 (iblk m c 0 t) (iblk m c 1 t) (iblk m c 2 t)) hx).trans ?_
  refine Eq.trans ?_ (congrArg (rowDot (V m c main_v93) (V m c main_arg10) (V m c main_v94)) hy).symm
  refine (pay_apply (iblk m c 0 t) (iblk m c 1 t) (iblk m c 2 t) ⟨(j 1).val, hj1⟩).trans ?_
  refine Eq.trans ?_ (rowDot_apply (V m c main_v93) (V m c main_arg10) (V m c main_v94) ⟨512 * t.val + (j 1).val, by omega⟩).symm
  refine congr (congrArg HAdd.hAdd (Finset.sum_congr rfl fun k _ => ?_)) ?_
  · exact congr (congrArg HMul.hMul (iblk0_apply m c t (ix2 (0 : Fin 1) k) (ix2 (0 : Fin 1) k) rfl rfl))
      (iblk1_apply m c t (ix2 (⟨(j 1).val, hj1⟩ : Fin 512) k) (ix2 (⟨512 * t.val + (j 1).val, by omega⟩ : Fin 8192) k) rfl rfl)
  · exact iblk2_apply m c t (ix2 (0 : Fin 1) (⟨(j 1).val, hj1⟩ : Fin 512)) (ix2 (0 : Fin 1) (⟨512 * t.val + (j 1).val, by omega⟩ : Fin 8192)) rfl rfl

/-- An index of the result row is in point `t`'s block iff each coordinate is in the block's range on its axis. -/
theorem mem_blk (t : Fin cfg0.N) (i : S1x8192.Idx) :
    i ∈ ((cfg0.win 3).blk t).view.set
      ↔ ∀ a : Fin 2, win0_3.index t a * S1x512.size a ≤ (i a).val ∧ (i a).val < win0_3.index t a * S1x512.size a + S1x512.size a := by
  show i ∈ ((View.whole main_v95).slice (win0_3.rect t)).set ↔ _
  rw [View.set_slice_whole, Rect.mem_set_unit]
  exact Iff.rfl

/-- Column `r` of the result row is written back by point `r / 512`. -/
theorem cover (i : S1x8192.Idx) : ∃ t : Fin cfg0.N, (cfg0.win 3).flush t = true ∧ i ∈ ((cfg0.win 3).blk t).view.set := by
  have hi0 : (i 0).val < 1 := (i 0).isLt
  have hi1 : (i 1).val < 8192 := (i 1).isLt
  have hN : cfg0.N = 16 := N_0
  let t : Fin cfg0.N := ⟨(i 1).val / 512, by omega⟩
  have tv : t.val = (i 1).val / 512 := rfl
  obtain ⟨-, -, -, -, -, -, e6, e7⟩ := idx_facts t
  refine ⟨t, flush0_3 t, ?_⟩
  rw [mem_blk]
  intro a
  match a with
  | ⟨0, _⟩ => show win0_3.index t 0 * 1 ≤ (i 0).val ∧ (i 0).val < win0_3.index t 0 * 1 + 1; rw [e6]; omega
  | ⟨1, _⟩ => show win0_3.index t 1 * 512 ≤ (i 1).val ∧ (i 1).val < win0_3.index t 1 * 512 + 512; rw [e7, tv]; omega

/-- THE RESULT ROW after the region: `rowDot` of the row vector, the weight array and the bias row as the region finds them. -/
theorem final (c : Dev nD) :
    (dats m 0 c).arrAt 3 cfg0.N = rowDot (V m c main_v93) (V m c main_arg10) (V m c main_v94) :=
  (dats m 0 c).arrAt_eq_of_cover 3 (rowDot (V m c main_v93) (V m c main_arg10) (V m c main_v94))
    (fun t _ => flushed_eq m c t) cover

end Cert.KernelIdeal.RegionValue

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.RowDotRef.lean ====
/- The value of the output-projection region is the reference's own expression for that row: the row vector times
   the transposed weight array, plus the bias vector laid along the row. Entry `(0, r)` of both is
   `∑ k, p(0, k) · w(r, k) + b(r)`. -/
import proofs.«128091_j10213432230367_2_alg».proof.Proof.RegionValue
import proofs.«128091_j10213432230367_2_alg».proof.ReferenceIdeal
import proofs.«128091_j10213432230367_2_alg».proof.Proof.LibDotPlain
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open scoped BigOperators

namespace Cert.KernelIdeal.RegionValue

open Cert.KernelIdeal Cert.KernelIdeal.Gen

/-! ## The region's value is the reference's expression -/

section Reference
variable [Cert.KernelIdeal.Facts₀] [Cert.ReferenceIdeal.Facts₀]

/-- The reference forms the same row: the row vector times the transposed weight array, entry `(0, r)` being
    `∑ k, p(0, k) · w(r, k)`, plus the bias laid along the row; the region's bias row is the bias vector given a
    leading unit axis, the same entries. -/
theorem rowDot_eq_ref (p : FVec Ideal S1x8192 .f32) (w : FVec Ideal S8192x8192 .f32) (bop : FVec Ideal S8192 .f32) :
    rowDot p w (shapeCast S1x8192 bop Cert.KernelIdeal.Facts₀.shapeCasts_S8192_S1x8192)
      = addf (Host.dotGeneral (F := Ideal) Cert.ReferenceIdeal.dot_S1x8192_S8192x8192_S1x8192_1_0_0_1_n_n none p
            (transpose S8192x8192 [1, 0] w Cert.ReferenceIdeal.Facts₀.transposes_S8192x8192_S8192x8192_1_0))
          (broadcastInDim S1x8192 ![1] Cert.ReferenceIdeal.Facts₀.bcast_S8192_S1x8192_1 bop) := by
  funext i
  obtain ⟨a, r, rfl⟩ : ∃ (a : Fin 1) (r : Fin 8192), i = ix2 a r := ⟨i 0, i 1, eq_ix2 i⟩
  obtain rfl : a = 0 := Subsingleton.elim _ _
  have e1 : shapeCast S1x8192 bop Cert.KernelIdeal.Facts₀.shapeCasts_S8192_S1x8192 (ix2 (0 : Fin 1) r) = bop (ix1 r) :=
    shapeCast_apply bop _ (ix2 (0 : Fin 1) r) (ix1 r) (by
      rw [Shape.rowMajor_val_two, Shape.rowMajor_val_one]; show r.val = 0 * 8192 + r.val; omega)
  have e2 : broadcastInDim S1x8192 ![1] Cert.ReferenceIdeal.Facts₀.bcast_S8192_S1x8192_1 bop (ix2 (0 : Fin 1) r) = bop (ix1 r) :=
    broadcastInDim_apply ![1] _ bop (ix2 (0 : Fin 1) r) (ix1 r) (by
      intro a
      match a with
      | ⟨0, _⟩ => show r.val = if (8192 : Nat) = 1 then 0 else r.val; rw [if_neg (by decide)])
  have e3 := Cert.LibDotPlain.dotGeneral_apply Cert.ReferenceIdeal.dot_S1x8192_S8192x8192_S1x8192_1_0_0_1_n_n rfl rfl rfl rfl rfl rfl none p
    (transpose S8192x8192 [1, 0] w Cert.ReferenceIdeal.Facts₀.transposes_S8192x8192_S8192x8192_1_0) (0 : Fin 1) r
  have e4 : ∀ k : Fin 8192, transpose S8192x8192 [1, 0] w Cert.ReferenceIdeal.Facts₀.transposes_S8192x8192_S8192x8192_1_0 (ix2 k r) = w (ix2 r k) :=
    fun k => transpose_apply [1, 0] w _ (ix2 k r) (ix2 r k) (by
      intro b
      match b with
      | ⟨0, _⟩ => rfl
      | ⟨1, _⟩ => rfl)
  rw [rowDot_apply, addf_apply, e1, e2]
  refine congrArg (· + bop (ix1 r)) ?_
  refine Eq.trans ?_ e3.symm
  exact Finset.sum_congr rfl fun k _ => by rw [e4 k]

end Reference

end Cert.KernelIdeal.RegionValue

end
-- ==== Proof.Bridge.lean ====
/-
  The kernel's arrangement of the network is the reference's, on the extended reals.

  A scatter-add of rows never mixes columns: column c of the aggregated matrix is a sum of entries of column c of
  the gathered, weighted features.  So the first 32 columns of the aggregation of two blocks laid side by side are
  the aggregation of the first block, and the last 32 columns that of the second (the two packing lemmas, which
  match the filtered sums index by index).  With that, each half of the kernel's packed convolution is the
  reference's separate convolution of the same features with the same weights, layer after layer; the heads apply
  the same operations to equal features; and the region's row, the sum over k of pooled[k] * Wop[n, k] plus the
  bias, is the reference's product of the pooled row with the transposed matrix plus the bias.  No step uses that
  an input is finite: only sums are reindexed and equal terms replaced.
-/
import proofs.«128091_j10213432230367_2_alg».proof.Proof.Net
import proofs.«128091_j10213432230367_2_alg».proof.Proof.PackCols
import proofs.«128091_j10213432230367_2_alg».proof.Proof.RowDotRef

noncomputable section

namespace Cert.Spec

open Idealize.ShloMosaic Cert.ReferenceIdeal

variable [Cert.ReferenceIdeal.Facts₀] [Cert.KernelIdeal.Facts₀]

open Cert.ReferenceIdeal.Facts₀

/-- The first 32 columns of the packed aggregation are the aggregation of the first block. -/
theorem lo_agg64 (s d : Iv Ideal S270336) (nrm : Fv Ideal S270336x1) (A B : Fv Ideal S8192x32) :
    lo (agg64 s d nrm (pack A B)) = agg32 s d nrm A :=
  Cert.PackCols.pack_lo A B (wrapCol s) (col d) nrm

/-- The last 32 columns of the packed aggregation are the aggregation of the second block. -/
theorem hi_agg64 (s d : Iv Ideal S270336) (nrm : Fv Ideal S270336x1) (A B : Fv Ideal S8192x32) :
    hi (agg64 s d nrm (pack A B)) = agg32 s d nrm B :=
  Cert.PackCols.pack_hi A B (wrapCol s) (col d) nrm

namespace Net

variable (a : Cert.Spec.Net Ideal)

theorem kH1_eq : a.kH1 = conv (src a.e) (dst a.e) (xw128 a.xp a.W1p) a.b1p := by
  unfold kH1 kL1 conv
  rw [lo_agg64]

theorem kV1_eq : a.kV1 = conv (src a.e) (dst a.e) (xw128 a.xs a.W1v) a.b1v := by
  unfold kV1 kL1 conv
  rw [hi_agg64]

theorem kH2_eq : a.kH2 = conv (src a.e) (dst a.e) (xw32 (conv (src a.e) (dst a.e) (xw128 a.xp a.W1p) a.b1p) a.W2p) a.b2p := by
  unfold kH2 kL2 conv
  rw [lo_agg64, kH1_eq]
  rfl

theorem kV2_eq : a.kV2 = conv (src a.e) (dst a.e) (xw32 (conv (src a.e) (dst a.e) (xw128 a.xs a.W1v) a.b1v) a.W2v) a.b2v := by
  unfold kV2 kL2 conv
  rw [hi_agg64, kV1_eq]
  rfl

/-- The policy features agree. -/
theorem kH3_eq : a.kH3 = a.rH3 := by
  unfold kH3 rH3 policyFeat
  rw [kH2_eq]

/-- The value features agree. -/
theorem kV3_eq : a.kV3 = a.rV3 := by
  unfold kV3 rV3 policyFeat
  rw [kV2_eq]

/-- The value agrees. -/
theorem kOut1_eq : a.kOut1 = a.rOut1 := by
  unfold kOut1 rOut1
  rw [kV3_eq]

/-- The kernel's masked logits: the region's row over the pooled policy features, recast as a vector and masked. -/
def kOut0 : Fv Ideal S8192 :=
  masked a.msk (shapeCast S8192
    (Cert.KernelIdeal.RegionValue.rowDot (pooled a.kH3) a.Wop (shapeCast Cert.KernelIdeal.S1x8192 a.bop Cert.KernelIdeal.Facts₀.shapeCasts_S8192_S1x8192))
    shapeCasts_S1x8192_S8192)

/-- The masked logits agree. -/
theorem kOut0_eq : a.kOut0 = a.rOut0 := by
  unfold kOut0 rOut0 out0
  rw [Cert.KernelIdeal.RegionValue.rowDot_eq_ref, kH3_eq]
  rfl

end Net

end Cert.Spec

end
-- ==== Proof.KernelRun.lean ====
/- The lines that follow the output-projection region, and the run of the region's program. After the region the
   program flattens the result row, keeps its entries where the mask holds and puts the sentinel elsewhere (the first
   result), and computes the value head from the last layer's activation of features it carries past the region (the
   second result). Here: what those lines find (`exitVal`, read at each buffer they use), the two results as the
   stage functions of the specification (`tail_v97`, `tail_v110`), and the run with both results and every argument
   unchanged (`kernel_run`). -/
import proofs.«128091_j10213432230367_2_alg».proof.Proof.RegionValue
import proofs.«128091_j10213432230367_2_alg».proof.Proof.Spec
import proofs.«128091_j10213432230367_2_alg».proof.Proof.Gen.KernelIdeal.Frame
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen Idealize.ShloMosaic.StableHlo

variable [Cert.ReferenceIdeal.Facts₀]
variable (m : (ℓ : Loc nD τ sig) → Buf (Elt Ideal) ℓ) (ρ : Dev nD → PrngReg)

/-- What the lines after the region find: the region's arrays at their contents after the last point, every other
    buffer as the region found it. -/
abbrev exitVal (c : Dev nD) : Valuation τ sig (Elt Ideal) :=
  Pipeline.withArrays (cfgs 0).spec c (V0 m c) (fun w => (dats m 0 c).arrAt w (cfgs 0).N)

/-- The mask is no array of the region and no line before the region writes it. -/
theorem exit_arg3 (c : Dev nD) : exitVal m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans
    (V_main_arg3 m c)

/-- The result row is the region's output array. -/
theorem exit_v95 (c : Dev nD) : exitVal m c (Proc.devRef .tc main_v95) = (dats m 0 c).arrAt 3 cfg0.N :=
  Pipeline.withArrays_arr spec0 launch0.win.arr_inj c _ _ 3

/-- THE FIRST RESULT after the lines that follow the region: the result row flattened, kept where the mask holds and
    replaced by the sentinel elsewhere. -/
theorem tail_v97 (c : Dev nD) :
    Pipeline.afterTail₀ cfgs (dats m) 0 (V0 m) [hostOps1, hostOps1_1, hostOps1_2] c main_v97
      = Cert.Spec.masked (m ((c.tc : Thread nD τ).loc main_arg3))
          (shapeCast S8192 ((dats m 0 c).arrAt 3 cfg0.N) Facts₀.shapeCasts_S1x8192_S8192) := by
  unfold Pipeline.afterTail₀
  simp only [hostOps1, hostOps1_1, hostOps1_2, List.flatten_cons, List.flatten_nil, List.append_nil, List.cons_append, List.nil_append]
  after_results
  show select (exitVal m c (Proc.devRef .tc main_arg3))
      (shapeCast S8192 (exitVal m c (Proc.devRef .tc main_v95)) Facts₀.shapeCasts_S1x8192_S8192)
      (broadcastInDim S8192 ![] Facts₀.bcast_S_S8192 (constant (F := Ideal) S_ .f32 0xF49DC5AE#32)) = _
  rw [exit_arg3, exit_v95]
  rfl

/-- The policy features are no array of the region. -/
theorem exit_v84 (c : Dev nD) : exitVal m c (Proc.devRef .tc main_v84) = V m c main_v84 :=
  Pipeline.withArrays_of_ne _ c (V0 m c) _ main_v84 (by exact (by decide : ∀ w, Pipeline.arrRef spec0 w ≠ main_v84))

/-- The value head's weights and biases are no arrays of the region and no line before the region writes them. -/
theorem exit_arg16 (c : Dev nD) : exitVal m c (Proc.devRef .tc main_arg16) = m ((c.tc : Thread nD τ).loc main_arg16) :=
  (Pipeline.withArrays_of_ne _ c (V0 m c) _ main_arg16 (by exact (by decide : ∀ w, Pipeline.arrRef spec0 w ≠ main_arg16))).trans
    (V_main_arg16 m c)
theorem exit_arg17 (c : Dev nD) : exitVal m c (Proc.devRef .tc main_arg17) = m ((c.tc : Thread nD τ).loc main_arg17) :=
  (Pipeline.withArrays_of_ne _ c (V0 m c) _ main_arg17 (by exact (by decide : ∀ w, Pipeline.arrRef spec0 w ≠ main_arg17))).trans
    (V_main_arg17 m c)
theorem exit_arg18 (c : Dev nD) : exitVal m c (Proc.devRef .tc main_arg18) = m ((c.tc : Thread nD τ).loc main_arg18) :=
  (Pipeline.withArrays_of_ne _ c (V0 m c) _ main_arg18 (by exact (by decide : ∀ w, Pipeline.arrRef spec0 w ≠ main_arg18))).trans
    (V_main_arg18 m c)
theorem exit_arg19 (c : Dev nD) : exitVal m c (Proc.devRef .tc main_arg19) = m ((c.tc : Thread nD τ).loc main_arg19) :=
  (Pipeline.withArrays_of_ne _ c (V0 m c) _ main_arg19 (by exact (by decide : ∀ w, Pipeline.arrRef spec0 w ≠ main_arg19))).trans
    (V_main_arg19 m c)

/-- THE SECOND RESULT after the lines that follow the region: the value head of the last layer's activation of the
    features the region's program carries past it. -/
theorem tail_v110 (c : Dev nD) :
    Pipeline.afterTail₀ cfgs (dats m) 0 (V0 m) [hostOps1, hostOps1_1, hostOps1_2] c main_v110
      = Cert.Spec.valueHead
          (Cert.Spec.act (Cert.Spec.xw32 (V m c main_v84) (m ((c.tc : Thread nD τ).loc main_arg16)))
            (m ((c.tc : Thread nD τ).loc main_arg17)))
          (m ((c.tc : Thread nD τ).loc main_arg18)) (m ((c.tc : Thread nD τ).loc main_arg19)) := by
  unfold Pipeline.afterTail₀
  simp only [hostOps1, hostOps1_1, hostOps1_2, List.flatten_cons, List.flatten_nil, List.append_nil, List.cons_append, List.nil_append]
  after_results
  simp only [exit_v84, exit_arg16, exit_arg17, exit_arg18, exit_arg19]
  rfl

set_option maxHeartbeats 1200000 in
/-- THE RUN of the region's program at the ideal values: every fair execution from any memory with zero counters ends,
    the first result at the masked flattened result row, the second at the value head, every argument as it was. -/
theorem kernel_run : θ_run defs (onTc (τ := τ) (main (F := Ideal))) ⟨m, fun _ => 0, ρ⟩ (fun r => ∀ c : Dev nD,
      r.2.mem ((c.tc : Thread nD τ).loc main_v97) = Cert.Spec.masked (m ((c.tc : Thread nD τ).loc main_arg3))
          (shapeCast S8192 ((dats m 0 c).arrAt 3 cfg0.N) Facts₀.shapeCasts_S1x8192_S8192)
      ∧ r.2.mem ((c.tc : Thread nD τ).loc main_v110) = Cert.Spec.valueHead
          (Cert.Spec.act (Cert.Spec.xw32 (V m c main_v84) (m ((c.tc : Thread nD τ).loc main_arg16))) (m ((c.tc : Thread nD τ).loc main_arg17)))
          (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_v97 (Pipeline.mem_restRefs_of main_v97 (by decide) (by decide))).trans (tail_v97 m c),
      ((h c).2 main_v110 (Pipeline.mem_restRefs_of main_v110 (by decide) (by decide))).trans (tail_v110 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 1).trans (((dats m 0 c).arrAt_in 1 rfl _).trans ((A_eq m c 1).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c)⟩)
    (run_main m ρ)

end Cert.KernelIdeal.KRun

end
-- ==== Proof.KernelValue.lean ====
/-
  The kernel's two results as the reference's arrangement of the network.

  The kernel's program ends with its first result at the mask applied to the region's output row recast as a vector,
  and its second at the value head over the value features its host operations computed before the region.  The
  region's output row is, entry by entry, the pooled policy features times the transposed matrix plus the bias; the
  operands the region found are the kernel's arrangement of the network over the argument arrays; and that
  arrangement equals the reference's on the extended reals.
-/
import proofs.«128091_j10213432230367_2_alg».proof.Proof.KPrefix
import proofs.«128091_j10213432230367_2_alg».proof.Proof.Bridge
import proofs.«128091_j10213432230367_2_alg».proof.Proof.KernelRun

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The masked logits the kernel's program ends with are the reference's. -/
theorem kernel_v97 (c : Dev nD) :
    Cert.Spec.masked (m ((c.tc : Thread nD τ).loc main_arg3))
        (shapeCast S8192 ((dats m 0 c).arrAt 3 cfg0.N) Facts₀.shapeCasts_S1x8192_S8192)
      = (argsK m c).rOut0 := by
  rw [Cert.KernelIdeal.RegionValue.final m c, V_v93, V_main_arg10, V_v94]
  exact Cert.Spec.Net.kOut0_eq (argsK m c)

/-- The value the kernel's program ends with is the reference's. -/
theorem kernel_v110 (c : Dev nD) :
    Cert.Spec.valueHead
        (Cert.Spec.act (Cert.Spec.xw32 (V m c main_v84) (m ((c.tc : Thread nD τ).loc main_arg16))) (m ((c.tc : Thread nD τ).loc main_arg17)))
        (m ((c.tc : Thread nD τ).loc main_arg18)) (m ((c.tc : Thread nD τ).loc main_arg19))
      = (argsK m c).rOut1 := by
  rw [V_v84]
  exact Cert.Spec.Net.kOut1_eq (argsK m c)

end Cert.KernelIdeal.Host

end
-- ==== Proof.RefSeq.lean ====
/-
  The reference program's @main as one straight line of host operations.

  @main is five consecutive blocks of statements; each block is the line of its own operations (a called
  function's operations standing in the call's place), so @main is the line of all 268, and every fair
  execution ends with each buffer at the fold of the operations' results over the launch contents.
-/
import proofs.«128091_j10213432230367_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 268 operations, in order (a called function's operations stand in its call's place, spelt `TRef.…`). -/
abbrev ops : List (HloOp τ sig (Elt F)) :=
  [ unary main_arg2 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg2 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    unary main_arg4 main_v4 ((transpose S128x32 [1, 0] · transposes_S32x128_S128x32_1_0) : (⟨S32x128, .f32⟩ : BufTy).Contents (Elt F) → (⟨S128x32, .f32⟩ : BufTy).Contents (Elt F)),
    binary main_arg0 main_v4 main_v5 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    nullary main_v6 (iotaInDim S8192 32 0),
    binary main_v1 main_v6 main_v7 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v6 main_v8 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v9 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v10 (broadcastInDim S8192 ![] bcast_S_S8192 : (⟨S_, .f32⟩ : BufTy).Contents (Elt F) → (⟨S8192, .f32⟩ : BufTy).Contents (Elt F)),
    unary main_v8 main_v11 (broadcastInDim S270336x1 ![0] bcast_S270336_S270336x1_0 : (⟨S270336, .i32⟩ : BufTy).Contents (Elt F) → (⟨S270336x1, .i32⟩ : BufTy).Contents (Elt F)),
    ternary main_v10 main_v11 main_v9 main_v12 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v13 (broadcastInDim S8192 ![] bcast_S_S8192 : (⟨S_, .f32⟩ : BufTy).Contents (Elt F) → (⟨S8192, .f32⟩ : BufTy).Contents (Elt F)),
    binary main_v12 main_v13 main_v14 (cmpf .ogt : (⟨S8192, .f32⟩ : BufTy).Contents (Elt F) → (⟨S8192, .f32⟩ : BufTy).Contents (Elt F) → (⟨S8192, .i1⟩ : BufTy).Contents (Elt F)),
    unary main_v12 main_v15 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v14) (TRef.of (T := ⟨S8192, .f32⟩) main_v15) (TRef.of (T := ⟨S8192, .f32⟩) main_call0_v1) (TRef.of (T := ⟨S8192, .f32⟩) main_v16) select,
    nullary main_c (constantI S_ 32 0#32),
    unary main_c main_v17 (broadcastInDim S270336 ![] bcast_S_S270336 : (⟨S_, .i32⟩ : BufTy).Contents (Elt F) → (⟨S270336, .i32⟩ : BufTy).Contents (Elt F)),
    binary main_v7 main_v17 main_v18 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v19 (broadcastInDim S270336 ![] bcast_S_S270336 : (⟨S_, .i32⟩ : BufTy).Contents (Elt F) → (⟨S270336, .i32⟩ : BufTy).Contents (Elt F)),
    binary main_v7 main_v19 main_v20 (addi : (⟨S270336, .i32⟩ : BufTy).Contents (Elt F) → (⟨S270336, .i32⟩ : BufTy).Contents (Elt F) → (⟨S270336, .i32⟩ : BufTy).Contents (Elt F)),
    ternary main_v18 main_v20 main_v7 main_v21 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v21 main_v22 (broadcastInDim S270336x1 ![0] bcast_S270336_S270336x1_0 : (⟨S270336, .i32⟩ : BufTy).Contents (Elt F) → (⟨S270336x1, .i32⟩ : BufTy).Contents (Elt F)),
    binary main_v16 main_v22 main_v23 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v24 (broadcastInDim S270336 ![] bcast_S_S270336 : (⟨S_, .i32⟩ : BufTy).Contents (Elt F) → (⟨S270336, .i32⟩ : BufTy).Contents (Elt F)),
    binary main_v8 main_v24 main_v25 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v26 (broadcastInDim S270336 ![] bcast_S_S270336 : (⟨S_, .i32⟩ : BufTy).Contents (Elt F) → (⟨S270336, .i32⟩ : BufTy).Contents (Elt F)),
    binary main_v8 main_v26 main_v27 (addi : (⟨S270336, .i32⟩ : BufTy).Contents (Elt F) → (⟨S270336, .i32⟩ : BufTy).Contents (Elt F) → (⟨S270336, .i32⟩ : BufTy).Contents (Elt F)),
    ternary main_v25 main_v27 main_v8 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v28 main_v29 (broadcastInDim S270336x1 ![0] bcast_S270336_S270336x1_0 : (⟨S270336, .i32⟩ : BufTy).Contents (Elt F) → (⟨S270336x1, .i32⟩ : BufTy).Contents (Elt F)),
    binary main_v16 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v23 main_v30 main_v31 (mulf : (⟨S270336, .f32⟩ : BufTy).Contents (Elt F) → (⟨S270336, .f32⟩ : BufTy).Contents (Elt F) → (⟨S270336, .f32⟩ : BufTy).Contents (Elt F)),
    unary main_v31 main_v32 (broadcastInDim S270336x1 ![0] bcast_S270336_S270336x1_0 : (⟨S270336, .f32⟩ : BufTy).Contents (Elt F) → (⟨S270336x1, .f32⟩ : BufTy).Contents (Elt F)),
    nullary main_c_6 (constantI S_ 32 0#32),
    unary main_c_6 main_v33 (broadcastInDim S270336 ![] bcast_S_S270336 : (⟨S_, .i32⟩ : BufTy).Contents (Elt F) → (⟨S270336, .i32⟩ : BufTy).Contents (Elt F)),
    binary main_v7 main_v33 main_v34 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v35 (broadcastInDim S270336 ![] bcast_S_S270336 : (⟨S_, .i32⟩ : BufTy).Contents (Elt F) → (⟨S270336, .i32⟩ : BufTy).Contents (Elt F)),
    binary main_v7 main_v35 main_v36 (addi : (⟨S270336, .i32⟩ : BufTy).Contents (Elt F) → (⟨S270336, .i32⟩ : BufTy).Contents (Elt F) → (⟨S270336, .i32⟩ : BufTy).Contents (Elt F)),
    ternary main_v34 main_v36 main_v7 main_v37 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v37 main_v38 (broadcastInDim S270336x1 ![0] bcast_S270336_S270336x1_0 : (⟨S270336, .i32⟩ : BufTy).Contents (Elt F) → (⟨S270336x1, .i32⟩ : BufTy).Contents (Elt F)),
    binary main_v5 main_v38 main_v39 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v32 main_v40 (broadcastInDim S270336x32 ![0, 1] bcast_S270336x1_S270336x32_0_1 : (⟨S270336x1, .f32⟩ : BufTy).Contents (Elt F) → (⟨S270336x32, .f32⟩ : BufTy).Contents (Elt F)),
    binary main_v39 main_v40 main_v41 (mulf : (⟨S270336x32, .f32⟩ : BufTy).Contents (Elt F) → (⟨S270336x32, .f32⟩ : BufTy).Contents (Elt F) → (⟨S270336x32, .f32⟩ : BufTy).Contents (Elt F)),
    nullary main_cst_8 (constant S_ .f32 0x00000000#32),
    unary main_cst_8 main_v42 (broadcastInDim S8192x32 ![] bcast_S_S8192x32 : (⟨S_, .f32⟩ : BufTy).Contents (Elt F) → (⟨S8192x32, .f32⟩ : BufTy).Contents (Elt F)),
    unary main_v8 main_v43 (broadcastInDim S270336x1 ![0] bcast_S270336_S270336x1_0 : (⟨S270336, .i32⟩ : BufTy).Contents (Elt F) → (⟨S270336x1, .i32⟩ : BufTy).Contents (Elt F)),
    ternary main_v42 main_v43 main_v41 main_v44 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg5 main_v45 (broadcastInDim S1x32 ![1] bcast_S32_S1x32_1 : (⟨S32, .f32⟩ : BufTy).Contents (Elt F) → (⟨S1x32, .f32⟩ : BufTy).Contents (Elt F)),
    unary main_v45 main_v46 (broadcastInDim S8192x32 ![0, 1] bcast_S1x32_S8192x32_0_1 : (⟨S1x32, .f32⟩ : BufTy).Contents (Elt F) → (⟨S8192x32, .f32⟩ : BufTy).Contents (Elt F)),
    binary main_v44 main_v46 main_v47 (addf : (⟨S8192x32, .f32⟩ : BufTy).Contents (Elt F) → (⟨S8192x32, .f32⟩ : BufTy).Contents (Elt F) → (⟨S8192x32, .f32⟩ : BufTy).Contents (Elt F)),
    unary main_v47 main_v48 (Host.tanh : (⟨S8192x32, .f32⟩ : BufTy).Contents (Elt F) → (⟨S8192x32, .f32⟩ : BufTy).Contents (Elt F)),
    unary main_arg6 main_v49 ((transpose S32x32 [1, 0] · transposes_S32x32_S32x32_1_0) : (⟨S32x32, .f32⟩ : BufTy).Contents (Elt F) → (⟨S32x32, .f32⟩ : BufTy).Contents (Elt F)),
    binary main_v48 main_v49 main_v50 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_v51 (iotaInDim S8192 32 0),
    binary main_v1 main_v51 main_v52 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v51 main_v53 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_9 (constant S_ .f32 0x3F800000#32),
    unary main_cst_9 main_v54 (broadcastInDim S270336 ![] bcast_S_S270336 : (⟨S_, .f32⟩ : BufTy).Contents (Elt F) → (⟨S270336, .f32⟩ : BufTy).Contents (Elt F)),
    nullary main_cst_10 (constant S_ .f32 0x00000000#32),
    unary main_cst_10 main_v55 (broadcastInDim S8192 ![] bcast_S_S8192 : (⟨S_, .f32⟩ : BufTy).Contents (Elt F) → (⟨S8192, .f32⟩ : BufTy).Contents (Elt F)),
    unary main_v53 main_v56 (broadcastInDim S270336x1 ![0] bcast_S270336_S270336x1_0 : (⟨S270336, .i32⟩ : BufTy).Contents (Elt F) → (⟨S270336x1, .i32⟩ : BufTy).Contents (Elt F)),
    ternary main_v55 main_v56 main_v54 main_v57 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_11 (constant S_ .f32 0x00000000#32),
    unary main_cst_11 main_v58 (broadcastInDim S8192 ![] bcast_S_S8192 : (⟨S_, .f32⟩ : BufTy).Contents (Elt F) → (⟨S8192, .f32⟩ : BufTy).Contents (Elt F)),
    binary main_v57 main_v58 main_v59 (cmpf .ogt : (⟨S8192, .f32⟩ : BufTy).Contents (Elt F) → (⟨S8192, .f32⟩ : BufTy).Contents (Elt F) → (⟨S8192, .i1⟩ : BufTy).Contents (Elt F)),
    unary main_v57 main_v60 (Host.rsqrt : (⟨S8192, .f32⟩ : BufTy).Contents (Elt F) → (⟨S8192, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S8192, .f32⟩) main_call1_v1) (broadcastInDim S8192 ![] bcast_S_S8192),
    TRef.ternary (TRef.of (T := ⟨S8192, .i1⟩) main_v59) (TRef.of (T := ⟨S8192, .f32⟩) main_v60) (TRef.of (T := ⟨S8192, .f32⟩) main_call1_v1) (TRef.of (T := ⟨S8192, .f32⟩) main_v61) select,
    nullary main_c_13 (constantI S_ 32 0#32),
    unary main_c_13 main_v62 (broadcastInDim S270336 ![] bcast_S_S270336 : (⟨S_, .i32⟩ : BufTy).Contents (Elt F) → (⟨S270336, .i32⟩ : BufTy).Contents (Elt F)),
    binary main_v52 main_v62 main_v63 (cmpi .slt : (⟨S270336, .i32⟩ : BufTy).Contents (Elt F) → (⟨S270336, .i32⟩ : BufTy).Contents (Elt F) → (⟨S270336, .i1⟩ : BufTy).Contents (Elt F)),
    nullary main_c_14 (constantI S_ 32 8192#32),
    unary main_c_14 main_v64 (broadcastInDim S270336 ![] bcast_S_S270336 : (⟨S_, .i32⟩ : BufTy).Contents (Elt F) → (⟨S270336, .i32⟩ : BufTy).Contents (Elt F)),
    binary main_v52 main_v64 main_v65 (addi : (⟨S270336, .i32⟩ : BufTy).Contents (Elt F) → (⟨S270336, .i32⟩ : BufTy).Contents (Elt F) → (⟨S270336, .i32⟩ : BufTy).Contents (Elt F)),
    ternary main_v63 main_v65 main_v52 main_v66 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v66 main_v67 (broadcastInDim S270336x1 ![0] bcast_S270336_S270336x1_0 : (⟨S270336, .i32⟩ : BufTy).Contents (Elt F) → (⟨S270336x1, .i32⟩ : BufTy).Contents (Elt F)),
    binary main_v61 main_v67 main_v68 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_15 (constantI S_ 32 0#32),
    unary main_c_15 main_v69 (broadcastInDim S270336 ![] bcast_S_S270336 : (⟨S_, .i32⟩ : BufTy).Contents (Elt F) → (⟨S270336, .i32⟩ : BufTy).Contents (Elt F)),
    binary main_v53 main_v69 main_v70 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v71 (broadcastInDim S270336 ![] bcast_S_S270336 : (⟨S_, .i32⟩ : BufTy).Contents (Elt F) → (⟨S270336, .i32⟩ : BufTy).Contents (Elt F)),
    binary main_v53 main_v71 main_v72 (addi : (⟨S270336, .i32⟩ : BufTy).Contents (Elt F) → (⟨S270336, .i32⟩ : BufTy).Contents (Elt F) → (⟨S270336, .i32⟩ : BufTy).Contents (Elt F)),
    ternary main_v70 main_v72 main_v53 main_v73 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v73 main_v74 (broadcastInDim S270336x1 ![0] bcast_S270336_S270336x1_0 : (⟨S270336, .i32⟩ : BufTy).Contents (Elt F) → (⟨S270336x1, .i32⟩ : BufTy).Contents (Elt F)),
    binary main_v61 main_v74 main_v75 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v68 main_v75 main_v76 (mulf : (⟨S270336, .f32⟩ : BufTy).Contents (Elt F) → (⟨S270336, .f32⟩ : BufTy).Contents (Elt F) → (⟨S270336, .f32⟩ : BufTy).Contents (Elt F)),
    unary main_v76 main_v77 (broadcastInDim S270336x1 ![0] bcast_S270336_S270336x1_0 : (⟨S270336, .f32⟩ : BufTy).Contents (Elt F) → (⟨S270336x1, .f32⟩ : BufTy).Contents (Elt F)),
    nullary main_c_17 (constantI S_ 32 0#32),
    unary main_c_17 main_v78 (broadcastInDim S270336 ![] bcast_S_S270336 : (⟨S_, .i32⟩ : BufTy).Contents (Elt F) → (⟨S270336, .i32⟩ : BufTy).Contents (Elt F)),
    binary main_v52 main_v78 main_v79 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v80 (broadcastInDim S270336 ![] bcast_S_S270336 : (⟨S_, .i32⟩ : BufTy).Contents (Elt F) → (⟨S270336, .i32⟩ : BufTy).Contents (Elt F)),
    binary main_v52 main_v80 main_v81 (addi : (⟨S270336, .i32⟩ : BufTy).Contents (Elt F) → (⟨S270336, .i32⟩ : BufTy).Contents (Elt F) → (⟨S270336, .i32⟩ : BufTy).Contents (Elt F)),
    ternary main_v79 main_v81 main_v52 main_v82 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v82 main_v83 (broadcastInDim S270336x1 ![0] bcast_S270336_S270336x1_0 : (⟨S270336, .i32⟩ : BufTy).Contents (Elt F) → (⟨S270336x1, .i32⟩ : BufTy).Contents (Elt F)),
    binary main_v50 main_v83 main_v84 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v77 main_v85 (broadcastInDim S270336x32 ![0, 1] bcast_S270336x1_S270336x32_0_1 : (⟨S270336x1, .f32⟩ : BufTy).Contents (Elt F) → (⟨S270336x32, .f32⟩ : BufTy).Contents (Elt F)),
    binary main_v84 main_v85 main_v86 (mulf : (⟨S270336x32, .f32⟩ : BufTy).Contents (Elt F) → (⟨S270336x32, .f32⟩ : BufTy).Contents (Elt F) → (⟨S270336x32, .f32⟩ : BufTy).Contents (Elt F)),
    nullary main_cst_19 (constant S_ .f32 0x00000000#32),
    unary main_cst_19 main_v87 (broadcastInDim S8192x32 ![] bcast_S_S8192x32 : (⟨S_, .f32⟩ : BufTy).Contents (Elt F) → (⟨S8192x32, .f32⟩ : BufTy).Contents (Elt F)),
    unary main_v53 main_v88 (broadcastInDim S270336x1 ![0] bcast_S270336_S270336x1_0 : (⟨S270336, .i32⟩ : BufTy).Contents (Elt F) → (⟨S270336x1, .i32⟩ : BufTy).Contents (Elt F)),
    ternary main_v87 main_v88 main_v86 main_v89 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg7 main_v90 (broadcastInDim S1x32 ![1] bcast_S32_S1x32_1 : (⟨S32, .f32⟩ : BufTy).Contents (Elt F) → (⟨S1x32, .f32⟩ : BufTy).Contents (Elt F)),
    unary main_v90 main_v91 (broadcastInDim S8192x32 ![0, 1] bcast_S1x32_S8192x32_0_1 : (⟨S1x32, .f32⟩ : BufTy).Contents (Elt F) → (⟨S8192x32, .f32⟩ : BufTy).Contents (Elt F)),
    binary main_v89 main_v91 main_v92 (addf : (⟨S8192x32, .f32⟩ : BufTy).Contents (Elt F) → (⟨S8192x32, .f32⟩ : BufTy).Contents (Elt F) → (⟨S8192x32, .f32⟩ : BufTy).Contents (Elt F)),
    unary main_v92 main_v93 (Host.tanh : (⟨S8192x32, .f32⟩ : BufTy).Contents (Elt F) → (⟨S8192x32, .f32⟩ : BufTy).Contents (Elt F)),
    unary main_arg8 main_v94 ((transpose S32x32 [1, 0] · transposes_S32x32_S32x32_1_0) : (⟨S32x32, .f32⟩ : BufTy).Contents (Elt F) → (⟨S32x32, .f32⟩ : BufTy).Contents (Elt F)),
    binary main_v93 main_v94 main_v95 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg9 main_v96 (broadcastInDim S1x32 ![1] bcast_S32_S1x32_1 : (⟨S32, .f32⟩ : BufTy).Contents (Elt F) → (⟨S1x32, .f32⟩ : BufTy).Contents (Elt F)),
    unary main_v96 main_v97 (broadcastInDim S8192x32 ![0, 1] bcast_S1x32_S8192x32_0_1 : (⟨S1x32, .f32⟩ : BufTy).Contents (Elt F) → (⟨S8192x32, .f32⟩ : BufTy).Contents (Elt F)),
    binary main_v95 main_v97 main_v98 (addf : (⟨S8192x32, .f32⟩ : BufTy).Contents (Elt F) → (⟨S8192x32, .f32⟩ : BufTy).Contents (Elt F) → (⟨S8192x32, .f32⟩ : BufTy).Contents (Elt F)),
    unary main_v98 main_v99 (Host.tanh : (⟨S8192x32, .f32⟩ : BufTy).Contents (Elt F) → (⟨S8192x32, .f32⟩ : BufTy).Contents (Elt F)),
    unary main_v99 main_v100 ((transpose S32x8192 [1, 0] · transposes_S8192x32_S32x8192_1_0) : (⟨S8192x32, .f32⟩ : BufTy).Contents (Elt F) → (⟨S32x8192, .f32⟩ : BufTy).Contents (Elt F)),
    nullary main_cst_20 (constant S_ .f32 0x00000000#32),
    binary main_v100 main_cst_20 main_v101 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    unary main_v101 main_v102 (broadcastInDim S1x8192 ![1] bcast_S8192_S1x8192_1 : (⟨S8192, .f32⟩ : BufTy).Contents (Elt F) → (⟨S1x8192, .f32⟩ : BufTy).Contents (Elt F)),
    unary main_arg10 main_v103 ((transpose S8192x8192 [1, 0] · transposes_S8192x8192_S8192x8192_1_0) : (⟨S8192x8192, .f32⟩ : BufTy).Contents (Elt F) → (⟨S8192x8192, .f32⟩ : BufTy).Contents (Elt F)),
    binary main_v102 main_v103 main_v104 ((fun l r => Host.dotGeneral dot_S1x8192_S8192x8192_S1x8192_1_0_0_1_n_n none l r) : (⟨S1x8192, .f32⟩ : BufTy).Contents (Elt F) → (⟨S8192x8192, .f32⟩ : BufTy).Contents (Elt F) → (⟨S1x8192, .f32⟩ : BufTy).Contents (Elt F)),
    unary main_arg11 main_v105 (broadcastInDim S1x8192 ![1] bcast_S8192_S1x8192_1 : (⟨S8192, .f32⟩ : BufTy).Contents (Elt F) → (⟨S1x8192, .f32⟩ : BufTy).Contents (Elt F)),
    binary main_v104 main_v105 main_v106 (addf : (⟨S1x8192, .f32⟩ : BufTy).Contents (Elt F) → (⟨S1x8192, .f32⟩ : BufTy).Contents (Elt F) → (⟨S1x8192, .f32⟩ : BufTy).Contents (Elt F)),
    reshape main_v106 main_v107 rfl shapeCasts_S1x8192_S8192,
    nullary main_cst_21 (constant S_ .f32 0xF49DC5AE#32),
    TRef.unary (TRef.of (T := ⟨S_, .f32⟩) main_cst_21) (TRef.of (T := ⟨S8192, .f32⟩) main_call2_v0) (broadcastInDim S8192 ![] bcast_S_S8192),
    TRef.ternary (TRef.of (T := ⟨S8192, .i1⟩) main_arg3) (TRef.of (T := ⟨S8192, .f32⟩) main_v107) (TRef.of (T := ⟨S8192, .f32⟩) main_call2_v0) (TRef.of (T := ⟨S8192, .f32⟩) main_v108) select,
    unary main_arg12 main_v109 ((transpose S128x32 [1, 0] · transposes_S32x128_S128x32_1_0) : (⟨S32x128, .f32⟩ : BufTy).Contents (Elt F) → (⟨S128x32, .f32⟩ : BufTy).Contents (Elt F)),
    binary main_arg1 main_v109 main_v110 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    nullary main_v111 (iotaInDim S8192 32 0),
    binary main_v1 main_v111 main_v112 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v111 main_v113 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_22 (constant S_ .f32 0x3F800000#32),
    unary main_cst_22 main_v114 (broadcastInDim S270336 ![] bcast_S_S270336 : (⟨S_, .f32⟩ : BufTy).Contents (Elt F) → (⟨S270336, .f32⟩ : BufTy).Contents (Elt F)),
    nullary main_cst_23 (constant S_ .f32 0x00000000#32),
    unary main_cst_23 main_v115 (broadcastInDim S8192 ![] bcast_S_S8192 : (⟨S_, .f32⟩ : BufTy).Contents (Elt F) → (⟨S8192, .f32⟩ : BufTy).Contents (Elt F)),
    unary main_v113 main_v116 (broadcastInDim S270336x1 ![0] bcast_S270336_S270336x1_0 : (⟨S270336, .i32⟩ : BufTy).Contents (Elt F) → (⟨S270336x1, .i32⟩ : BufTy).Contents (Elt F)),
    ternary main_v115 main_v116 main_v114 main_v117 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_24 (constant S_ .f32 0x00000000#32),
    unary main_cst_24 main_v118 (broadcastInDim S8192 ![] bcast_S_S8192 : (⟨S_, .f32⟩ : BufTy).Contents (Elt F) → (⟨S8192, .f32⟩ : BufTy).Contents (Elt F)),
    binary main_v117 main_v118 main_v119 (cmpf .ogt : (⟨S8192, .f32⟩ : BufTy).Contents (Elt F) → (⟨S8192, .f32⟩ : BufTy).Contents (Elt F) → (⟨S8192, .i1⟩ : BufTy).Contents (Elt F)),
    unary main_v117 main_v120 (Host.rsqrt : (⟨S8192, .f32⟩ : BufTy).Contents (Elt F) → (⟨S8192, .f32⟩ : BufTy).Contents (Elt F)),
    nullary main_cst_25 (constant S_ .f32 0x00000000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v119) (TRef.of (T := ⟨S8192, .f32⟩) main_v120) (TRef.of (T := ⟨S8192, .f32⟩) main_call3_v1) (TRef.of (T := ⟨S8192, .f32⟩) main_v121) select,
    nullary main_c_26 (constantI S_ 32 0#32),
    unary main_c_26 main_v122 (broadcastInDim S270336 ![] bcast_S_S270336 : (⟨S_, .i32⟩ : BufTy).Contents (Elt F) → (⟨S270336, .i32⟩ : BufTy).Contents (Elt F)),
    binary main_v112 main_v122 main_v123 (cmpi .slt : (⟨S270336, .i32⟩ : BufTy).Contents (Elt F) → (⟨S270336, .i32⟩ : BufTy).Contents (Elt F) → (⟨S270336, .i1⟩ : BufTy).Contents (Elt F)),
    nullary main_c_27 (constantI S_ 32 8192#32),
    unary main_c_27 main_v124 (broadcastInDim S270336 ![] bcast_S_S270336 : (⟨S_, .i32⟩ : BufTy).Contents (Elt F) → (⟨S270336, .i32⟩ : BufTy).Contents (Elt F)),
    binary main_v112 main_v124 main_v125 (addi : (⟨S270336, .i32⟩ : BufTy).Contents (Elt F) → (⟨S270336, .i32⟩ : BufTy).Contents (Elt F) → (⟨S270336, .i32⟩ : BufTy).Contents (Elt F)),
    ternary main_v123 main_v125 main_v112 main_v126 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v126 main_v127 (broadcastInDim S270336x1 ![0] bcast_S270336_S270336x1_0 : (⟨S270336, .i32⟩ : BufTy).Contents (Elt F) → (⟨S270336x1, .i32⟩ : BufTy).Contents (Elt F)),
    binary main_v121 main_v127 main_v128 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_28 (constantI S_ 32 0#32),
    unary main_c_28 main_v129 (broadcastInDim S270336 ![] bcast_S_S270336 : (⟨S_, .i32⟩ : BufTy).Contents (Elt F) → (⟨S270336, .i32⟩ : BufTy).Contents (Elt F)),
    binary main_v113 main_v129 main_v130 (cmpi .slt : (⟨S270336, .i32⟩ : BufTy).Contents (Elt F) → (⟨S270336, .i32⟩ : BufTy).Contents (Elt F) → (⟨S270336, .i1⟩ : BufTy).Contents (Elt F)),
    nullary main_c_29 (constantI S_ 32 8192#32),
    unary main_c_29 main_v131 (broadcastInDim S270336 ![] bcast_S_S270336 : (⟨S_, .i32⟩ : BufTy).Contents (Elt F) → (⟨S270336, .i32⟩ : BufTy).Contents (Elt F)),
    binary main_v113 main_v131 main_v132 (addi : (⟨S270336, .i32⟩ : BufTy).Contents (Elt F) → (⟨S270336, .i32⟩ : BufTy).Contents (Elt F) → (⟨S270336, .i32⟩ : BufTy).Contents (Elt F)),
    ternary main_v130 main_v132 main_v113 main_v133 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v133 main_v134 (broadcastInDim S270336x1 ![0] bcast_S270336_S270336x1_0 : (⟨S270336, .i32⟩ : BufTy).Contents (Elt F) → (⟨S270336x1, .i32⟩ : BufTy).Contents (Elt F)),
    binary main_v121 main_v134 main_v135 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v128 main_v135 main_v136 (mulf : (⟨S270336, .f32⟩ : BufTy).Contents (Elt F) → (⟨S270336, .f32⟩ : BufTy).Contents (Elt F) → (⟨S270336, .f32⟩ : BufTy).Contents (Elt F)),
    unary main_v136 main_v137 (broadcastInDim S270336x1 ![0] bcast_S270336_S270336x1_0 : (⟨S270336, .f32⟩ : BufTy).Contents (Elt F) → (⟨S270336x1, .f32⟩ : BufTy).Contents (Elt F)),
    nullary main_c_30 (constantI S_ 32 0#32),
    unary main_c_30 main_v138 (broadcastInDim S270336 ![] bcast_S_S270336 : (⟨S_, .i32⟩ : BufTy).Contents (Elt F) → (⟨S270336, .i32⟩ : BufTy).Contents (Elt F)),
    binary main_v112 main_v138 main_v139 (cmpi .slt : (⟨S270336, .i32⟩ : BufTy).Contents (Elt F) → (⟨S270336, .i32⟩ : BufTy).Contents (Elt F) → (⟨S270336, .i1⟩ : BufTy).Contents (Elt F)),
    nullary main_c_31 (constantI S_ 32 8192#32),
    unary main_c_31 main_v140 (broadcastInDim S270336 ![] bcast_S_S270336 : (⟨S_, .i32⟩ : BufTy).Contents (Elt F) → (⟨S270336, .i32⟩ : BufTy).Contents (Elt F)),
    binary main_v112 main_v140 main_v141 (addi : (⟨S270336, .i32⟩ : BufTy).Contents (Elt F) → (⟨S270336, .i32⟩ : BufTy).Contents (Elt F) → (⟨S270336, .i32⟩ : BufTy).Contents (Elt F)),
    ternary main_v139 main_v141 main_v112 main_v142 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v142 main_v143 (broadcastInDim S270336x1 ![0] bcast_S270336_S270336x1_0 : (⟨S270336, .i32⟩ : BufTy).Contents (Elt F) → (⟨S270336x1, .i32⟩ : BufTy).Contents (Elt F)),
    binary main_v110 main_v143 main_v144 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v137 main_v145 (broadcastInDim S270336x32 ![0, 1] bcast_S270336x1_S270336x32_0_1 : (⟨S270336x1, .f32⟩ : BufTy).Contents (Elt F) → (⟨S270336x32, .f32⟩ : BufTy).Contents (Elt F)),
    binary main_v144 main_v145 main_v146 (mulf : (⟨S270336x32, .f32⟩ : BufTy).Contents (Elt F) → (⟨S270336x32, .f32⟩ : BufTy).Contents (Elt F) → (⟨S270336x32, .f32⟩ : BufTy).Contents (Elt F)),
    nullary main_cst_32 (constant S_ .f32 0x00000000#32),
    unary main_cst_32 main_v147 (broadcastInDim S8192x32 ![] bcast_S_S8192x32 : (⟨S_, .f32⟩ : BufTy).Contents (Elt F) → (⟨S8192x32, .f32⟩ : BufTy).Contents (Elt F)),
    unary main_v113 main_v148 (broadcastInDim S270336x1 ![0] bcast_S270336_S270336x1_0 : (⟨S270336, .i32⟩ : BufTy).Contents (Elt F) → (⟨S270336x1, .i32⟩ : BufTy).Contents (Elt F)),
    ternary main_v147 main_v148 main_v146 main_v149 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg13 main_v150 (broadcastInDim S1x32 ![1] bcast_S32_S1x32_1 : (⟨S32, .f32⟩ : BufTy).Contents (Elt F) → (⟨S1x32, .f32⟩ : BufTy).Contents (Elt F)),
    unary main_v150 main_v151 (broadcastInDim S8192x32 ![0, 1] bcast_S1x32_S8192x32_0_1 : (⟨S1x32, .f32⟩ : BufTy).Contents (Elt F) → (⟨S8192x32, .f32⟩ : BufTy).Contents (Elt F)),
    binary main_v149 main_v151 main_v152 (addf : (⟨S8192x32, .f32⟩ : BufTy).Contents (Elt F) → (⟨S8192x32, .f32⟩ : BufTy).Contents (Elt F) → (⟨S8192x32, .f32⟩ : BufTy).Contents (Elt F)),
    unary main_v152 main_v153 (Host.tanh : (⟨S8192x32, .f32⟩ : BufTy).Contents (Elt F) → (⟨S8192x32, .f32⟩ : BufTy).Contents (Elt F)),
    unary main_arg14 main_v154 ((transpose S32x32 [1, 0] · transposes_S32x32_S32x32_1_0) : (⟨S32x32, .f32⟩ : BufTy).Contents (Elt F) → (⟨S32x32, .f32⟩ : BufTy).Contents (Elt F)),
    binary main_v153 main_v154 main_v155 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_v156 (iotaInDim S8192 32 0),
    binary main_v1 main_v156 main_v157 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v156 main_v158 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_33 (constant S_ .f32 0x3F800000#32),
    unary main_cst_33 main_v159 (broadcastInDim S270336 ![] bcast_S_S270336 : (⟨S_, .f32⟩ : BufTy).Contents (Elt F) → (⟨S270336, .f32⟩ : BufTy).Contents (Elt F)),
    nullary main_cst_34 (constant S_ .f32 0x00000000#32),
    unary main_cst_34 main_v160 (broadcastInDim S8192 ![] bcast_S_S8192 : (⟨S_, .f32⟩ : BufTy).Contents (Elt F) → (⟨S8192, .f32⟩ : BufTy).Contents (Elt F)),
    unary main_v158 main_v161 (broadcastInDim S270336x1 ![0] bcast_S270336_S270336x1_0 : (⟨S270336, .i32⟩ : BufTy).Contents (Elt F) → (⟨S270336x1, .i32⟩ : BufTy).Contents (Elt F)),
    ternary main_v160 main_v161 main_v159 main_v162 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_35 (constant S_ .f32 0x00000000#32),
    unary main_cst_35 main_v163 (broadcastInDim S8192 ![] bcast_S_S8192 : (⟨S_, .f32⟩ : BufTy).Contents (Elt F) → (⟨S8192, .f32⟩ : BufTy).Contents (Elt F)),
    binary main_v162 main_v163 main_v164 (cmpf .ogt : (⟨S8192, .f32⟩ : BufTy).Contents (Elt F) → (⟨S8192, .f32⟩ : BufTy).Contents (Elt F) → (⟨S8192, .i1⟩ : BufTy).Contents (Elt F)),
    unary main_v162 main_v165 (Host.rsqrt : (⟨S8192, .f32⟩ : BufTy).Contents (Elt F) → (⟨S8192, .f32⟩ : BufTy).Contents (Elt F)),
    nullary main_cst_36 (constant S_ .f32 0x00000000#32),
    TRef.unary (TRef.of (T := ⟨S_, .f32⟩) main_cst_36) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v164) (TRef.of (T := ⟨S8192, .f32⟩) main_v165) (TRef.of (T := ⟨S8192, .f32⟩) main_call4_v1) (TRef.of (T := ⟨S8192, .f32⟩) main_v166) select,
    nullary main_c_37 (constantI S_ 32 0#32),
    unary main_c_37 main_v167 (broadcastInDim S270336 ![] bcast_S_S270336 : (⟨S_, .i32⟩ : BufTy).Contents (Elt F) → (⟨S270336, .i32⟩ : BufTy).Contents (Elt F)),
    binary main_v157 main_v167 main_v168 (cmpi .slt : (⟨S270336, .i32⟩ : BufTy).Contents (Elt F) → (⟨S270336, .i32⟩ : BufTy).Contents (Elt F) → (⟨S270336, .i1⟩ : BufTy).Contents (Elt F)),
    nullary main_c_38 (constantI S_ 32 8192#32),
    unary main_c_38 main_v169 (broadcastInDim S270336 ![] bcast_S_S270336 : (⟨S_, .i32⟩ : BufTy).Contents (Elt F) → (⟨S270336, .i32⟩ : BufTy).Contents (Elt F)),
    binary main_v157 main_v169 main_v170 (addi : (⟨S270336, .i32⟩ : BufTy).Contents (Elt F) → (⟨S270336, .i32⟩ : BufTy).Contents (Elt F) → (⟨S270336, .i32⟩ : BufTy).Contents (Elt F)),
    ternary main_v168 main_v170 main_v157 main_v171 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v171 main_v172 (broadcastInDim S270336x1 ![0] bcast_S270336_S270336x1_0 : (⟨S270336, .i32⟩ : BufTy).Contents (Elt F) → (⟨S270336x1, .i32⟩ : BufTy).Contents (Elt F)),
    binary main_v166 main_v172 main_v173 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_39 (constantI S_ 32 0#32),
    unary main_c_39 main_v174 (broadcastInDim S270336 ![] bcast_S_S270336 : (⟨S_, .i32⟩ : BufTy).Contents (Elt F) → (⟨S270336, .i32⟩ : BufTy).Contents (Elt F)),
    binary main_v158 main_v174 main_v175 (cmpi .slt : (⟨S270336, .i32⟩ : BufTy).Contents (Elt F) → (⟨S270336, .i32⟩ : BufTy).Contents (Elt F) → (⟨S270336, .i1⟩ : BufTy).Contents (Elt F)),
    nullary main_c_40 (constantI S_ 32 8192#32),
    unary main_c_40 main_v176 (broadcastInDim S270336 ![] bcast_S_S270336 : (⟨S_, .i32⟩ : BufTy).Contents (Elt F) → (⟨S270336, .i32⟩ : BufTy).Contents (Elt F)),
    binary main_v158 main_v176 main_v177 (addi : (⟨S270336, .i32⟩ : BufTy).Contents (Elt F) → (⟨S270336, .i32⟩ : BufTy).Contents (Elt F) → (⟨S270336, .i32⟩ : BufTy).Contents (Elt F)),
    ternary main_v175 main_v177 main_v158 main_v178 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v178 main_v179 (broadcastInDim S270336x1 ![0] bcast_S270336_S270336x1_0 : (⟨S270336, .i32⟩ : BufTy).Contents (Elt F) → (⟨S270336x1, .i32⟩ : BufTy).Contents (Elt F)),
    binary main_v166 main_v179 main_v180 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v173 main_v180 main_v181 (mulf : (⟨S270336, .f32⟩ : BufTy).Contents (Elt F) → (⟨S270336, .f32⟩ : BufTy).Contents (Elt F) → (⟨S270336, .f32⟩ : BufTy).Contents (Elt F)),
    unary main_v181 main_v182 (broadcastInDim S270336x1 ![0] bcast_S270336_S270336x1_0 : (⟨S270336, .f32⟩ : BufTy).Contents (Elt F) → (⟨S270336x1, .f32⟩ : BufTy).Contents (Elt F)),
    nullary main_c_41 (constantI S_ 32 0#32),
    unary main_c_41 main_v183 (broadcastInDim S270336 ![] bcast_S_S270336 : (⟨S_, .i32⟩ : BufTy).Contents (Elt F) → (⟨S270336, .i32⟩ : BufTy).Contents (Elt F)),
    binary main_v157 main_v183 main_v184 (cmpi .slt : (⟨S270336, .i32⟩ : BufTy).Contents (Elt F) → (⟨S270336, .i32⟩ : BufTy).Contents (Elt F) → (⟨S270336, .i1⟩ : BufTy).Contents (Elt F)),
    nullary main_c_42 (constantI S_ 32 8192#32),
    unary main_c_42 main_v185 (broadcastInDim S270336 ![] bcast_S_S270336 : (⟨S_, .i32⟩ : BufTy).Contents (Elt F) → (⟨S270336, .i32⟩ : BufTy).Contents (Elt F)),
    binary main_v157 main_v185 main_v186 (addi : (⟨S270336, .i32⟩ : BufTy).Contents (Elt F) → (⟨S270336, .i32⟩ : BufTy).Contents (Elt F) → (⟨S270336, .i32⟩ : BufTy).Contents (Elt F)),
    ternary main_v184 main_v186 main_v157 main_v187 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v187 main_v188 (broadcastInDim S270336x1 ![0] bcast_S270336_S270336x1_0 : (⟨S270336, .i32⟩ : BufTy).Contents (Elt F) → (⟨S270336x1, .i32⟩ : BufTy).Contents (Elt F)),
    binary main_v155 main_v188 main_v189 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v182 main_v190 (broadcastInDim S270336x32 ![0, 1] bcast_S270336x1_S270336x32_0_1 : (⟨S270336x1, .f32⟩ : BufTy).Contents (Elt F) → (⟨S270336x32, .f32⟩ : BufTy).Contents (Elt F)),
    binary main_v189 main_v190 main_v191 (mulf : (⟨S270336x32, .f32⟩ : BufTy).Contents (Elt F) → (⟨S270336x32, .f32⟩ : BufTy).Contents (Elt F) → (⟨S270336x32, .f32⟩ : BufTy).Contents (Elt F)),
    nullary main_cst_43 (constant S_ .f32 0x00000000#32),
    unary main_cst_43 main_v192 (broadcastInDim S8192x32 ![] bcast_S_S8192x32 : (⟨S_, .f32⟩ : BufTy).Contents (Elt F) → (⟨S8192x32, .f32⟩ : BufTy).Contents (Elt F)),
    unary main_v158 main_v193 (broadcastInDim S270336x1 ![0] bcast_S270336_S270336x1_0 : (⟨S270336, .i32⟩ : BufTy).Contents (Elt F) → (⟨S270336x1, .i32⟩ : BufTy).Contents (Elt F)),
    ternary main_v192 main_v193 main_v191 main_v194 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg15 main_v195 (broadcastInDim S1x32 ![1] bcast_S32_S1x32_1 : (⟨S32, .f32⟩ : BufTy).Contents (Elt F) → (⟨S1x32, .f32⟩ : BufTy).Contents (Elt F)),
    unary main_v195 main_v196 (broadcastInDim S8192x32 ![0, 1] bcast_S1x32_S8192x32_0_1 : (⟨S1x32, .f32⟩ : BufTy).Contents (Elt F) → (⟨S8192x32, .f32⟩ : BufTy).Contents (Elt F)),
    binary main_v194 main_v196 main_v197 (addf : (⟨S8192x32, .f32⟩ : BufTy).Contents (Elt F) → (⟨S8192x32, .f32⟩ : BufTy).Contents (Elt F) → (⟨S8192x32, .f32⟩ : BufTy).Contents (Elt F)),
    unary main_v197 main_v198 (Host.tanh : (⟨S8192x32, .f32⟩ : BufTy).Contents (Elt F) → (⟨S8192x32, .f32⟩ : BufTy).Contents (Elt F)),
    unary main_arg16 main_v199 ((transpose S32x32 [1, 0] · transposes_S32x32_S32x32_1_0) : (⟨S32x32, .f32⟩ : BufTy).Contents (Elt F) → (⟨S32x32, .f32⟩ : BufTy).Contents (Elt F)),
    binary main_v198 main_v199 main_v200 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg17 main_v201 (broadcastInDim S1x32 ![1] bcast_S32_S1x32_1 : (⟨S32, .f32⟩ : BufTy).Contents (Elt F) → (⟨S1x32, .f32⟩ : BufTy).Contents (Elt F)),
    unary main_v201 main_v202 (broadcastInDim S8192x32 ![0, 1] bcast_S1x32_S8192x32_0_1 : (⟨S1x32, .f32⟩ : BufTy).Contents (Elt F) → (⟨S8192x32, .f32⟩ : BufTy).Contents (Elt F)),
    binary main_v200 main_v202 main_v203 (addf : (⟨S8192x32, .f32⟩ : BufTy).Contents (Elt F) → (⟨S8192x32, .f32⟩ : BufTy).Contents (Elt F) → (⟨S8192x32, .f32⟩ : BufTy).Contents (Elt F)),
    unary main_v203 main_v204 (Host.tanh : (⟨S8192x32, .f32⟩ : BufTy).Contents (Elt F) → (⟨S8192x32, .f32⟩ : BufTy).Contents (Elt F)),
    nullary main_cst_44 (constant S_ .f32 0x00000000#32),
    binary main_v204 main_cst_44 main_v205 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    unary main_v205 main_v206 (broadcastInDim S1x32 ![1] bcast_S32_S1x32_1 : (⟨S32, .f32⟩ : BufTy).Contents (Elt F) → (⟨S1x32, .f32⟩ : BufTy).Contents (Elt F)),
    unary main_arg18 main_v207 ((transpose S32x1 [1, 0] · transposes_S1x32_S32x1_1_0) : (⟨S1x32, .f32⟩ : BufTy).Contents (Elt F) → (⟨S32x1, .f32⟩ : BufTy).Contents (Elt F)),
    binary main_v206 main_v207 main_v208 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)),
    unary main_arg19 main_v209 (broadcastInDim S1x1 ![1] bcast_S1_S1x1_1 : (⟨S1, .f32⟩ : BufTy).Contents (Elt F) → (⟨S1x1, .f32⟩ : BufTy).Contents (Elt F)),
    binary main_v208 main_v209 main_v210 (addf : (⟨S1x1, .f32⟩ : BufTy).Contents (Elt F) → (⟨S1x1, .f32⟩ : BufTy).Contents (Elt F) → (⟨S1x1, .f32⟩ : BufTy).Contents (Elt F)),
    reshape main_v210 main_v211 rfl shapeCasts_S1x1_S1 ]

/-- The operations of @main's block 0, in order. -/
abbrev ops0 : List (HloOp τ sig (Elt F)) :=
  [ unary main_arg2 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg2 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    unary main_arg4 main_v4 ((transpose S128x32 [1, 0] · transposes_S32x128_S128x32_1_0) : (⟨S32x128, .f32⟩ : BufTy).Contents (Elt F) → (⟨S128x32, .f32⟩ : BufTy).Contents (Elt F)),
    binary main_arg0 main_v4 main_v5 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    nullary main_v6 (iotaInDim S8192 32 0),
    binary main_v1 main_v6 main_v7 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v6 main_v8 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v9 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v10 (broadcastInDim S8192 ![] bcast_S_S8192 : (⟨S_, .f32⟩ : BufTy).Contents (Elt F) → (⟨S8192, .f32⟩ : BufTy).Contents (Elt F)),
    unary main_v8 main_v11 (broadcastInDim S270336x1 ![0] bcast_S270336_S270336x1_0 : (⟨S270336, .i32⟩ : BufTy).Contents (Elt F) → (⟨S270336x1, .i32⟩ : BufTy).Contents (Elt F)),
    ternary main_v10 main_v11 main_v9 main_v12 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v13 (broadcastInDim S8192 ![] bcast_S_S8192 : (⟨S_, .f32⟩ : BufTy).Contents (Elt F) → (⟨S8192, .f32⟩ : BufTy).Contents (Elt F)),
    binary main_v12 main_v13 main_v14 (cmpf .ogt : (⟨S8192, .f32⟩ : BufTy).Contents (Elt F) → (⟨S8192, .f32⟩ : BufTy).Contents (Elt F) → (⟨S8192, .i1⟩ : BufTy).Contents (Elt F)),
    unary main_v12 main_v15 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v14) (TRef.of (T := ⟨S8192, .f32⟩) main_v15) (TRef.of (T := ⟨S8192, .f32⟩) main_call0_v1) (TRef.of (T := ⟨S8192, .f32⟩) main_v16) select,
    nullary main_c (constantI S_ 32 0#32),
    unary main_c main_v17 (broadcastInDim S270336 ![] bcast_S_S270336 : (⟨S_, .i32⟩ : BufTy).Contents (Elt F) → (⟨S270336, .i32⟩ : BufTy).Contents (Elt F)),
    binary main_v7 main_v17 main_v18 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v19 (broadcastInDim S270336 ![] bcast_S_S270336 : (⟨S_, .i32⟩ : BufTy).Contents (Elt F) → (⟨S270336, .i32⟩ : BufTy).Contents (Elt F)),
    binary main_v7 main_v19 main_v20 (addi : (⟨S270336, .i32⟩ : BufTy).Contents (Elt F) → (⟨S270336, .i32⟩ : BufTy).Contents (Elt F) → (⟨S270336, .i32⟩ : BufTy).Contents (Elt F)),
    ternary main_v18 main_v20 main_v7 main_v21 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v21 main_v22 (broadcastInDim S270336x1 ![0] bcast_S270336_S270336x1_0 : (⟨S270336, .i32⟩ : BufTy).Contents (Elt F) → (⟨S270336x1, .i32⟩ : BufTy).Contents (Elt F)),
    binary main_v16 main_v22 main_v23 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v24 (broadcastInDim S270336 ![] bcast_S_S270336 : (⟨S_, .i32⟩ : BufTy).Contents (Elt F) → (⟨S270336, .i32⟩ : BufTy).Contents (Elt F)),
    binary main_v8 main_v24 main_v25 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v26 (broadcastInDim S270336 ![] bcast_S_S270336 : (⟨S_, .i32⟩ : BufTy).Contents (Elt F) → (⟨S270336, .i32⟩ : BufTy).Contents (Elt F)),
    binary main_v8 main_v26 main_v27 (addi : (⟨S270336, .i32⟩ : BufTy).Contents (Elt F) → (⟨S270336, .i32⟩ : BufTy).Contents (Elt F) → (⟨S270336, .i32⟩ : BufTy).Contents (Elt F)),
    ternary main_v25 main_v27 main_v8 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v28 main_v29 (broadcastInDim S270336x1 ![0] bcast_S270336_S270336x1_0 : (⟨S270336, .i32⟩ : BufTy).Contents (Elt F) → (⟨S270336x1, .i32⟩ : BufTy).Contents (Elt F)),
    binary main_v16 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v23 main_v30 main_v31 (mulf : (⟨S270336, .f32⟩ : BufTy).Contents (Elt F) → (⟨S270336, .f32⟩ : BufTy).Contents (Elt F) → (⟨S270336, .f32⟩ : BufTy).Contents (Elt F)),
    unary main_v31 main_v32 (broadcastInDim S270336x1 ![0] bcast_S270336_S270336x1_0 : (⟨S270336, .f32⟩ : BufTy).Contents (Elt F) → (⟨S270336x1, .f32⟩ : BufTy).Contents (Elt F)),
    nullary main_c_6 (constantI S_ 32 0#32),
    unary main_c_6 main_v33 (broadcastInDim S270336 ![] bcast_S_S270336 : (⟨S_, .i32⟩ : BufTy).Contents (Elt F) → (⟨S270336, .i32⟩ : BufTy).Contents (Elt F)),
    binary main_v7 main_v33 main_v34 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v35 (broadcastInDim S270336 ![] bcast_S_S270336 : (⟨S_, .i32⟩ : BufTy).Contents (Elt F) → (⟨S270336, .i32⟩ : BufTy).Contents (Elt F)),
    binary main_v7 main_v35 main_v36 (addi : (⟨S270336, .i32⟩ : BufTy).Contents (Elt F) → (⟨S270336, .i32⟩ : BufTy).Contents (Elt F) → (⟨S270336, .i32⟩ : BufTy).Contents (Elt F)),
    ternary main_v34 main_v36 main_v7 main_v37 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v37 main_v38 (broadcastInDim S270336x1 ![0] bcast_S270336_S270336x1_0 : (⟨S270336, .i32⟩ : BufTy).Contents (Elt F) → (⟨S270336x1, .i32⟩ : BufTy).Contents (Elt F)),
    binary main_v5 main_v38 main_v39 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v32 main_v40 (broadcastInDim S270336x32 ![0, 1] bcast_S270336x1_S270336x32_0_1 : (⟨S270336x1, .f32⟩ : BufTy).Contents (Elt F) → (⟨S270336x32, .f32⟩ : BufTy).Contents (Elt F)),
    binary main_v39 main_v40 main_v41 (mulf : (⟨S270336x32, .f32⟩ : BufTy).Contents (Elt F) → (⟨S270336x32, .f32⟩ : BufTy).Contents (Elt F) → (⟨S270336x32, .f32⟩ : BufTy).Contents (Elt F)),
    nullary main_cst_8 (constant S_ .f32 0x00000000#32),
    unary main_cst_8 main_v42 (broadcastInDim S8192x32 ![] bcast_S_S8192x32 : (⟨S_, .f32⟩ : BufTy).Contents (Elt F) → (⟨S8192x32, .f32⟩ : BufTy).Contents (Elt F)),
    unary main_v8 main_v43 (broadcastInDim S270336x1 ![0] bcast_S270336_S270336x1_0 : (⟨S270336, .i32⟩ : BufTy).Contents (Elt F) → (⟨S270336x1, .i32⟩ : BufTy).Contents (Elt F)),
    ternary main_v42 main_v43 main_v41 main_v44 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg5 main_v45 (broadcastInDim S1x32 ![1] bcast_S32_S1x32_1 : (⟨S32, .f32⟩ : BufTy).Contents (Elt F) → (⟨S1x32, .f32⟩ : BufTy).Contents (Elt F)),
    unary main_v45 main_v46 (broadcastInDim S8192x32 ![0, 1] bcast_S1x32_S8192x32_0_1 : (⟨S1x32, .f32⟩ : BufTy).Contents (Elt F) → (⟨S8192x32, .f32⟩ : BufTy).Contents (Elt F)),
    binary main_v44 main_v46 main_v47 (addf : (⟨S8192x32, .f32⟩ : BufTy).Contents (Elt F) → (⟨S8192x32, .f32⟩ : BufTy).Contents (Elt F) → (⟨S8192x32, .f32⟩ : BufTy).Contents (Elt F)),
    unary main_v47 main_v48 (Host.tanh : (⟨S8192x32, .f32⟩ : BufTy).Contents (Elt F) → (⟨S8192x32, .f32⟩ : BufTy).Contents (Elt F)) ]

/-- The operations of @main's block 1, in order. -/
abbrev ops1 : List (HloOp τ sig (Elt F)) :=
  [ unary main_arg6 main_v49 ((transpose S32x32 [1, 0] · transposes_S32x32_S32x32_1_0) : (⟨S32x32, .f32⟩ : BufTy).Contents (Elt F) → (⟨S32x32, .f32⟩ : BufTy).Contents (Elt F)),
    binary main_v48 main_v49 main_v50 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_v51 (iotaInDim S8192 32 0),
    binary main_v1 main_v51 main_v52 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v51 main_v53 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_9 (constant S_ .f32 0x3F800000#32),
    unary main_cst_9 main_v54 (broadcastInDim S270336 ![] bcast_S_S270336 : (⟨S_, .f32⟩ : BufTy).Contents (Elt F) → (⟨S270336, .f32⟩ : BufTy).Contents (Elt F)),
    nullary main_cst_10 (constant S_ .f32 0x00000000#32),
    unary main_cst_10 main_v55 (broadcastInDim S8192 ![] bcast_S_S8192 : (⟨S_, .f32⟩ : BufTy).Contents (Elt F) → (⟨S8192, .f32⟩ : BufTy).Contents (Elt F)),
    unary main_v53 main_v56 (broadcastInDim S270336x1 ![0] bcast_S270336_S270336x1_0 : (⟨S270336, .i32⟩ : BufTy).Contents (Elt F) → (⟨S270336x1, .i32⟩ : BufTy).Contents (Elt F)),
    ternary main_v55 main_v56 main_v54 main_v57 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_11 (constant S_ .f32 0x00000000#32),
    unary main_cst_11 main_v58 (broadcastInDim S8192 ![] bcast_S_S8192 : (⟨S_, .f32⟩ : BufTy).Contents (Elt F) → (⟨S8192, .f32⟩ : BufTy).Contents (Elt F)),
    binary main_v57 main_v58 main_v59 (cmpf .ogt : (⟨S8192, .f32⟩ : BufTy).Contents (Elt F) → (⟨S8192, .f32⟩ : BufTy).Contents (Elt F) → (⟨S8192, .i1⟩ : BufTy).Contents (Elt F)),
    unary main_v57 main_v60 (Host.rsqrt : (⟨S8192, .f32⟩ : BufTy).Contents (Elt F) → (⟨S8192, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S8192, .f32⟩) main_call1_v1) (broadcastInDim S8192 ![] bcast_S_S8192),
    TRef.ternary (TRef.of (T := ⟨S8192, .i1⟩) main_v59) (TRef.of (T := ⟨S8192, .f32⟩) main_v60) (TRef.of (T := ⟨S8192, .f32⟩) main_call1_v1) (TRef.of (T := ⟨S8192, .f32⟩) main_v61) select,
    nullary main_c_13 (constantI S_ 32 0#32),
    unary main_c_13 main_v62 (broadcastInDim S270336 ![] bcast_S_S270336 : (⟨S_, .i32⟩ : BufTy).Contents (Elt F) → (⟨S270336, .i32⟩ : BufTy).Contents (Elt F)),
    binary main_v52 main_v62 main_v63 (cmpi .slt : (⟨S270336, .i32⟩ : BufTy).Contents (Elt F) → (⟨S270336, .i32⟩ : BufTy).Contents (Elt F) → (⟨S270336, .i1⟩ : BufTy).Contents (Elt F)),
    nullary main_c_14 (constantI S_ 32 8192#32),
    unary main_c_14 main_v64 (broadcastInDim S270336 ![] bcast_S_S270336 : (⟨S_, .i32⟩ : BufTy).Contents (Elt F) → (⟨S270336, .i32⟩ : BufTy).Contents (Elt F)),
    binary main_v52 main_v64 main_v65 (addi : (⟨S270336, .i32⟩ : BufTy).Contents (Elt F) → (⟨S270336, .i32⟩ : BufTy).Contents (Elt F) → (⟨S270336, .i32⟩ : BufTy).Contents (Elt F)),
    ternary main_v63 main_v65 main_v52 main_v66 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v66 main_v67 (broadcastInDim S270336x1 ![0] bcast_S270336_S270336x1_0 : (⟨S270336, .i32⟩ : BufTy).Contents (Elt F) → (⟨S270336x1, .i32⟩ : BufTy).Contents (Elt F)),
    binary main_v61 main_v67 main_v68 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_15 (constantI S_ 32 0#32),
    unary main_c_15 main_v69 (broadcastInDim S270336 ![] bcast_S_S270336 : (⟨S_, .i32⟩ : BufTy).Contents (Elt F) → (⟨S270336, .i32⟩ : BufTy).Contents (Elt F)),
    binary main_v53 main_v69 main_v70 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v71 (broadcastInDim S270336 ![] bcast_S_S270336 : (⟨S_, .i32⟩ : BufTy).Contents (Elt F) → (⟨S270336, .i32⟩ : BufTy).Contents (Elt F)),
    binary main_v53 main_v71 main_v72 (addi : (⟨S270336, .i32⟩ : BufTy).Contents (Elt F) → (⟨S270336, .i32⟩ : BufTy).Contents (Elt F) → (⟨S270336, .i32⟩ : BufTy).Contents (Elt F)),
    ternary main_v70 main_v72 main_v53 main_v73 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v73 main_v74 (broadcastInDim S270336x1 ![0] bcast_S270336_S270336x1_0 : (⟨S270336, .i32⟩ : BufTy).Contents (Elt F) → (⟨S270336x1, .i32⟩ : BufTy).Contents (Elt F)),
    binary main_v61 main_v74 main_v75 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v68 main_v75 main_v76 (mulf : (⟨S270336, .f32⟩ : BufTy).Contents (Elt F) → (⟨S270336, .f32⟩ : BufTy).Contents (Elt F) → (⟨S270336, .f32⟩ : BufTy).Contents (Elt F)),
    unary main_v76 main_v77 (broadcastInDim S270336x1 ![0] bcast_S270336_S270336x1_0 : (⟨S270336, .f32⟩ : BufTy).Contents (Elt F) → (⟨S270336x1, .f32⟩ : BufTy).Contents (Elt F)),
    nullary main_c_17 (constantI S_ 32 0#32),
    unary main_c_17 main_v78 (broadcastInDim S270336 ![] bcast_S_S270336 : (⟨S_, .i32⟩ : BufTy).Contents (Elt F) → (⟨S270336, .i32⟩ : BufTy).Contents (Elt F)),
    binary main_v52 main_v78 main_v79 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v80 (broadcastInDim S270336 ![] bcast_S_S270336 : (⟨S_, .i32⟩ : BufTy).Contents (Elt F) → (⟨S270336, .i32⟩ : BufTy).Contents (Elt F)),
    binary main_v52 main_v80 main_v81 (addi : (⟨S270336, .i32⟩ : BufTy).Contents (Elt F) → (⟨S270336, .i32⟩ : BufTy).Contents (Elt F) → (⟨S270336, .i32⟩ : BufTy).Contents (Elt F)),
    ternary main_v79 main_v81 main_v52 main_v82 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v82 main_v83 (broadcastInDim S270336x1 ![0] bcast_S270336_S270336x1_0 : (⟨S270336, .i32⟩ : BufTy).Contents (Elt F) → (⟨S270336x1, .i32⟩ : BufTy).Contents (Elt F)),
    binary main_v50 main_v83 main_v84 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v77 main_v85 (broadcastInDim S270336x32 ![0, 1] bcast_S270336x1_S270336x32_0_1 : (⟨S270336x1, .f32⟩ : BufTy).Contents (Elt F) → (⟨S270336x32, .f32⟩ : BufTy).Contents (Elt F)),
    binary main_v84 main_v85 main_v86 (mulf : (⟨S270336x32, .f32⟩ : BufTy).Contents (Elt F) → (⟨S270336x32, .f32⟩ : BufTy).Contents (Elt F) → (⟨S270336x32, .f32⟩ : BufTy).Contents (Elt F)),
    nullary main_cst_19 (constant S_ .f32 0x00000000#32),
    unary main_cst_19 main_v87 (broadcastInDim S8192x32 ![] bcast_S_S8192x32 : (⟨S_, .f32⟩ : BufTy).Contents (Elt F) → (⟨S8192x32, .f32⟩ : BufTy).Contents (Elt F)),
    unary main_v53 main_v88 (broadcastInDim S270336x1 ![0] bcast_S270336_S270336x1_0 : (⟨S270336, .i32⟩ : BufTy).Contents (Elt F) → (⟨S270336x1, .i32⟩ : BufTy).Contents (Elt F)),
    ternary main_v87 main_v88 main_v86 main_v89 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg7 main_v90 (broadcastInDim S1x32 ![1] bcast_S32_S1x32_1 : (⟨S32, .f32⟩ : BufTy).Contents (Elt F) → (⟨S1x32, .f32⟩ : BufTy).Contents (Elt F)),
    unary main_v90 main_v91 (broadcastInDim S8192x32 ![0, 1] bcast_S1x32_S8192x32_0_1 : (⟨S1x32, .f32⟩ : BufTy).Contents (Elt F) → (⟨S8192x32, .f32⟩ : BufTy).Contents (Elt F)),
    binary main_v89 main_v91 main_v92 (addf : (⟨S8192x32, .f32⟩ : BufTy).Contents (Elt F) → (⟨S8192x32, .f32⟩ : BufTy).Contents (Elt F) → (⟨S8192x32, .f32⟩ : BufTy).Contents (Elt F)),
    unary main_v92 main_v93 (Host.tanh : (⟨S8192x32, .f32⟩ : BufTy).Contents (Elt F) → (⟨S8192x32, .f32⟩ : BufTy).Contents (Elt F)),
    unary main_arg8 main_v94 ((transpose S32x32 [1, 0] · transposes_S32x32_S32x32_1_0) : (⟨S32x32, .f32⟩ : BufTy).Contents (Elt F) → (⟨S32x32, .f32⟩ : BufTy).Contents (Elt F)),
    binary main_v93 main_v94 main_v95 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg9 main_v96 (broadcastInDim S1x32 ![1] bcast_S32_S1x32_1 : (⟨S32, .f32⟩ : BufTy).Contents (Elt F) → (⟨S1x32, .f32⟩ : BufTy).Contents (Elt F)),
    unary main_v96 main_v97 (broadcastInDim S8192x32 ![0, 1] bcast_S1x32_S8192x32_0_1 : (⟨S1x32, .f32⟩ : BufTy).Contents (Elt F) → (⟨S8192x32, .f32⟩ : BufTy).Contents (Elt F)) ]

/-- The operations of @main's block 2, in order. -/
abbrev ops2 : List (HloOp τ sig (Elt F)) :=
  [ binary main_v95 main_v97 main_v98 (addf : (⟨S8192x32, .f32⟩ : BufTy).Contents (Elt F) → (⟨S8192x32, .f32⟩ : BufTy).Contents (Elt F) → (⟨S8192x32, .f32⟩ : BufTy).Contents (Elt F)),
    unary main_v98 main_v99 (Host.tanh : (⟨S8192x32, .f32⟩ : BufTy).Contents (Elt F) → (⟨S8192x32, .f32⟩ : BufTy).Contents (Elt F)),
    unary main_v99 main_v100 ((transpose S32x8192 [1, 0] · transposes_S8192x32_S32x8192_1_0) : (⟨S8192x32, .f32⟩ : BufTy).Contents (Elt F) → (⟨S32x8192, .f32⟩ : BufTy).Contents (Elt F)),
    nullary main_cst_20 (constant S_ .f32 0x00000000#32),
    binary main_v100 main_cst_20 main_v101 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    unary main_v101 main_v102 (broadcastInDim S1x8192 ![1] bcast_S8192_S1x8192_1 : (⟨S8192, .f32⟩ : BufTy).Contents (Elt F) → (⟨S1x8192, .f32⟩ : BufTy).Contents (Elt F)),
    unary main_arg10 main_v103 ((transpose S8192x8192 [1, 0] · transposes_S8192x8192_S8192x8192_1_0) : (⟨S8192x8192, .f32⟩ : BufTy).Contents (Elt F) → (⟨S8192x8192, .f32⟩ : BufTy).Contents (Elt F)),
    binary main_v102 main_v103 main_v104 ((fun l r => Host.dotGeneral dot_S1x8192_S8192x8192_S1x8192_1_0_0_1_n_n none l r) : (⟨S1x8192, .f32⟩ : BufTy).Contents (Elt F) → (⟨S8192x8192, .f32⟩ : BufTy).Contents (Elt F) → (⟨S1x8192, .f32⟩ : BufTy).Contents (Elt F)),
    unary main_arg11 main_v105 (broadcastInDim S1x8192 ![1] bcast_S8192_S1x8192_1 : (⟨S8192, .f32⟩ : BufTy).Contents (Elt F) → (⟨S1x8192, .f32⟩ : BufTy).Contents (Elt F)),
    binary main_v104 main_v105 main_v106 (addf : (⟨S1x8192, .f32⟩ : BufTy).Contents (Elt F) → (⟨S1x8192, .f32⟩ : BufTy).Contents (Elt F) → (⟨S1x8192, .f32⟩ : BufTy).Contents (Elt F)),
    reshape main_v106 main_v107 rfl shapeCasts_S1x8192_S8192,
    nullary main_cst_21 (constant S_ .f32 0xF49DC5AE#32),
    TRef.unary (TRef.of (T := ⟨S_, .f32⟩) main_cst_21) (TRef.of (T := ⟨S8192, .f32⟩) main_call2_v0) (broadcastInDim S8192 ![] bcast_S_S8192),
    TRef.ternary (TRef.of (T := ⟨S8192, .i1⟩) main_arg3) (TRef.of (T := ⟨S8192, .f32⟩) main_v107) (TRef.of (T := ⟨S8192, .f32⟩) main_call2_v0) (TRef.of (T := ⟨S8192, .f32⟩) main_v108) select,
    unary main_arg12 main_v109 ((transpose S128x32 [1, 0] · transposes_S32x128_S128x32_1_0) : (⟨S32x128, .f32⟩ : BufTy).Contents (Elt F) → (⟨S128x32, .f32⟩ : BufTy).Contents (Elt F)),
    binary main_arg1 main_v109 main_v110 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    nullary main_v111 (iotaInDim S8192 32 0),
    binary main_v1 main_v111 main_v112 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v111 main_v113 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_22 (constant S_ .f32 0x3F800000#32),
    unary main_cst_22 main_v114 (broadcastInDim S270336 ![] bcast_S_S270336 : (⟨S_, .f32⟩ : BufTy).Contents (Elt F) → (⟨S270336, .f32⟩ : BufTy).Contents (Elt F)),
    nullary main_cst_23 (constant S_ .f32 0x00000000#32),
    unary main_cst_23 main_v115 (broadcastInDim S8192 ![] bcast_S_S8192 : (⟨S_, .f32⟩ : BufTy).Contents (Elt F) → (⟨S8192, .f32⟩ : BufTy).Contents (Elt F)),
    unary main_v113 main_v116 (broadcastInDim S270336x1 ![0] bcast_S270336_S270336x1_0 : (⟨S270336, .i32⟩ : BufTy).Contents (Elt F) → (⟨S270336x1, .i32⟩ : BufTy).Contents (Elt F)),
    ternary main_v115 main_v116 main_v114 main_v117 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_24 (constant S_ .f32 0x00000000#32),
    unary main_cst_24 main_v118 (broadcastInDim S8192 ![] bcast_S_S8192 : (⟨S_, .f32⟩ : BufTy).Contents (Elt F) → (⟨S8192, .f32⟩ : BufTy).Contents (Elt F)),
    binary main_v117 main_v118 main_v119 (cmpf .ogt : (⟨S8192, .f32⟩ : BufTy).Contents (Elt F) → (⟨S8192, .f32⟩ : BufTy).Contents (Elt F) → (⟨S8192, .i1⟩ : BufTy).Contents (Elt F)),
    unary main_v117 main_v120 (Host.rsqrt : (⟨S8192, .f32⟩ : BufTy).Contents (Elt F) → (⟨S8192, .f32⟩ : BufTy).Contents (Elt F)),
    nullary main_cst_25 (constant S_ .f32 0x00000000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v119) (TRef.of (T := ⟨S8192, .f32⟩) main_v120) (TRef.of (T := ⟨S8192, .f32⟩) main_call3_v1) (TRef.of (T := ⟨S8192, .f32⟩) main_v121) select,
    nullary main_c_26 (constantI S_ 32 0#32),
    unary main_c_26 main_v122 (broadcastInDim S270336 ![] bcast_S_S270336 : (⟨S_, .i32⟩ : BufTy).Contents (Elt F) → (⟨S270336, .i32⟩ : BufTy).Contents (Elt F)),
    binary main_v112 main_v122 main_v123 (cmpi .slt : (⟨S270336, .i32⟩ : BufTy).Contents (Elt F) → (⟨S270336, .i32⟩ : BufTy).Contents (Elt F) → (⟨S270336, .i1⟩ : BufTy).Contents (Elt F)),
    nullary main_c_27 (constantI S_ 32 8192#32),
    unary main_c_27 main_v124 (broadcastInDim S270336 ![] bcast_S_S270336 : (⟨S_, .i32⟩ : BufTy).Contents (Elt F) → (⟨S270336, .i32⟩ : BufTy).Contents (Elt F)),
    binary main_v112 main_v124 main_v125 (addi : (⟨S270336, .i32⟩ : BufTy).Contents (Elt F) → (⟨S270336, .i32⟩ : BufTy).Contents (Elt F) → (⟨S270336, .i32⟩ : BufTy).Contents (Elt F)),
    ternary main_v123 main_v125 main_v112 main_v126 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v126 main_v127 (broadcastInDim S270336x1 ![0] bcast_S270336_S270336x1_0 : (⟨S270336, .i32⟩ : BufTy).Contents (Elt F) → (⟨S270336x1, .i32⟩ : BufTy).Contents (Elt F)),
    binary main_v121 main_v127 main_v128 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_28 (constantI S_ 32 0#32),
    unary main_c_28 main_v129 (broadcastInDim S270336 ![] bcast_S_S270336 : (⟨S_, .i32⟩ : BufTy).Contents (Elt F) → (⟨S270336, .i32⟩ : BufTy).Contents (Elt F)),
    binary main_v113 main_v129 main_v130 (cmpi .slt : (⟨S270336, .i32⟩ : BufTy).Contents (Elt F) → (⟨S270336, .i32⟩ : BufTy).Contents (Elt F) → (⟨S270336, .i1⟩ : BufTy).Contents (Elt F)),
    nullary main_c_29 (constantI S_ 32 8192#32),
    unary main_c_29 main_v131 (broadcastInDim S270336 ![] bcast_S_S270336 : (⟨S_, .i32⟩ : BufTy).Contents (Elt F) → (⟨S270336, .i32⟩ : BufTy).Contents (Elt F)),
    binary main_v113 main_v131 main_v132 (addi : (⟨S270336, .i32⟩ : BufTy).Contents (Elt F) → (⟨S270336, .i32⟩ : BufTy).Contents (Elt F) → (⟨S270336, .i32⟩ : BufTy).Contents (Elt F)),
    ternary main_v130 main_v132 main_v113 main_v133 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v133 main_v134 (broadcastInDim S270336x1 ![0] bcast_S270336_S270336x1_0 : (⟨S270336, .i32⟩ : BufTy).Contents (Elt F) → (⟨S270336x1, .i32⟩ : BufTy).Contents (Elt F)),
    binary main_v121 main_v134 main_v135 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v128 main_v135 main_v136 (mulf : (⟨S270336, .f32⟩ : BufTy).Contents (Elt F) → (⟨S270336, .f32⟩ : BufTy).Contents (Elt F) → (⟨S270336, .f32⟩ : BufTy).Contents (Elt F)),
    unary main_v136 main_v137 (broadcastInDim S270336x1 ![0] bcast_S270336_S270336x1_0 : (⟨S270336, .f32⟩ : BufTy).Contents (Elt F) → (⟨S270336x1, .f32⟩ : BufTy).Contents (Elt F)),
    nullary main_c_30 (constantI S_ 32 0#32),
    unary main_c_30 main_v138 (broadcastInDim S270336 ![] bcast_S_S270336 : (⟨S_, .i32⟩ : BufTy).Contents (Elt F) → (⟨S270336, .i32⟩ : BufTy).Contents (Elt F)),
    binary main_v112 main_v138 main_v139 (cmpi .slt : (⟨S270336, .i32⟩ : BufTy).Contents (Elt F) → (⟨S270336, .i32⟩ : BufTy).Contents (Elt F) → (⟨S270336, .i1⟩ : BufTy).Contents (Elt F)),
    nullary main_c_31 (constantI S_ 32 8192#32),
    unary main_c_31 main_v140 (broadcastInDim S270336 ![] bcast_S_S270336 : (⟨S_, .i32⟩ : BufTy).Contents (Elt F) → (⟨S270336, .i32⟩ : BufTy).Contents (Elt F)),
    binary main_v112 main_v140 main_v141 (addi : (⟨S270336, .i32⟩ : BufTy).Contents (Elt F) → (⟨S270336, .i32⟩ : BufTy).Contents (Elt F) → (⟨S270336, .i32⟩ : BufTy).Contents (Elt F)),
    ternary main_v139 main_v141 main_v112 main_v142 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v142 main_v143 (broadcastInDim S270336x1 ![0] bcast_S270336_S270336x1_0 : (⟨S270336, .i32⟩ : BufTy).Contents (Elt F) → (⟨S270336x1, .i32⟩ : BufTy).Contents (Elt F)),
    binary main_v110 main_v143 main_v144 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v137 main_v145 (broadcastInDim S270336x32 ![0, 1] bcast_S270336x1_S270336x32_0_1 : (⟨S270336x1, .f32⟩ : BufTy).Contents (Elt F) → (⟨S270336x32, .f32⟩ : BufTy).Contents (Elt F)) ]

/-- The operations of @main's block 3, in order. -/
abbrev ops3 : List (HloOp τ sig (Elt F)) :=
  [ binary main_v144 main_v145 main_v146 (mulf : (⟨S270336x32, .f32⟩ : BufTy).Contents (Elt F) → (⟨S270336x32, .f32⟩ : BufTy).Contents (Elt F) → (⟨S270336x32, .f32⟩ : BufTy).Contents (Elt F)),
    nullary main_cst_32 (constant S_ .f32 0x00000000#32),
    unary main_cst_32 main_v147 (broadcastInDim S8192x32 ![] bcast_S_S8192x32 : (⟨S_, .f32⟩ : BufTy).Contents (Elt F) → (⟨S8192x32, .f32⟩ : BufTy).Contents (Elt F)),
    unary main_v113 main_v148 (broadcastInDim S270336x1 ![0] bcast_S270336_S270336x1_0 : (⟨S270336, .i32⟩ : BufTy).Contents (Elt F) → (⟨S270336x1, .i32⟩ : BufTy).Contents (Elt F)),
    ternary main_v147 main_v148 main_v146 main_v149 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg13 main_v150 (broadcastInDim S1x32 ![1] bcast_S32_S1x32_1 : (⟨S32, .f32⟩ : BufTy).Contents (Elt F) → (⟨S1x32, .f32⟩ : BufTy).Contents (Elt F)),
    unary main_v150 main_v151 (broadcastInDim S8192x32 ![0, 1] bcast_S1x32_S8192x32_0_1 : (⟨S1x32, .f32⟩ : BufTy).Contents (Elt F) → (⟨S8192x32, .f32⟩ : BufTy).Contents (Elt F)),
    binary main_v149 main_v151 main_v152 (addf : (⟨S8192x32, .f32⟩ : BufTy).Contents (Elt F) → (⟨S8192x32, .f32⟩ : BufTy).Contents (Elt F) → (⟨S8192x32, .f32⟩ : BufTy).Contents (Elt F)),
    unary main_v152 main_v153 (Host.tanh : (⟨S8192x32, .f32⟩ : BufTy).Contents (Elt F) → (⟨S8192x32, .f32⟩ : BufTy).Contents (Elt F)),
    unary main_arg14 main_v154 ((transpose S32x32 [1, 0] · transposes_S32x32_S32x32_1_0) : (⟨S32x32, .f32⟩ : BufTy).Contents (Elt F) → (⟨S32x32, .f32⟩ : BufTy).Contents (Elt F)),
    binary main_v153 main_v154 main_v155 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_v156 (iotaInDim S8192 32 0),
    binary main_v1 main_v156 main_v157 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v156 main_v158 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_33 (constant S_ .f32 0x3F800000#32),
    unary main_cst_33 main_v159 (broadcastInDim S270336 ![] bcast_S_S270336 : (⟨S_, .f32⟩ : BufTy).Contents (Elt F) → (⟨S270336, .f32⟩ : BufTy).Contents (Elt F)),
    nullary main_cst_34 (constant S_ .f32 0x00000000#32),
    unary main_cst_34 main_v160 (broadcastInDim S8192 ![] bcast_S_S8192 : (⟨S_, .f32⟩ : BufTy).Contents (Elt F) → (⟨S8192, .f32⟩ : BufTy).Contents (Elt F)),
    unary main_v158 main_v161 (broadcastInDim S270336x1 ![0] bcast_S270336_S270336x1_0 : (⟨S270336, .i32⟩ : BufTy).Contents (Elt F) → (⟨S270336x1, .i32⟩ : BufTy).Contents (Elt F)),
    ternary main_v160 main_v161 main_v159 main_v162 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_35 (constant S_ .f32 0x00000000#32),
    unary main_cst_35 main_v163 (broadcastInDim S8192 ![] bcast_S_S8192 : (⟨S_, .f32⟩ : BufTy).Contents (Elt F) → (⟨S8192, .f32⟩ : BufTy).Contents (Elt F)),
    binary main_v162 main_v163 main_v164 (cmpf .ogt : (⟨S8192, .f32⟩ : BufTy).Contents (Elt F) → (⟨S8192, .f32⟩ : BufTy).Contents (Elt F) → (⟨S8192, .i1⟩ : BufTy).Contents (Elt F)),
    unary main_v162 main_v165 (Host.rsqrt : (⟨S8192, .f32⟩ : BufTy).Contents (Elt F) → (⟨S8192, .f32⟩ : BufTy).Contents (Elt F)),
    nullary main_cst_36 (constant S_ .f32 0x00000000#32),
    TRef.unary (TRef.of (T := ⟨S_, .f32⟩) main_cst_36) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v164) (TRef.of (T := ⟨S8192, .f32⟩) main_v165) (TRef.of (T := ⟨S8192, .f32⟩) main_call4_v1) (TRef.of (T := ⟨S8192, .f32⟩) main_v166) select,
    nullary main_c_37 (constantI S_ 32 0#32),
    unary main_c_37 main_v167 (broadcastInDim S270336 ![] bcast_S_S270336 : (⟨S_, .i32⟩ : BufTy).Contents (Elt F) → (⟨S270336, .i32⟩ : BufTy).Contents (Elt F)),
    binary main_v157 main_v167 main_v168 (cmpi .slt : (⟨S270336, .i32⟩ : BufTy).Contents (Elt F) → (⟨S270336, .i32⟩ : BufTy).Contents (Elt F) → (⟨S270336, .i1⟩ : BufTy).Contents (Elt F)),
    nullary main_c_38 (constantI S_ 32 8192#32),
    unary main_c_38 main_v169 (broadcastInDim S270336 ![] bcast_S_S270336 : (⟨S_, .i32⟩ : BufTy).Contents (Elt F) → (⟨S270336, .i32⟩ : BufTy).Contents (Elt F)),
    binary main_v157 main_v169 main_v170 (addi : (⟨S270336, .i32⟩ : BufTy).Contents (Elt F) → (⟨S270336, .i32⟩ : BufTy).Contents (Elt F) → (⟨S270336, .i32⟩ : BufTy).Contents (Elt F)),
    ternary main_v168 main_v170 main_v157 main_v171 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v171 main_v172 (broadcastInDim S270336x1 ![0] bcast_S270336_S270336x1_0 : (⟨S270336, .i32⟩ : BufTy).Contents (Elt F) → (⟨S270336x1, .i32⟩ : BufTy).Contents (Elt F)),
    binary main_v166 main_v172 main_v173 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_39 (constantI S_ 32 0#32),
    unary main_c_39 main_v174 (broadcastInDim S270336 ![] bcast_S_S270336 : (⟨S_, .i32⟩ : BufTy).Contents (Elt F) → (⟨S270336, .i32⟩ : BufTy).Contents (Elt F)),
    binary main_v158 main_v174 main_v175 (cmpi .slt : (⟨S270336, .i32⟩ : BufTy).Contents (Elt F) → (⟨S270336, .i32⟩ : BufTy).Contents (Elt F) → (⟨S270336, .i1⟩ : BufTy).Contents (Elt F)),
    nullary main_c_40 (constantI S_ 32 8192#32),
    unary main_c_40 main_v176 (broadcastInDim S270336 ![] bcast_S_S270336 : (⟨S_, .i32⟩ : BufTy).Contents (Elt F) → (⟨S270336, .i32⟩ : BufTy).Contents (Elt F)),
    binary main_v158 main_v176 main_v177 (addi : (⟨S270336, .i32⟩ : BufTy).Contents (Elt F) → (⟨S270336, .i32⟩ : BufTy).Contents (Elt F) → (⟨S270336, .i32⟩ : BufTy).Contents (Elt F)),
    ternary main_v175 main_v177 main_v158 main_v178 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v178 main_v179 (broadcastInDim S270336x1 ![0] bcast_S270336_S270336x1_0 : (⟨S270336, .i32⟩ : BufTy).Contents (Elt F) → (⟨S270336x1, .i32⟩ : BufTy).Contents (Elt F)),
    binary main_v166 main_v179 main_v180 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v173 main_v180 main_v181 (mulf : (⟨S270336, .f32⟩ : BufTy).Contents (Elt F) → (⟨S270336, .f32⟩ : BufTy).Contents (Elt F) → (⟨S270336, .f32⟩ : BufTy).Contents (Elt F)),
    unary main_v181 main_v182 (broadcastInDim S270336x1 ![0] bcast_S270336_S270336x1_0 : (⟨S270336, .f32⟩ : BufTy).Contents (Elt F) → (⟨S270336x1, .f32⟩ : BufTy).Contents (Elt F)),
    nullary main_c_41 (constantI S_ 32 0#32),
    unary main_c_41 main_v183 (broadcastInDim S270336 ![] bcast_S_S270336 : (⟨S_, .i32⟩ : BufTy).Contents (Elt F) → (⟨S270336, .i32⟩ : BufTy).Contents (Elt F)),
    binary main_v157 main_v183 main_v184 (cmpi .slt : (⟨S270336, .i32⟩ : BufTy).Contents (Elt F) → (⟨S270336, .i32⟩ : BufTy).Contents (Elt F) → (⟨S270336, .i1⟩ : BufTy).Contents (Elt F)),
    nullary main_c_42 (constantI S_ 32 8192#32),
    unary main_c_42 main_v185 (broadcastInDim S270336 ![] bcast_S_S270336 : (⟨S_, .i32⟩ : BufTy).Contents (Elt F) → (⟨S270336, .i32⟩ : BufTy).Contents (Elt F)),
    binary main_v157 main_v185 main_v186 (addi : (⟨S270336, .i32⟩ : BufTy).Contents (Elt F) → (⟨S270336, .i32⟩ : BufTy).Contents (Elt F) → (⟨S270336, .i32⟩ : BufTy).Contents (Elt F)),
    ternary main_v184 main_v186 main_v157 main_v187 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v187 main_v188 (broadcastInDim S270336x1 ![0] bcast_S270336_S270336x1_0 : (⟨S270336, .i32⟩ : BufTy).Contents (Elt F) → (⟨S270336x1, .i32⟩ : BufTy).Contents (Elt F)),
    binary main_v155 main_v188 main_v189 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v182 main_v190 (broadcastInDim S270336x32 ![0, 1] bcast_S270336x1_S270336x32_0_1 : (⟨S270336x1, .f32⟩ : BufTy).Contents (Elt F) → (⟨S270336x32, .f32⟩ : BufTy).Contents (Elt F)),
    binary main_v189 main_v190 main_v191 (mulf : (⟨S270336x32, .f32⟩ : BufTy).Contents (Elt F) → (⟨S270336x32, .f32⟩ : BufTy).Contents (Elt F) → (⟨S270336x32, .f32⟩ : BufTy).Contents (Elt F)),
    nullary main_cst_43 (constant S_ .f32 0x00000000#32),
    unary main_cst_43 main_v192 (broadcastInDim S8192x32 ![] bcast_S_S8192x32 : (⟨S_, .f32⟩ : BufTy).Contents (Elt F) → (⟨S8192x32, .f32⟩ : BufTy).Contents (Elt F)),
    unary main_v158 main_v193 (broadcastInDim S270336x1 ![0] bcast_S270336_S270336x1_0 : (⟨S270336, .i32⟩ : BufTy).Contents (Elt F) → (⟨S270336x1, .i32⟩ : BufTy).Contents (Elt F)) ]

/-- The operations of @main's block 4, in order. -/
abbrev ops4 : List (HloOp τ sig (Elt F)) :=
  [ ternary main_v192 main_v193 main_v191 main_v194 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg15 main_v195 (broadcastInDim S1x32 ![1] bcast_S32_S1x32_1 : (⟨S32, .f32⟩ : BufTy).Contents (Elt F) → (⟨S1x32, .f32⟩ : BufTy).Contents (Elt F)),
    unary main_v195 main_v196 (broadcastInDim S8192x32 ![0, 1] bcast_S1x32_S8192x32_0_1 : (⟨S1x32, .f32⟩ : BufTy).Contents (Elt F) → (⟨S8192x32, .f32⟩ : BufTy).Contents (Elt F)),
    binary main_v194 main_v196 main_v197 (addf : (⟨S8192x32, .f32⟩ : BufTy).Contents (Elt F) → (⟨S8192x32, .f32⟩ : BufTy).Contents (Elt F) → (⟨S8192x32, .f32⟩ : BufTy).Contents (Elt F)),
    unary main_v197 main_v198 (Host.tanh : (⟨S8192x32, .f32⟩ : BufTy).Contents (Elt F) → (⟨S8192x32, .f32⟩ : BufTy).Contents (Elt F)),
    unary main_arg16 main_v199 ((transpose S32x32 [1, 0] · transposes_S32x32_S32x32_1_0) : (⟨S32x32, .f32⟩ : BufTy).Contents (Elt F) → (⟨S32x32, .f32⟩ : BufTy).Contents (Elt F)),
    binary main_v198 main_v199 main_v200 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg17 main_v201 (broadcastInDim S1x32 ![1] bcast_S32_S1x32_1 : (⟨S32, .f32⟩ : BufTy).Contents (Elt F) → (⟨S1x32, .f32⟩ : BufTy).Contents (Elt F)),
    unary main_v201 main_v202 (broadcastInDim S8192x32 ![0, 1] bcast_S1x32_S8192x32_0_1 : (⟨S1x32, .f32⟩ : BufTy).Contents (Elt F) → (⟨S8192x32, .f32⟩ : BufTy).Contents (Elt F)),
    binary main_v200 main_v202 main_v203 (addf : (⟨S8192x32, .f32⟩ : BufTy).Contents (Elt F) → (⟨S8192x32, .f32⟩ : BufTy).Contents (Elt F) → (⟨S8192x32, .f32⟩ : BufTy).Contents (Elt F)),
    unary main_v203 main_v204 (Host.tanh : (⟨S8192x32, .f32⟩ : BufTy).Contents (Elt F) → (⟨S8192x32, .f32⟩ : BufTy).Contents (Elt F)),
    nullary main_cst_44 (constant S_ .f32 0x00000000#32),
    binary main_v204 main_cst_44 main_v205 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    unary main_v205 main_v206 (broadcastInDim S1x32 ![1] bcast_S32_S1x32_1 : (⟨S32, .f32⟩ : BufTy).Contents (Elt F) → (⟨S1x32, .f32⟩ : BufTy).Contents (Elt F)),
    unary main_arg18 main_v207 ((transpose S32x1 [1, 0] · transposes_S1x32_S32x1_1_0) : (⟨S1x32, .f32⟩ : BufTy).Contents (Elt F) → (⟨S32x1, .f32⟩ : BufTy).Contents (Elt F)),
    binary main_v206 main_v207 main_v208 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)),
    unary main_arg19 main_v209 (broadcastInDim S1x1 ![1] bcast_S1_S1x1_1 : (⟨S1, .f32⟩ : BufTy).Contents (Elt F) → (⟨S1x1, .f32⟩ : BufTy).Contents (Elt F)),
    binary main_v208 main_v209 main_v210 (addf : (⟨S1x1, .f32⟩ : BufTy).Contents (Elt F) → (⟨S1x1, .f32⟩ : BufTy).Contents (Elt F) → (⟨S1x1, .f32⟩ : BufTy).Contents (Elt F)),
    reshape main_v210 main_v211 rfl shapeCasts_S1x1_S1 ]

/-- The whole line is the five blocks' lines one after the other. -/
theorem ops_split : (ops : List (HloOp τ sig (Elt F))) = ops0 ++ (ops1 ++ (ops2 ++ (ops3 ++ ops4))) := rfl

set_option maxRecDepth 8192 in
set_option maxHeartbeats 4000000 in
theorem part0_eq (d : Dev nD) : main_part0 (F := F) d = seq ops0 := rfl
set_option maxRecDepth 8192 in
set_option maxHeartbeats 4000000 in
theorem part1_eq (d : Dev nD) : main_part1 (F := F) d = seq ops1 := rfl
set_option maxRecDepth 8192 in
set_option maxHeartbeats 4000000 in
theorem part2_eq (d : Dev nD) : main_part2 (F := F) d = seq ops2 := rfl
set_option maxRecDepth 8192 in
set_option maxHeartbeats 4000000 in
theorem part3_eq (d : Dev nD) : main_part3 (F := F) d = seq ops3 := rfl
set_option maxRecDepth 8192 in
set_option maxHeartbeats 4000000 in
theorem part4_eq (d : Dev nD) : main_part4 (F := F) d = seq ops4 := rfl

/-- @main is the line of its operations. -/
theorem main_eq (c : Dev nD) : main (F := F) c = seq ops := by
  rw [ops_split, seq_append, seq_append, seq_append, seq_append,
    ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., binary_bufs_sub .., unary_bufs_sub .., unary_bufs_sub .., binary_bufs_sub .., unary_bufs_sub .., binary_bufs_sub .., reshape_bufs_sub .., nullary_bufs_sub .., unary_bufs_sub .., ternary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., reshape_bufs_sub ..⟩

/-- On every device, for any float values, from any memory with zero counters: every weakly fair execution of
    @main terminates with each buffer of each core at the fold of the operations' results over its launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.R_rRows.lean ====
/-
  The two rows of the edge list in the reference: the sources and the targets of the 262144 edges, each cut out of
  the 2 x 262144 index array and recast as a vector.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rRows : List (HloOp τ sig (Elt F)) :=
  [ unary main_arg2 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg2 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144 ]

/-- The buffers the stretch writes. -/
abbrev rRows_W : List (Ref sig .tc) := [main_v0, main_v1, main_v2, main_v3]

theorem rRows_writes : (rRows : List (HloOp τ sig (Elt F))).Forall fun op => op.writes ⊆ (rRows_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rRows_keep (W : Valuation τ sig (Elt F)) (r : Ref sig .tc) (h : r ∉ rRows_W) :
    after rRows W (Proc.devRef .tc r) = W (Proc.devRef .tc r) :=
  after_of_writes_sub rRows _ rRows_writes h

/-- The sources. -/
theorem rRows_v1 (W : Valuation τ sig (Elt F)) :
    after rRows W (Proc.devRef .tc main_v1) = Spec.row0 (W (Proc.devRef .tc main_arg2)) := by
  after_results_simp
  rfl

/-- The targets. -/
theorem rRows_v3 (W : Valuation τ sig (Elt F)) :
    after rRows W (Proc.devRef .tc main_v3) = Spec.row1 (W (Proc.devRef .tc main_arg2)) := by
  after_results_simp
  rfl

end Cert.ReferenceIdeal.Host

end
-- ==== Proof.R_rP1.lean ====
/-
  The first graph convolution of the reference's policy net, read off its host operations.

  From any contents W of the buffers: the linear map of the incoming features, the self loops appended to the edges'
  sources and targets, the degrees and the edge weights computed afresh, the features gathered along the sources,
  weighted, scatter-added at the targets, then the bias and the tanh: the specification's `conv` of what W holds.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rP1 : List (HloOp τ sig (Elt F)) :=
  [ unary main_arg4 main_v4 ((transpose S128x32 [1, 0] · transposes_S32x128_S128x32_1_0) : (⟨S32x128, .f32⟩ : BufTy).Contents (Elt F) → (⟨S128x32, .f32⟩ : BufTy).Contents (Elt F)),
    binary main_arg0 main_v4 main_v5 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    nullary main_v6 (iotaInDim S8192 32 0),
    binary main_v1 main_v6 main_v7 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v6 main_v8 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst (constant S_ .f32 0x3F800000#32),
    unary main_cst main_v9 (broadcastInDim S270336 ![] bcast_S_S270336 : (⟨S_, .f32⟩ : BufTy).Contents (Elt F) → (⟨S270336, .f32⟩ : BufTy).Contents (Elt F)),
    nullary main_cst_0 (constant S_ .f32 0x00000000#32),
    unary main_cst_0 main_v10 (broadcastInDim S8192 ![] bcast_S_S8192 : (⟨S_, .f32⟩ : BufTy).Contents (Elt F) → (⟨S8192, .f32⟩ : BufTy).Contents (Elt F)),
    unary main_v8 main_v11 (broadcastInDim S270336x1 ![0] bcast_S270336_S270336x1_0 : (⟨S270336, .i32⟩ : BufTy).Contents (Elt F) → (⟨S270336x1, .i32⟩ : BufTy).Contents (Elt F)),
    ternary main_v10 main_v11 main_v9 main_v12 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_1 (constant S_ .f32 0x00000000#32),
    unary main_cst_1 main_v13 (broadcastInDim S8192 ![] bcast_S_S8192 : (⟨S_, .f32⟩ : BufTy).Contents (Elt F) → (⟨S8192, .f32⟩ : BufTy).Contents (Elt F)),
    binary main_v12 main_v13 main_v14 (cmpf .ogt : (⟨S8192, .f32⟩ : BufTy).Contents (Elt F) → (⟨S8192, .f32⟩ : BufTy).Contents (Elt F) → (⟨S8192, .i1⟩ : BufTy).Contents (Elt F)),
    unary main_v12 main_v15 (Host.rsqrt : (⟨S8192, .f32⟩ : BufTy).Contents (Elt F) → (⟨S8192, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v14) (TRef.of (T := ⟨S8192, .f32⟩) main_v15) (TRef.of (T := ⟨S8192, .f32⟩) main_call0_v1) (TRef.of (T := ⟨S8192, .f32⟩) main_v16) select,
    nullary main_c (constantI S_ 32 0#32),
    unary main_c main_v17 (broadcastInDim S270336 ![] bcast_S_S270336 : (⟨S_, .i32⟩ : BufTy).Contents (Elt F) → (⟨S270336, .i32⟩ : BufTy).Contents (Elt F)),
    binary main_v7 main_v17 main_v18 (cmpi .slt : (⟨S270336, .i32⟩ : BufTy).Contents (Elt F) → (⟨S270336, .i32⟩ : BufTy).Contents (Elt F) → (⟨S270336, .i1⟩ : BufTy).Contents (Elt F)),
    nullary main_c_3 (constantI S_ 32 8192#32),
    unary main_c_3 main_v19 (broadcastInDim S270336 ![] bcast_S_S270336 : (⟨S_, .i32⟩ : BufTy).Contents (Elt F) → (⟨S270336, .i32⟩ : BufTy).Contents (Elt F)),
    binary main_v7 main_v19 main_v20 (addi : (⟨S270336, .i32⟩ : BufTy).Contents (Elt F) → (⟨S270336, .i32⟩ : BufTy).Contents (Elt F) → (⟨S270336, .i32⟩ : BufTy).Contents (Elt F)),
    ternary main_v18 main_v20 main_v7 main_v21 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v21 main_v22 (broadcastInDim S270336x1 ![0] bcast_S270336_S270336x1_0 : (⟨S270336, .i32⟩ : BufTy).Contents (Elt F) → (⟨S270336x1, .i32⟩ : BufTy).Contents (Elt F)),
    binary main_v16 main_v22 main_v23 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_4 (constantI S_ 32 0#32),
    unary main_c_4 main_v24 (broadcastInDim S270336 ![] bcast_S_S270336 : (⟨S_, .i32⟩ : BufTy).Contents (Elt F) → (⟨S270336, .i32⟩ : BufTy).Contents (Elt F)),
    binary main_v8 main_v24 main_v25 (cmpi .slt : (⟨S270336, .i32⟩ : BufTy).Contents (Elt F) → (⟨S270336, .i32⟩ : BufTy).Contents (Elt F) → (⟨S270336, .i1⟩ : BufTy).Contents (Elt F)),
    nullary main_c_5 (constantI S_ 32 8192#32),
    unary main_c_5 main_v26 (broadcastInDim S270336 ![] bcast_S_S270336 : (⟨S_, .i32⟩ : BufTy).Contents (Elt F) → (⟨S270336, .i32⟩ : BufTy).Contents (Elt F)),
    binary main_v8 main_v26 main_v27 (addi : (⟨S270336, .i32⟩ : BufTy).Contents (Elt F) → (⟨S270336, .i32⟩ : BufTy).Contents (Elt F) → (⟨S270336, .i32⟩ : BufTy).Contents (Elt F)),
    ternary main_v25 main_v27 main_v8 main_v28 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v28 main_v29 (broadcastInDim S270336x1 ![0] bcast_S270336_S270336x1_0 : (⟨S270336, .i32⟩ : BufTy).Contents (Elt F) → (⟨S270336x1, .i32⟩ : BufTy).Contents (Elt F)),
    binary main_v16 main_v29 main_v30 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v23 main_v30 main_v31 (mulf : (⟨S270336, .f32⟩ : BufTy).Contents (Elt F) → (⟨S270336, .f32⟩ : BufTy).Contents (Elt F) → (⟨S270336, .f32⟩ : BufTy).Contents (Elt F)),
    unary main_v31 main_v32 (broadcastInDim S270336x1 ![0] bcast_S270336_S270336x1_0 : (⟨S270336, .f32⟩ : BufTy).Contents (Elt F) → (⟨S270336x1, .f32⟩ : BufTy).Contents (Elt F)),
    nullary main_c_6 (constantI S_ 32 0#32),
    unary main_c_6 main_v33 (broadcastInDim S270336 ![] bcast_S_S270336 : (⟨S_, .i32⟩ : BufTy).Contents (Elt F) → (⟨S270336, .i32⟩ : BufTy).Contents (Elt F)),
    binary main_v7 main_v33 main_v34 (cmpi .slt : (⟨S270336, .i32⟩ : BufTy).Contents (Elt F) → (⟨S270336, .i32⟩ : BufTy).Contents (Elt F) → (⟨S270336, .i1⟩ : BufTy).Contents (Elt F)),
    nullary main_c_7 (constantI S_ 32 8192#32),
    unary main_c_7 main_v35 (broadcastInDim S270336 ![] bcast_S_S270336 : (⟨S_, .i32⟩ : BufTy).Contents (Elt F) → (⟨S270336, .i32⟩ : BufTy).Contents (Elt F)),
    binary main_v7 main_v35 main_v36 (addi : (⟨S270336, .i32⟩ : BufTy).Contents (Elt F) → (⟨S270336, .i32⟩ : BufTy).Contents (Elt F) → (⟨S270336, .i32⟩ : BufTy).Contents (Elt F)),
    ternary main_v34 main_v36 main_v7 main_v37 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v37 main_v38 (broadcastInDim S270336x1 ![0] bcast_S270336_S270336x1_0 : (⟨S270336, .i32⟩ : BufTy).Contents (Elt F) → (⟨S270336x1, .i32⟩ : BufTy).Contents (Elt F)),
    binary main_v5 main_v38 main_v39 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v32 main_v40 (broadcastInDim S270336x32 ![0, 1] bcast_S270336x1_S270336x32_0_1 : (⟨S270336x1, .f32⟩ : BufTy).Contents (Elt F) → (⟨S270336x32, .f32⟩ : BufTy).Contents (Elt F)),
    binary main_v39 main_v40 main_v41 (mulf : (⟨S270336x32, .f32⟩ : BufTy).Contents (Elt F) → (⟨S270336x32, .f32⟩ : BufTy).Contents (Elt F) → (⟨S270336x32, .f32⟩ : BufTy).Contents (Elt F)),
    nullary main_cst_8 (constant S_ .f32 0x00000000#32),
    unary main_cst_8 main_v42 (broadcastInDim S8192x32 ![] bcast_S_S8192x32 : (⟨S_, .f32⟩ : BufTy).Contents (Elt F) → (⟨S8192x32, .f32⟩ : BufTy).Contents (Elt F)),
    unary main_v8 main_v43 (broadcastInDim S270336x1 ![0] bcast_S270336_S270336x1_0 : (⟨S270336, .i32⟩ : BufTy).Contents (Elt F) → (⟨S270336x1, .i32⟩ : BufTy).Contents (Elt F)),
    ternary main_v42 main_v43 main_v41 main_v44 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg5 main_v45 (broadcastInDim S1x32 ![1] bcast_S32_S1x32_1 : (⟨S32, .f32⟩ : BufTy).Contents (Elt F) → (⟨S1x32, .f32⟩ : BufTy).Contents (Elt F)),
    unary main_v45 main_v46 (broadcastInDim S8192x32 ![0, 1] bcast_S1x32_S8192x32_0_1 : (⟨S1x32, .f32⟩ : BufTy).Contents (Elt F) → (⟨S8192x32, .f32⟩ : BufTy).Contents (Elt F)),
    binary main_v44 main_v46 main_v47 (addf : (⟨S8192x32, .f32⟩ : BufTy).Contents (Elt F) → (⟨S8192x32, .f32⟩ : BufTy).Contents (Elt F) → (⟨S8192x32, .f32⟩ : BufTy).Contents (Elt F)),
    unary main_v47 main_v48 (Host.tanh : (⟨S8192x32, .f32⟩ : BufTy).Contents (Elt F) → (⟨S8192x32, .f32⟩ : BufTy).Contents (Elt F)) ]

/-- The buffers the stretch writes. -/
abbrev rP1_W : List (Ref sig .tc) := [main_v4, main_v5, main_v6, main_v7, main_v8, main_cst, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_c_4, main_v24, main_v25, main_c_5, main_v26, main_v27, main_v28, main_v29, main_v30, main_v31, main_v32, main_c_6, main_v33, main_v34, main_c_7, main_v35, main_v36, main_v37, main_v38, main_v39, main_v40, main_v41, main_cst_8, main_v42, main_v43, main_v44, main_v45, main_v46, main_v47, main_v48]

theorem rP1_writes : (rP1 : List (HloOp τ sig (Elt F))).Forall fun op => op.writes ⊆ (rP1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rP1_keep (W : Valuation τ sig (Elt F)) (r : Ref sig .tc) (h : r ∉ rP1_W) :
    after rP1 W (Proc.devRef .tc r) = W (Proc.devRef .tc r) :=
  after_of_writes_sub rP1 _ rP1_writes h

/-- The policy features after the first convolution. -/
theorem rP1_v48 (W : Valuation τ sig (Elt F)) :
    after rP1 W (Proc.devRef .tc main_v48) = Spec.conv (Spec.loops (W (Proc.devRef .tc main_v1))) (Spec.loops (W (Proc.devRef .tc main_v3))) (Spec.xw128 (W (Proc.devRef .tc main_arg0)) (W (Proc.devRef .tc main_arg4))) (W (Proc.devRef .tc main_arg5)) := by
  after_results_simp
  simp only [Cert.LibTypedRef.ofBuf_toBuf]
  rfl

end Cert.ReferenceIdeal.Host

end
-- ==== Proof.R_rP2.lean ====
/-
  The second graph convolution of the reference's policy net, read off its host operations.

  From any contents W of the buffers: the linear map of the incoming features, the self loops appended to the edges'
  sources and targets, the degrees and the edge weights computed afresh, the features gathered along the sources,
  weighted, scatter-added at the targets, then the bias and the tanh: the specification's `conv` of what W holds.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rP2 : List (HloOp τ sig (Elt F)) :=
  [ unary main_arg6 main_v49 ((transpose S32x32 [1, 0] · transposes_S32x32_S32x32_1_0) : (⟨S32x32, .f32⟩ : BufTy).Contents (Elt F) → (⟨S32x32, .f32⟩ : BufTy).Contents (Elt F)),
    binary main_v48 main_v49 main_v50 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_v51 (iotaInDim S8192 32 0),
    binary main_v1 main_v51 main_v52 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v51 main_v53 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_9 (constant S_ .f32 0x3F800000#32),
    unary main_cst_9 main_v54 (broadcastInDim S270336 ![] bcast_S_S270336 : (⟨S_, .f32⟩ : BufTy).Contents (Elt F) → (⟨S270336, .f32⟩ : BufTy).Contents (Elt F)),
    nullary main_cst_10 (constant S_ .f32 0x00000000#32),
    unary main_cst_10 main_v55 (broadcastInDim S8192 ![] bcast_S_S8192 : (⟨S_, .f32⟩ : BufTy).Contents (Elt F) → (⟨S8192, .f32⟩ : BufTy).Contents (Elt F)),
    unary main_v53 main_v56 (broadcastInDim S270336x1 ![0] bcast_S270336_S270336x1_0 : (⟨S270336, .i32⟩ : BufTy).Contents (Elt F) → (⟨S270336x1, .i32⟩ : BufTy).Contents (Elt F)),
    ternary main_v55 main_v56 main_v54 main_v57 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_11 (constant S_ .f32 0x00000000#32),
    unary main_cst_11 main_v58 (broadcastInDim S8192 ![] bcast_S_S8192 : (⟨S_, .f32⟩ : BufTy).Contents (Elt F) → (⟨S8192, .f32⟩ : BufTy).Contents (Elt F)),
    binary main_v57 main_v58 main_v59 (cmpf .ogt : (⟨S8192, .f32⟩ : BufTy).Contents (Elt F) → (⟨S8192, .f32⟩ : BufTy).Contents (Elt F) → (⟨S8192, .i1⟩ : BufTy).Contents (Elt F)),
    unary main_v57 main_v60 (Host.rsqrt : (⟨S8192, .f32⟩ : BufTy).Contents (Elt F) → (⟨S8192, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S8192, .f32⟩) main_call1_v1) (broadcastInDim S8192 ![] bcast_S_S8192),
    TRef.ternary (TRef.of (T := ⟨S8192, .i1⟩) main_v59) (TRef.of (T := ⟨S8192, .f32⟩) main_v60) (TRef.of (T := ⟨S8192, .f32⟩) main_call1_v1) (TRef.of (T := ⟨S8192, .f32⟩) main_v61) select,
    nullary main_c_13 (constantI S_ 32 0#32),
    unary main_c_13 main_v62 (broadcastInDim S270336 ![] bcast_S_S270336 : (⟨S_, .i32⟩ : BufTy).Contents (Elt F) → (⟨S270336, .i32⟩ : BufTy).Contents (Elt F)),
    binary main_v52 main_v62 main_v63 (cmpi .slt : (⟨S270336, .i32⟩ : BufTy).Contents (Elt F) → (⟨S270336, .i32⟩ : BufTy).Contents (Elt F) → (⟨S270336, .i1⟩ : BufTy).Contents (Elt F)),
    nullary main_c_14 (constantI S_ 32 8192#32),
    unary main_c_14 main_v64 (broadcastInDim S270336 ![] bcast_S_S270336 : (⟨S_, .i32⟩ : BufTy).Contents (Elt F) → (⟨S270336, .i32⟩ : BufTy).Contents (Elt F)),
    binary main_v52 main_v64 main_v65 (addi : (⟨S270336, .i32⟩ : BufTy).Contents (Elt F) → (⟨S270336, .i32⟩ : BufTy).Contents (Elt F) → (⟨S270336, .i32⟩ : BufTy).Contents (Elt F)),
    ternary main_v63 main_v65 main_v52 main_v66 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v66 main_v67 (broadcastInDim S270336x1 ![0] bcast_S270336_S270336x1_0 : (⟨S270336, .i32⟩ : BufTy).Contents (Elt F) → (⟨S270336x1, .i32⟩ : BufTy).Contents (Elt F)),
    binary main_v61 main_v67 main_v68 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_15 (constantI S_ 32 0#32),
    unary main_c_15 main_v69 (broadcastInDim S270336 ![] bcast_S_S270336 : (⟨S_, .i32⟩ : BufTy).Contents (Elt F) → (⟨S270336, .i32⟩ : BufTy).Contents (Elt F)),
    binary main_v53 main_v69 main_v70 (cmpi .slt : (⟨S270336, .i32⟩ : BufTy).Contents (Elt F) → (⟨S270336, .i32⟩ : BufTy).Contents (Elt F) → (⟨S270336, .i1⟩ : BufTy).Contents (Elt F)),
    nullary main_c_16 (constantI S_ 32 8192#32),
    unary main_c_16 main_v71 (broadcastInDim S270336 ![] bcast_S_S270336 : (⟨S_, .i32⟩ : BufTy).Contents (Elt F) → (⟨S270336, .i32⟩ : BufTy).Contents (Elt F)),
    binary main_v53 main_v71 main_v72 (addi : (⟨S270336, .i32⟩ : BufTy).Contents (Elt F) → (⟨S270336, .i32⟩ : BufTy).Contents (Elt F) → (⟨S270336, .i32⟩ : BufTy).Contents (Elt F)),
    ternary main_v70 main_v72 main_v53 main_v73 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v73 main_v74 (broadcastInDim S270336x1 ![0] bcast_S270336_S270336x1_0 : (⟨S270336, .i32⟩ : BufTy).Contents (Elt F) → (⟨S270336x1, .i32⟩ : BufTy).Contents (Elt F)),
    binary main_v61 main_v74 main_v75 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v68 main_v75 main_v76 (mulf : (⟨S270336, .f32⟩ : BufTy).Contents (Elt F) → (⟨S270336, .f32⟩ : BufTy).Contents (Elt F) → (⟨S270336, .f32⟩ : BufTy).Contents (Elt F)),
    unary main_v76 main_v77 (broadcastInDim S270336x1 ![0] bcast_S270336_S270336x1_0 : (⟨S270336, .f32⟩ : BufTy).Contents (Elt F) → (⟨S270336x1, .f32⟩ : BufTy).Contents (Elt F)),
    nullary main_c_17 (constantI S_ 32 0#32),
    unary main_c_17 main_v78 (broadcastInDim S270336 ![] bcast_S_S270336 : (⟨S_, .i32⟩ : BufTy).Contents (Elt F) → (⟨S270336, .i32⟩ : BufTy).Contents (Elt F)),
    binary main_v52 main_v78 main_v79 (cmpi .slt : (⟨S270336, .i32⟩ : BufTy).Contents (Elt F) → (⟨S270336, .i32⟩ : BufTy).Contents (Elt F) → (⟨S270336, .i1⟩ : BufTy).Contents (Elt F)),
    nullary main_c_18 (constantI S_ 32 8192#32),
    unary main_c_18 main_v80 (broadcastInDim S270336 ![] bcast_S_S270336 : (⟨S_, .i32⟩ : BufTy).Contents (Elt F) → (⟨S270336, .i32⟩ : BufTy).Contents (Elt F)),
    binary main_v52 main_v80 main_v81 (addi : (⟨S270336, .i32⟩ : BufTy).Contents (Elt F) → (⟨S270336, .i32⟩ : BufTy).Contents (Elt F) → (⟨S270336, .i32⟩ : BufTy).Contents (Elt F)),
    ternary main_v79 main_v81 main_v52 main_v82 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v82 main_v83 (broadcastInDim S270336x1 ![0] bcast_S270336_S270336x1_0 : (⟨S270336, .i32⟩ : BufTy).Contents (Elt F) → (⟨S270336x1, .i32⟩ : BufTy).Contents (Elt F)),
    binary main_v50 main_v83 main_v84 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v77 main_v85 (broadcastInDim S270336x32 ![0, 1] bcast_S270336x1_S270336x32_0_1 : (⟨S270336x1, .f32⟩ : BufTy).Contents (Elt F) → (⟨S270336x32, .f32⟩ : BufTy).Contents (Elt F)),
    binary main_v84 main_v85 main_v86 (mulf : (⟨S270336x32, .f32⟩ : BufTy).Contents (Elt F) → (⟨S270336x32, .f32⟩ : BufTy).Contents (Elt F) → (⟨S270336x32, .f32⟩ : BufTy).Contents (Elt F)),
    nullary main_cst_19 (constant S_ .f32 0x00000000#32),
    unary main_cst_19 main_v87 (broadcastInDim S8192x32 ![] bcast_S_S8192x32 : (⟨S_, .f32⟩ : BufTy).Contents (Elt F) → (⟨S8192x32, .f32⟩ : BufTy).Contents (Elt F)),
    unary main_v53 main_v88 (broadcastInDim S270336x1 ![0] bcast_S270336_S270336x1_0 : (⟨S270336, .i32⟩ : BufTy).Contents (Elt F) → (⟨S270336x1, .i32⟩ : BufTy).Contents (Elt F)),
    ternary main_v87 main_v88 main_v86 main_v89 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg7 main_v90 (broadcastInDim S1x32 ![1] bcast_S32_S1x32_1 : (⟨S32, .f32⟩ : BufTy).Contents (Elt F) → (⟨S1x32, .f32⟩ : BufTy).Contents (Elt F)),
    unary main_v90 main_v91 (broadcastInDim S8192x32 ![0, 1] bcast_S1x32_S8192x32_0_1 : (⟨S1x32, .f32⟩ : BufTy).Contents (Elt F) → (⟨S8192x32, .f32⟩ : BufTy).Contents (Elt F)),
    binary main_v89 main_v91 main_v92 (addf : (⟨S8192x32, .f32⟩ : BufTy).Contents (Elt F) → (⟨S8192x32, .f32⟩ : BufTy).Contents (Elt F) → (⟨S8192x32, .f32⟩ : BufTy).Contents (Elt F)),
    unary main_v92 main_v93 (Host.tanh : (⟨S8192x32, .f32⟩ : BufTy).Contents (Elt F) → (⟨S8192x32, .f32⟩ : BufTy).Contents (Elt F)) ]

/-- The buffers the stretch writes. -/
abbrev rP2_W : List (Ref sig .tc) := [main_v49, main_v50, main_v51, main_v52, main_v53, main_cst_9, main_v54, main_cst_10, main_v55, main_v56, main_v57, main_cst_11, main_v58, main_v59, main_v60, main_cst_12, main_call1_v0, main_call1_v1, main_v61, main_c_13, main_v62, main_v63, main_c_14, main_v64, main_v65, main_v66, main_v67, main_v68, main_c_15, main_v69, main_v70, main_c_16, main_v71, main_v72, main_v73, main_v74, main_v75, main_v76, main_v77, main_c_17, main_v78, main_v79, main_c_18, main_v80, main_v81, main_v82, main_v83, main_v84, main_v85, main_v86, main_cst_19, main_v87, main_v88, main_v89, main_v90, main_v91, main_v92, main_v93]

theorem rP2_writes : (rP2 : List (HloOp τ sig (Elt F))).Forall fun op => op.writes ⊆ (rP2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rP2_keep (W : Valuation τ sig (Elt F)) (r : Ref sig .tc) (h : r ∉ rP2_W) :
    after rP2 W (Proc.devRef .tc r) = W (Proc.devRef .tc r) :=
  after_of_writes_sub rP2 _ rP2_writes h

/-- The policy features after the second convolution. -/
theorem rP2_v93 (W : Valuation τ sig (Elt F)) :
    after rP2 W (Proc.devRef .tc main_v93) = Spec.conv (Spec.loops (W (Proc.devRef .tc main_v1))) (Spec.loops (W (Proc.devRef .tc main_v3))) (Spec.xw32 (W (Proc.devRef .tc main_v48)) (W (Proc.devRef .tc main_arg6))) (W (Proc.devRef .tc main_arg7)) := by
  after_results_simp
  simp only [Cert.LibTypedRef.ofBuf_toBuf]
  rfl

end Cert.ReferenceIdeal.Host

end
-- ==== Proof.R_rPH.lean ====
/-
  The reference's policy head, read off its host operations: the head's linear layer, bias and tanh; each node's 32
  features summed into one row; that row times the transposed 8192 x 8192 matrix plus the bias; the row recast as a
  vector; and the mask applied with the sentinel -1e32.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rPH : List (HloOp τ sig (Elt F)) :=
  [ unary main_arg8 main_v94 ((transpose S32x32 [1, 0] · transposes_S32x32_S32x32_1_0) : (⟨S32x32, .f32⟩ : BufTy).Contents (Elt F) → (⟨S32x32, .f32⟩ : BufTy).Contents (Elt F)),
    binary main_v93 main_v94 main_v95 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg9 main_v96 (broadcastInDim S1x32 ![1] bcast_S32_S1x32_1 : (⟨S32, .f32⟩ : BufTy).Contents (Elt F) → (⟨S1x32, .f32⟩ : BufTy).Contents (Elt F)),
    unary main_v96 main_v97 (broadcastInDim S8192x32 ![0, 1] bcast_S1x32_S8192x32_0_1 : (⟨S1x32, .f32⟩ : BufTy).Contents (Elt F) → (⟨S8192x32, .f32⟩ : BufTy).Contents (Elt F)),
    binary main_v95 main_v97 main_v98 (addf : (⟨S8192x32, .f32⟩ : BufTy).Contents (Elt F) → (⟨S8192x32, .f32⟩ : BufTy).Contents (Elt F) → (⟨S8192x32, .f32⟩ : BufTy).Contents (Elt F)),
    unary main_v98 main_v99 (Host.tanh : (⟨S8192x32, .f32⟩ : BufTy).Contents (Elt F) → (⟨S8192x32, .f32⟩ : BufTy).Contents (Elt F)),
    unary main_v99 main_v100 ((transpose S32x8192 [1, 0] · transposes_S8192x32_S32x8192_1_0) : (⟨S8192x32, .f32⟩ : BufTy).Contents (Elt F) → (⟨S32x8192, .f32⟩ : BufTy).Contents (Elt F)),
    nullary main_cst_20 (constant S_ .f32 0x00000000#32),
    binary main_v100 main_cst_20 main_v101 ((fun x v => Host.reduceAdd x v reducesTo_S32x8192_S8192_d0 h_S_) : (⟨S32x8192, .f32⟩ : BufTy).Contents (Elt F) → (⟨S_, .f32⟩ : BufTy).Contents (Elt F) → (⟨S8192, .f32⟩ : BufTy).Contents (Elt F)),
    unary main_v101 main_v102 (broadcastInDim S1x8192 ![1] bcast_S8192_S1x8192_1 : (⟨S8192, .f32⟩ : BufTy).Contents (Elt F) → (⟨S1x8192, .f32⟩ : BufTy).Contents (Elt F)),
    unary main_arg10 main_v103 ((transpose S8192x8192 [1, 0] · transposes_S8192x8192_S8192x8192_1_0) : (⟨S8192x8192, .f32⟩ : BufTy).Contents (Elt F) → (⟨S8192x8192, .f32⟩ : BufTy).Contents (Elt F)),
    binary main_v102 main_v103 main_v104 ((fun l r => Host.dotGeneral dot_S1x8192_S8192x8192_S1x8192_1_0_0_1_n_n none l r) : (⟨S1x8192, .f32⟩ : BufTy).Contents (Elt F) → (⟨S8192x8192, .f32⟩ : BufTy).Contents (Elt F) → (⟨S1x8192, .f32⟩ : BufTy).Contents (Elt F)),
    unary main_arg11 main_v105 (broadcastInDim S1x8192 ![1] bcast_S8192_S1x8192_1 : (⟨S8192, .f32⟩ : BufTy).Contents (Elt F) → (⟨S1x8192, .f32⟩ : BufTy).Contents (Elt F)),
    binary main_v104 main_v105 main_v106 (addf : (⟨S1x8192, .f32⟩ : BufTy).Contents (Elt F) → (⟨S1x8192, .f32⟩ : BufTy).Contents (Elt F) → (⟨S1x8192, .f32⟩ : BufTy).Contents (Elt F)),
    reshape main_v106 main_v107 rfl shapeCasts_S1x8192_S8192,
    nullary main_cst_21 (constant S_ .f32 0xF49DC5AE#32),
    TRef.unary (TRef.of (T := ⟨S_, .f32⟩) main_cst_21) (TRef.of (T := ⟨S8192, .f32⟩) main_call2_v0) (broadcastInDim S8192 ![] bcast_S_S8192),
    TRef.ternary (TRef.of (T := ⟨S8192, .i1⟩) main_arg3) (TRef.of (T := ⟨S8192, .f32⟩) main_v107) (TRef.of (T := ⟨S8192, .f32⟩) main_call2_v0) (TRef.of (T := ⟨S8192, .f32⟩) main_v108) select ]

/-- The buffers the stretch writes. -/
abbrev rPH_W : List (Ref sig .tc) := [main_v94, main_v95, main_v96, main_v97, main_v98, main_v99, main_v100, main_cst_20, main_v101, main_v102, main_v103, main_v104, main_v105, main_v106, main_v107, main_cst_21, main_call2_v0, main_v108]

theorem rPH_writes : (rPH : List (HloOp τ sig (Elt F))).Forall fun op => op.writes ⊆ (rPH_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rPH_keep (W : Valuation τ sig (Elt F)) (r : Ref sig .tc) (h : r ∉ rPH_W) :
    after rPH W (Proc.devRef .tc r) = W (Proc.devRef .tc r) :=
  after_of_writes_sub rPH _ rPH_writes h

/-- The masked logits. -/
theorem rPH_v108 (W : Valuation τ sig (Elt F)) :
    after rPH W (Proc.devRef .tc main_v108) = Spec.out0 (W (Proc.devRef .tc main_arg3)) (Spec.act (Spec.xw32 (W (Proc.devRef .tc main_v93)) (W (Proc.devRef .tc main_arg8))) (W (Proc.devRef .tc main_arg9))) (W (Proc.devRef .tc main_arg10)) (W (Proc.devRef .tc main_arg11)) := by
  after_results_simp
  simp only [Cert.LibTypedRef.ofBuf_toBuf]
  rfl

end Cert.ReferenceIdeal.Host

end
-- ==== Proof.R_rV1.lean ====
/-
  The first graph convolution of the reference's value net, read off its host operations.

  From any contents W of the buffers: the linear map of the incoming features, the self loops appended to the edges'
  sources and targets, the degrees and the edge weights computed afresh, the features gathered along the sources,
  weighted, scatter-added at the targets, then the bias and the tanh: the specification's `conv` of what W holds.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rV1 : List (HloOp τ sig (Elt F)) :=
  [ unary main_arg12 main_v109 ((transpose S128x32 [1, 0] · transposes_S32x128_S128x32_1_0) : (⟨S32x128, .f32⟩ : BufTy).Contents (Elt F) → (⟨S128x32, .f32⟩ : BufTy).Contents (Elt F)),
    binary main_arg1 main_v109 main_v110 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    nullary main_v111 (iotaInDim S8192 32 0),
    binary main_v1 main_v111 main_v112 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v111 main_v113 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_22 (constant S_ .f32 0x3F800000#32),
    unary main_cst_22 main_v114 (broadcastInDim S270336 ![] bcast_S_S270336 : (⟨S_, .f32⟩ : BufTy).Contents (Elt F) → (⟨S270336, .f32⟩ : BufTy).Contents (Elt F)),
    nullary main_cst_23 (constant S_ .f32 0x00000000#32),
    unary main_cst_23 main_v115 (broadcastInDim S8192 ![] bcast_S_S8192 : (⟨S_, .f32⟩ : BufTy).Contents (Elt F) → (⟨S8192, .f32⟩ : BufTy).Contents (Elt F)),
    unary main_v113 main_v116 (broadcastInDim S270336x1 ![0] bcast_S270336_S270336x1_0 : (⟨S270336, .i32⟩ : BufTy).Contents (Elt F) → (⟨S270336x1, .i32⟩ : BufTy).Contents (Elt F)),
    ternary main_v115 main_v116 main_v114 main_v117 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_24 (constant S_ .f32 0x00000000#32),
    unary main_cst_24 main_v118 (broadcastInDim S8192 ![] bcast_S_S8192 : (⟨S_, .f32⟩ : BufTy).Contents (Elt F) → (⟨S8192, .f32⟩ : BufTy).Contents (Elt F)),
    binary main_v117 main_v118 main_v119 (cmpf .ogt : (⟨S8192, .f32⟩ : BufTy).Contents (Elt F) → (⟨S8192, .f32⟩ : BufTy).Contents (Elt F) → (⟨S8192, .i1⟩ : BufTy).Contents (Elt F)),
    unary main_v117 main_v120 (Host.rsqrt : (⟨S8192, .f32⟩ : BufTy).Contents (Elt F) → (⟨S8192, .f32⟩ : BufTy).Contents (Elt F)),
    nullary main_cst_25 (constant S_ .f32 0x00000000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_v119) (TRef.of (T := ⟨S8192, .f32⟩) main_v120) (TRef.of (T := ⟨S8192, .f32⟩) main_call3_v1) (TRef.of (T := ⟨S8192, .f32⟩) main_v121) select,
    nullary main_c_26 (constantI S_ 32 0#32),
    unary main_c_26 main_v122 (broadcastInDim S270336 ![] bcast_S_S270336 : (⟨S_, .i32⟩ : BufTy).Contents (Elt F) → (⟨S270336, .i32⟩ : BufTy).Contents (Elt F)),
    binary main_v112 main_v122 main_v123 (cmpi .slt : (⟨S270336, .i32⟩ : BufTy).Contents (Elt F) → (⟨S270336, .i32⟩ : BufTy).Contents (Elt F) → (⟨S270336, .i1⟩ : BufTy).Contents (Elt F)),
    nullary main_c_27 (constantI S_ 32 8192#32),
    unary main_c_27 main_v124 (broadcastInDim S270336 ![] bcast_S_S270336 : (⟨S_, .i32⟩ : BufTy).Contents (Elt F) → (⟨S270336, .i32⟩ : BufTy).Contents (Elt F)),
    binary main_v112 main_v124 main_v125 (addi : (⟨S270336, .i32⟩ : BufTy).Contents (Elt F) → (⟨S270336, .i32⟩ : BufTy).Contents (Elt F) → (⟨S270336, .i32⟩ : BufTy).Contents (Elt F)),
    ternary main_v123 main_v125 main_v112 main_v126 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v126 main_v127 (broadcastInDim S270336x1 ![0] bcast_S270336_S270336x1_0 : (⟨S270336, .i32⟩ : BufTy).Contents (Elt F) → (⟨S270336x1, .i32⟩ : BufTy).Contents (Elt F)),
    binary main_v121 main_v127 main_v128 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_28 (constantI S_ 32 0#32),
    unary main_c_28 main_v129 (broadcastInDim S270336 ![] bcast_S_S270336 : (⟨S_, .i32⟩ : BufTy).Contents (Elt F) → (⟨S270336, .i32⟩ : BufTy).Contents (Elt F)),
    binary main_v113 main_v129 main_v130 (cmpi .slt : (⟨S270336, .i32⟩ : BufTy).Contents (Elt F) → (⟨S270336, .i32⟩ : BufTy).Contents (Elt F) → (⟨S270336, .i1⟩ : BufTy).Contents (Elt F)),
    nullary main_c_29 (constantI S_ 32 8192#32),
    unary main_c_29 main_v131 (broadcastInDim S270336 ![] bcast_S_S270336 : (⟨S_, .i32⟩ : BufTy).Contents (Elt F) → (⟨S270336, .i32⟩ : BufTy).Contents (Elt F)),
    binary main_v113 main_v131 main_v132 (addi : (⟨S270336, .i32⟩ : BufTy).Contents (Elt F) → (⟨S270336, .i32⟩ : BufTy).Contents (Elt F) → (⟨S270336, .i32⟩ : BufTy).Contents (Elt F)),
    ternary main_v130 main_v132 main_v113 main_v133 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v133 main_v134 (broadcastInDim S270336x1 ![0] bcast_S270336_S270336x1_0 : (⟨S270336, .i32⟩ : BufTy).Contents (Elt F) → (⟨S270336x1, .i32⟩ : BufTy).Contents (Elt F)),
    binary main_v121 main_v134 main_v135 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v128 main_v135 main_v136 (mulf : (⟨S270336, .f32⟩ : BufTy).Contents (Elt F) → (⟨S270336, .f32⟩ : BufTy).Contents (Elt F) → (⟨S270336, .f32⟩ : BufTy).Contents (Elt F)),
    unary main_v136 main_v137 (broadcastInDim S270336x1 ![0] bcast_S270336_S270336x1_0 : (⟨S270336, .f32⟩ : BufTy).Contents (Elt F) → (⟨S270336x1, .f32⟩ : BufTy).Contents (Elt F)),
    nullary main_c_30 (constantI S_ 32 0#32),
    unary main_c_30 main_v138 (broadcastInDim S270336 ![] bcast_S_S270336 : (⟨S_, .i32⟩ : BufTy).Contents (Elt F) → (⟨S270336, .i32⟩ : BufTy).Contents (Elt F)),
    binary main_v112 main_v138 main_v139 (cmpi .slt : (⟨S270336, .i32⟩ : BufTy).Contents (Elt F) → (⟨S270336, .i32⟩ : BufTy).Contents (Elt F) → (⟨S270336, .i1⟩ : BufTy).Contents (Elt F)),
    nullary main_c_31 (constantI S_ 32 8192#32),
    unary main_c_31 main_v140 (broadcastInDim S270336 ![] bcast_S_S270336 : (⟨S_, .i32⟩ : BufTy).Contents (Elt F) → (⟨S270336, .i32⟩ : BufTy).Contents (Elt F)),
    binary main_v112 main_v140 main_v141 (addi : (⟨S270336, .i32⟩ : BufTy).Contents (Elt F) → (⟨S270336, .i32⟩ : BufTy).Contents (Elt F) → (⟨S270336, .i32⟩ : BufTy).Contents (Elt F)),
    ternary main_v139 main_v141 main_v112 main_v142 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v142 main_v143 (broadcastInDim S270336x1 ![0] bcast_S270336_S270336x1_0 : (⟨S270336, .i32⟩ : BufTy).Contents (Elt F) → (⟨S270336x1, .i32⟩ : BufTy).Contents (Elt F)),
    binary main_v110 main_v143 main_v144 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v137 main_v145 (broadcastInDim S270336x32 ![0, 1] bcast_S270336x1_S270336x32_0_1 : (⟨S270336x1, .f32⟩ : BufTy).Contents (Elt F) → (⟨S270336x32, .f32⟩ : BufTy).Contents (Elt F)),
    binary main_v144 main_v145 main_v146 (mulf : (⟨S270336x32, .f32⟩ : BufTy).Contents (Elt F) → (⟨S270336x32, .f32⟩ : BufTy).Contents (Elt F) → (⟨S270336x32, .f32⟩ : BufTy).Contents (Elt F)),
    nullary main_cst_32 (constant S_ .f32 0x00000000#32),
    unary main_cst_32 main_v147 (broadcastInDim S8192x32 ![] bcast_S_S8192x32 : (⟨S_, .f32⟩ : BufTy).Contents (Elt F) → (⟨S8192x32, .f32⟩ : BufTy).Contents (Elt F)),
    unary main_v113 main_v148 (broadcastInDim S270336x1 ![0] bcast_S270336_S270336x1_0 : (⟨S270336, .i32⟩ : BufTy).Contents (Elt F) → (⟨S270336x1, .i32⟩ : BufTy).Contents (Elt F)),
    ternary main_v147 main_v148 main_v146 main_v149 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg13 main_v150 (broadcastInDim S1x32 ![1] bcast_S32_S1x32_1 : (⟨S32, .f32⟩ : BufTy).Contents (Elt F) → (⟨S1x32, .f32⟩ : BufTy).Contents (Elt F)),
    unary main_v150 main_v151 (broadcastInDim S8192x32 ![0, 1] bcast_S1x32_S8192x32_0_1 : (⟨S1x32, .f32⟩ : BufTy).Contents (Elt F) → (⟨S8192x32, .f32⟩ : BufTy).Contents (Elt F)),
    binary main_v149 main_v151 main_v152 (addf : (⟨S8192x32, .f32⟩ : BufTy).Contents (Elt F) → (⟨S8192x32, .f32⟩ : BufTy).Contents (Elt F) → (⟨S8192x32, .f32⟩ : BufTy).Contents (Elt F)),
    unary main_v152 main_v153 (Host.tanh : (⟨S8192x32, .f32⟩ : BufTy).Contents (Elt F) → (⟨S8192x32, .f32⟩ : BufTy).Contents (Elt F)) ]

/-- The buffers the stretch writes. -/
abbrev rV1_W : List (Ref sig .tc) := [main_v109, main_v110, main_v111, main_v112, main_v113, main_cst_22, main_v114, main_cst_23, main_v115, main_v116, main_v117, main_cst_24, main_v118, main_v119, main_v120, main_cst_25, main_call3_v0, main_call3_v1, main_v121, main_c_26, main_v122, main_v123, main_c_27, main_v124, main_v125, main_v126, main_v127, main_v128, main_c_28, main_v129, main_v130, main_c_29, main_v131, main_v132, main_v133, main_v134, main_v135, main_v136, main_v137, main_c_30, main_v138, main_v139, main_c_31, main_v140, main_v141, main_v142, main_v143, main_v144, main_v145, main_v146, main_cst_32, main_v147, main_v148, main_v149, main_v150, main_v151, main_v152, main_v153]

theorem rV1_writes : (rV1 : List (HloOp τ sig (Elt F))).Forall fun op => op.writes ⊆ (rV1_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rV1_keep (W : Valuation τ sig (Elt F)) (r : Ref sig .tc) (h : r ∉ rV1_W) :
    after rV1 W (Proc.devRef .tc r) = W (Proc.devRef .tc r) :=
  after_of_writes_sub rV1 _ rV1_writes h

/-- The value features after the first convolution. -/
theorem rV1_v153 (W : Valuation τ sig (Elt F)) :
    after rV1 W (Proc.devRef .tc main_v153) = Spec.conv (Spec.loops (W (Proc.devRef .tc main_v1))) (Spec.loops (W (Proc.devRef .tc main_v3))) (Spec.xw128 (W (Proc.devRef .tc main_arg1)) (W (Proc.devRef .tc main_arg12))) (W (Proc.devRef .tc main_arg13)) := by
  after_results_simp
  simp only [Cert.LibTypedRef.ofBuf_toBuf]
  rfl

end Cert.ReferenceIdeal.Host

end
-- ==== Proof.R_rV2.lean ====
/-
  The second graph convolution of the reference's value net, read off its host operations.

  From any contents W of the buffers: the linear map of the incoming features, the self loops appended to the edges'
  sources and targets, the degrees and the edge weights computed afresh, the features gathered along the sources,
  weighted, scatter-added at the targets, then the bias and the tanh: the specification's `conv` of what W holds.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rV2 : List (HloOp τ sig (Elt F)) :=
  [ unary main_arg14 main_v154 ((transpose S32x32 [1, 0] · transposes_S32x32_S32x32_1_0) : (⟨S32x32, .f32⟩ : BufTy).Contents (Elt F) → (⟨S32x32, .f32⟩ : BufTy).Contents (Elt F)),
    binary main_v153 main_v154 main_v155 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    nullary main_v156 (iotaInDim S8192 32 0),
    binary main_v1 main_v156 main_v157 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    binary main_v3 main_v156 main_v158 ((fun a b => concatenate S270336 0 [⟨S262144, a⟩, ⟨S8192, b⟩] concatenates_S262144_S8192_S270336_d0) : (⟨S262144, .i32⟩ : BufTy).Contents (Elt F) → (⟨S8192, .i32⟩ : BufTy).Contents (Elt F) → (⟨S270336, .i32⟩ : BufTy).Contents (Elt F)),
    nullary main_cst_33 (constant S_ .f32 0x3F800000#32),
    unary main_cst_33 main_v159 (broadcastInDim S270336 ![] bcast_S_S270336 : (⟨S_, .f32⟩ : BufTy).Contents (Elt F) → (⟨S270336, .f32⟩ : BufTy).Contents (Elt F)),
    nullary main_cst_34 (constant S_ .f32 0x00000000#32),
    unary main_cst_34 main_v160 (broadcastInDim S8192 ![] bcast_S_S8192 : (⟨S_, .f32⟩ : BufTy).Contents (Elt F) → (⟨S8192, .f32⟩ : BufTy).Contents (Elt F)),
    unary main_v158 main_v161 (broadcastInDim S270336x1 ![0] bcast_S270336_S270336x1_0 : (⟨S270336, .i32⟩ : BufTy).Contents (Elt F) → (⟨S270336x1, .i32⟩ : BufTy).Contents (Elt F)),
    ternary main_v160 main_v161 main_v159 main_v162 ((fun x i u => Host.scatterAdd scatter_S8192_S270336x1_S270336_n_0_0_1 x i u) : (⟨S8192, .f32⟩ : BufTy).Contents (Elt F) → (⟨S270336x1, .i32⟩ : BufTy).Contents (Elt F) → (⟨S270336, .f32⟩ : BufTy).Contents (Elt F) → (⟨S8192, .f32⟩ : BufTy).Contents (Elt F)),
    nullary main_cst_35 (constant S_ .f32 0x00000000#32),
    unary main_cst_35 main_v163 (broadcastInDim S8192 ![] bcast_S_S8192 : (⟨S_, .f32⟩ : BufTy).Contents (Elt F) → (⟨S8192, .f32⟩ : BufTy).Contents (Elt F)),
    binary main_v162 main_v163 main_v164 (cmpf .ogt : (⟨S8192, .f32⟩ : BufTy).Contents (Elt F) → (⟨S8192, .f32⟩ : BufTy).Contents (Elt F) → (⟨S8192, .i1⟩ : BufTy).Contents (Elt F)),
    unary main_v162 main_v165 (Host.rsqrt : (⟨S8192, .f32⟩ : BufTy).Contents (Elt F) → (⟨S8192, .f32⟩ : BufTy).Contents (Elt F)),
    nullary main_cst_36 (constant S_ .f32 0x00000000#32),
    TRef.unary (TRef.of (T := ⟨S_, .f32⟩) main_cst_36) (TRef.of (T := ⟨S_, .f32⟩) main_call4_v0) id,
    TRef.unary (TRef.of (T := ⟨S_, .f32⟩) main_call4_v0) (TRef.of (T := ⟨S8192, .f32⟩) main_call4_v1) (broadcastInDim S8192 ![] bcast_S_S8192),
    TRef.ternary (TRef.of (T := ⟨S8192, .i1⟩) main_v164) (TRef.of (T := ⟨S8192, .f32⟩) main_v165) (TRef.of (T := ⟨S8192, .f32⟩) main_call4_v1) (TRef.of (T := ⟨S8192, .f32⟩) main_v166) select,
    nullary main_c_37 (constantI S_ 32 0#32),
    unary main_c_37 main_v167 (broadcastInDim S270336 ![] bcast_S_S270336 : (⟨S_, .i32⟩ : BufTy).Contents (Elt F) → (⟨S270336, .i32⟩ : BufTy).Contents (Elt F)),
    binary main_v157 main_v167 main_v168 (cmpi .slt : (⟨S270336, .i32⟩ : BufTy).Contents (Elt F) → (⟨S270336, .i32⟩ : BufTy).Contents (Elt F) → (⟨S270336, .i1⟩ : BufTy).Contents (Elt F)),
    nullary main_c_38 (constantI S_ 32 8192#32),
    unary main_c_38 main_v169 (broadcastInDim S270336 ![] bcast_S_S270336 : (⟨S_, .i32⟩ : BufTy).Contents (Elt F) → (⟨S270336, .i32⟩ : BufTy).Contents (Elt F)),
    binary main_v157 main_v169 main_v170 (addi : (⟨S270336, .i32⟩ : BufTy).Contents (Elt F) → (⟨S270336, .i32⟩ : BufTy).Contents (Elt F) → (⟨S270336, .i32⟩ : BufTy).Contents (Elt F)),
    ternary main_v168 main_v170 main_v157 main_v171 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v171 main_v172 (broadcastInDim S270336x1 ![0] bcast_S270336_S270336x1_0 : (⟨S270336, .i32⟩ : BufTy).Contents (Elt F) → (⟨S270336x1, .i32⟩ : BufTy).Contents (Elt F)),
    binary main_v166 main_v172 main_v173 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    nullary main_c_39 (constantI S_ 32 0#32),
    unary main_c_39 main_v174 (broadcastInDim S270336 ![] bcast_S_S270336 : (⟨S_, .i32⟩ : BufTy).Contents (Elt F) → (⟨S270336, .i32⟩ : BufTy).Contents (Elt F)),
    binary main_v158 main_v174 main_v175 (cmpi .slt : (⟨S270336, .i32⟩ : BufTy).Contents (Elt F) → (⟨S270336, .i32⟩ : BufTy).Contents (Elt F) → (⟨S270336, .i1⟩ : BufTy).Contents (Elt F)),
    nullary main_c_40 (constantI S_ 32 8192#32),
    unary main_c_40 main_v176 (broadcastInDim S270336 ![] bcast_S_S270336 : (⟨S_, .i32⟩ : BufTy).Contents (Elt F) → (⟨S270336, .i32⟩ : BufTy).Contents (Elt F)),
    binary main_v158 main_v176 main_v177 (addi : (⟨S270336, .i32⟩ : BufTy).Contents (Elt F) → (⟨S270336, .i32⟩ : BufTy).Contents (Elt F) → (⟨S270336, .i32⟩ : BufTy).Contents (Elt F)),
    ternary main_v175 main_v177 main_v158 main_v178 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v178 main_v179 (broadcastInDim S270336x1 ![0] bcast_S270336_S270336x1_0 : (⟨S270336, .i32⟩ : BufTy).Contents (Elt F) → (⟨S270336x1, .i32⟩ : BufTy).Contents (Elt F)),
    binary main_v166 main_v179 main_v180 ((fun x i => Host.gather gather_S8192_S270336x1_S270336_n_0_n_n_0_1_1 x i) : (⟨S8192, .f32⟩ : BufTy).Contents (Elt F) → (⟨S270336x1, .i32⟩ : BufTy).Contents (Elt F) → (⟨S270336, .f32⟩ : BufTy).Contents (Elt F)),
    binary main_v173 main_v180 main_v181 (mulf : (⟨S270336, .f32⟩ : BufTy).Contents (Elt F) → (⟨S270336, .f32⟩ : BufTy).Contents (Elt F) → (⟨S270336, .f32⟩ : BufTy).Contents (Elt F)),
    unary main_v181 main_v182 (broadcastInDim S270336x1 ![0] bcast_S270336_S270336x1_0 : (⟨S270336, .f32⟩ : BufTy).Contents (Elt F) → (⟨S270336x1, .f32⟩ : BufTy).Contents (Elt F)),
    nullary main_c_41 (constantI S_ 32 0#32),
    unary main_c_41 main_v183 (broadcastInDim S270336 ![] bcast_S_S270336 : (⟨S_, .i32⟩ : BufTy).Contents (Elt F) → (⟨S270336, .i32⟩ : BufTy).Contents (Elt F)),
    binary main_v157 main_v183 main_v184 (cmpi .slt : (⟨S270336, .i32⟩ : BufTy).Contents (Elt F) → (⟨S270336, .i32⟩ : BufTy).Contents (Elt F) → (⟨S270336, .i1⟩ : BufTy).Contents (Elt F)),
    nullary main_c_42 (constantI S_ 32 8192#32),
    unary main_c_42 main_v185 (broadcastInDim S270336 ![] bcast_S_S270336 : (⟨S_, .i32⟩ : BufTy).Contents (Elt F) → (⟨S270336, .i32⟩ : BufTy).Contents (Elt F)),
    binary main_v157 main_v185 main_v186 (addi : (⟨S270336, .i32⟩ : BufTy).Contents (Elt F) → (⟨S270336, .i32⟩ : BufTy).Contents (Elt F) → (⟨S270336, .i32⟩ : BufTy).Contents (Elt F)),
    ternary main_v184 main_v186 main_v157 main_v187 (select : (⟨S270336, .i1⟩ : BufTy).Contents (Elt F) → (⟨S270336, .i32⟩ : BufTy).Contents (Elt F) → (⟨S270336, .i32⟩ : BufTy).Contents (Elt F) → (⟨S270336, .i32⟩ : BufTy).Contents (Elt F)),
    unary main_v187 main_v188 (broadcastInDim S270336x1 ![0] bcast_S270336_S270336x1_0 : (⟨S270336, .i32⟩ : BufTy).Contents (Elt F) → (⟨S270336x1, .i32⟩ : BufTy).Contents (Elt F)),
    binary main_v155 main_v188 main_v189 ((fun x i => Host.gather gather_S8192x32_S270336x1_S270336x32_1_0_n_n_0_1_132 x i) : (⟨S8192x32, .f32⟩ : BufTy).Contents (Elt F) → (⟨S270336x1, .i32⟩ : BufTy).Contents (Elt F) → (⟨S270336x32, .f32⟩ : BufTy).Contents (Elt F)),
    unary main_v182 main_v190 (broadcastInDim S270336x32 ![0, 1] bcast_S270336x1_S270336x32_0_1 : (⟨S270336x1, .f32⟩ : BufTy).Contents (Elt F) → (⟨S270336x32, .f32⟩ : BufTy).Contents (Elt F)),
    binary main_v189 main_v190 main_v191 (mulf : (⟨S270336x32, .f32⟩ : BufTy).Contents (Elt F) → (⟨S270336x32, .f32⟩ : BufTy).Contents (Elt F) → (⟨S270336x32, .f32⟩ : BufTy).Contents (Elt F)),
    nullary main_cst_43 (constant S_ .f32 0x00000000#32),
    unary main_cst_43 main_v192 (broadcastInDim S8192x32 ![] bcast_S_S8192x32 : (⟨S_, .f32⟩ : BufTy).Contents (Elt F) → (⟨S8192x32, .f32⟩ : BufTy).Contents (Elt F)),
    unary main_v158 main_v193 (broadcastInDim S270336x1 ![0] bcast_S270336_S270336x1_0 : (⟨S270336, .i32⟩ : BufTy).Contents (Elt F) → (⟨S270336x1, .i32⟩ : BufTy).Contents (Elt F)),
    ternary main_v192 main_v193 main_v191 main_v194 ((fun x i u => Host.scatterAdd scatter_S8192x32_S270336x1_S270336x32_1_0_0_1 x i u) : (⟨S8192x32, .f32⟩ : BufTy).Contents (Elt F) → (⟨S270336x1, .i32⟩ : BufTy).Contents (Elt F) → (⟨S270336x32, .f32⟩ : BufTy).Contents (Elt F) → (⟨S8192x32, .f32⟩ : BufTy).Contents (Elt F)),
    unary main_arg15 main_v195 (broadcastInDim S1x32 ![1] bcast_S32_S1x32_1 : (⟨S32, .f32⟩ : BufTy).Contents (Elt F) → (⟨S1x32, .f32⟩ : BufTy).Contents (Elt F)),
    unary main_v195 main_v196 (broadcastInDim S8192x32 ![0, 1] bcast_S1x32_S8192x32_0_1 : (⟨S1x32, .f32⟩ : BufTy).Contents (Elt F) → (⟨S8192x32, .f32⟩ : BufTy).Contents (Elt F)),
    binary main_v194 main_v196 main_v197 (addf : (⟨S8192x32, .f32⟩ : BufTy).Contents (Elt F) → (⟨S8192x32, .f32⟩ : BufTy).Contents (Elt F) → (⟨S8192x32, .f32⟩ : BufTy).Contents (Elt F)),
    unary main_v197 main_v198 (Host.tanh : (⟨S8192x32, .f32⟩ : BufTy).Contents (Elt F) → (⟨S8192x32, .f32⟩ : BufTy).Contents (Elt F)) ]

/-- The buffers the stretch writes. -/
abbrev rV2_W : List (Ref sig .tc) := [main_v154, main_v155, main_v156, main_v157, main_v158, main_cst_33, main_v159, main_cst_34, main_v160, main_v161, main_v162, main_cst_35, main_v163, main_v164, main_v165, main_cst_36, main_call4_v0, main_call4_v1, main_v166, main_c_37, main_v167, main_v168, main_c_38, main_v169, main_v170, main_v171, main_v172, main_v173, main_c_39, main_v174, main_v175, main_c_40, main_v176, main_v177, main_v178, main_v179, main_v180, main_v181, main_v182, main_c_41, main_v183, main_v184, main_c_42, main_v185, main_v186, main_v187, main_v188, main_v189, main_v190, main_v191, main_cst_43, main_v192, main_v193, main_v194, main_v195, main_v196, main_v197, main_v198]

theorem rV2_writes : (rV2 : List (HloOp τ sig (Elt F))).Forall fun op => op.writes ⊆ (rV2_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rV2_keep (W : Valuation τ sig (Elt F)) (r : Ref sig .tc) (h : r ∉ rV2_W) :
    after rV2 W (Proc.devRef .tc r) = W (Proc.devRef .tc r) :=
  after_of_writes_sub rV2 _ rV2_writes h

/-- The value features after the second convolution. -/
theorem rV2_v198 (W : Valuation τ sig (Elt F)) :
    after rV2 W (Proc.devRef .tc main_v198) = Spec.conv (Spec.loops (W (Proc.devRef .tc main_v1))) (Spec.loops (W (Proc.devRef .tc main_v3))) (Spec.xw32 (W (Proc.devRef .tc main_v153)) (W (Proc.devRef .tc main_arg14))) (W (Proc.devRef .tc main_arg15)) := by
  after_results_simp
  simp only [Cert.LibTypedRef.ofBuf_toBuf]
  rfl

end Cert.ReferenceIdeal.Host

end
-- ==== Proof.R_rVH.lean ====
/-
  The reference's value head, read off its host operations: the head's linear layer, bias and tanh; the features
  summed over the nodes; the sum times the transposed 1 x 32 weights plus the bias, recast as a vector of one entry.
-/
import proofs.«128091_j10213432230367_2_alg».proof.Proof.Gen.ReferenceIdeal
import proofs.«128091_j10213432230367_2_alg».proof.Proof.Spec
import proofs.«128091_j10213432230367_2_alg».proof.Proof.LibTypedRef
import Idealize.ShloMosaic.Lib.StableHlo.Run

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

/-- The operations of this stretch, in the program's order. -/
abbrev rVH : List (HloOp τ sig (Elt F)) :=
  [ unary main_arg16 main_v199 ((transpose S32x32 [1, 0] · transposes_S32x32_S32x32_1_0) : (⟨S32x32, .f32⟩ : BufTy).Contents (Elt F) → (⟨S32x32, .f32⟩ : BufTy).Contents (Elt F)),
    binary main_v198 main_v199 main_v200 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg17 main_v201 (broadcastInDim S1x32 ![1] bcast_S32_S1x32_1 : (⟨S32, .f32⟩ : BufTy).Contents (Elt F) → (⟨S1x32, .f32⟩ : BufTy).Contents (Elt F)),
    unary main_v201 main_v202 (broadcastInDim S8192x32 ![0, 1] bcast_S1x32_S8192x32_0_1 : (⟨S1x32, .f32⟩ : BufTy).Contents (Elt F) → (⟨S8192x32, .f32⟩ : BufTy).Contents (Elt F)),
    binary main_v200 main_v202 main_v203 (addf : (⟨S8192x32, .f32⟩ : BufTy).Contents (Elt F) → (⟨S8192x32, .f32⟩ : BufTy).Contents (Elt F) → (⟨S8192x32, .f32⟩ : BufTy).Contents (Elt F)),
    unary main_v203 main_v204 (Host.tanh : (⟨S8192x32, .f32⟩ : BufTy).Contents (Elt F) → (⟨S8192x32, .f32⟩ : BufTy).Contents (Elt F)),
    nullary main_cst_44 (constant S_ .f32 0x00000000#32),
    binary main_v204 main_cst_44 main_v205 ((fun x v => Host.reduceAdd x v reducesTo_S8192x32_S32_d0 h_S_) : (⟨S8192x32, .f32⟩ : BufTy).Contents (Elt F) → (⟨S_, .f32⟩ : BufTy).Contents (Elt F) → (⟨S32, .f32⟩ : BufTy).Contents (Elt F)),
    unary main_v205 main_v206 (broadcastInDim S1x32 ![1] bcast_S32_S1x32_1 : (⟨S32, .f32⟩ : BufTy).Contents (Elt F) → (⟨S1x32, .f32⟩ : BufTy).Contents (Elt F)),
    unary main_arg18 main_v207 ((transpose S32x1 [1, 0] · transposes_S1x32_S32x1_1_0) : (⟨S1x32, .f32⟩ : BufTy).Contents (Elt F) → (⟨S32x1, .f32⟩ : BufTy).Contents (Elt F)),
    binary main_v206 main_v207 main_v208 ((fun l r => Host.dotGeneral dot_S1x32_S32x1_S1x1_1_0_0_1_n_n none l r) : (⟨S1x32, .f32⟩ : BufTy).Contents (Elt F) → (⟨S32x1, .f32⟩ : BufTy).Contents (Elt F) → (⟨S1x1, .f32⟩ : BufTy).Contents (Elt F)),
    unary main_arg19 main_v209 (broadcastInDim S1x1 ![1] bcast_S1_S1x1_1 : (⟨S1, .f32⟩ : BufTy).Contents (Elt F) → (⟨S1x1, .f32⟩ : BufTy).Contents (Elt F)),
    binary main_v208 main_v209 main_v210 (addf : (⟨S1x1, .f32⟩ : BufTy).Contents (Elt F) → (⟨S1x1, .f32⟩ : BufTy).Contents (Elt F) → (⟨S1x1, .f32⟩ : BufTy).Contents (Elt F)),
    reshape main_v210 main_v211 rfl shapeCasts_S1x1_S1 ]

/-- The buffers the stretch writes. -/
abbrev rVH_W : List (Ref sig .tc) := [main_v199, main_v200, main_v201, main_v202, main_v203, main_v204, main_cst_44, main_v205, main_v206, main_v207, main_v208, main_v209, main_v210, main_v211]

theorem rVH_writes : (rVH : List (HloOp τ sig (Elt F))).Forall fun op => op.writes ⊆ (rVH_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A buffer the stretch does not write keeps its contents through it. -/
theorem rVH_keep (W : Valuation τ sig (Elt F)) (r : Ref sig .tc) (h : r ∉ rVH_W) :
    after rVH W (Proc.devRef .tc r) = W (Proc.devRef .tc r) :=
  after_of_writes_sub rVH _ rVH_writes h

/-- The value. -/
theorem rVH_v211 (W : Valuation τ sig (Elt F)) :
    after rVH W (Proc.devRef .tc main_v211) = Spec.valueHead (Spec.act (Spec.xw32 (W (Proc.devRef .tc main_v198)) (W (Proc.devRef .tc main_arg16))) (W (Proc.devRef .tc main_arg17))) (W (Proc.devRef .tc main_arg18)) (W (Proc.devRef .tc main_arg19)) := by
  after_results_simp
  rfl

end Cert.ReferenceIdeal.Host

end
-- ==== Proof.RefValues.lean ====
/-
  The reference's results: its host operations, composed.

  The reference's 268 operations are, in order, seven stretches: the rows of the edge list; the policy net's two
  convolutions and its head; the value net's two convolutions and its head.  Reading each stretch's result at the
  contents the previous stretches leave gives the masked logits and the value as the reference's arrangement of
  the network over the argument arrays, and no stretch writes an argument.
-/
import proofs.«128091_j10213432230367_2_alg».proof.Proof.RefSeq
import proofs.«128091_j10213432230367_2_alg».proof.Proof.R_rRows
import proofs.«128091_j10213432230367_2_alg».proof.Proof.R_rP1
import proofs.«128091_j10213432230367_2_alg».proof.Proof.R_rP2
import proofs.«128091_j10213432230367_2_alg».proof.Proof.R_rPH
import proofs.«128091_j10213432230367_2_alg».proof.Proof.R_rV1
import proofs.«128091_j10213432230367_2_alg».proof.Proof.R_rV2
import proofs.«128091_j10213432230367_2_alg».proof.Proof.R_rVH
import proofs.«128091_j10213432230367_2_alg».proof.Proof.Net
import Idealize.ShloMosaic.Lib.Pipeline.Frame

set_option maxRecDepth 8192

noncomputable section

namespace Cert.ReferenceIdeal.Host

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- The argument arrays of core `c`, bundled. -/
def argsR (c : Dev nD) : Spec.Net F where
  xp := m ((c.tc : Thread nD τ).loc main_arg0)
  xs := m ((c.tc : Thread nD τ).loc main_arg1)
  e := m ((c.tc : Thread nD τ).loc main_arg2)
  msk := m ((c.tc : Thread nD τ).loc main_arg3)
  W1p := m ((c.tc : Thread nD τ).loc main_arg4)
  b1p := m ((c.tc : Thread nD τ).loc main_arg5)
  W2p := m ((c.tc : Thread nD τ).loc main_arg6)
  b2p := m ((c.tc : Thread nD τ).loc main_arg7)
  Wlp := m ((c.tc : Thread nD τ).loc main_arg8)
  blp := m ((c.tc : Thread nD τ).loc main_arg9)
  Wop := m ((c.tc : Thread nD τ).loc main_arg10)
  bop := m ((c.tc : Thread nD τ).loc main_arg11)
  W1v := m ((c.tc : Thread nD τ).loc main_arg12)
  b1v := m ((c.tc : Thread nD τ).loc main_arg13)
  W2v := m ((c.tc : Thread nD τ).loc main_arg14)
  b2v := m ((c.tc : Thread nD τ).loc main_arg15)
  Wlv := m ((c.tc : Thread nD τ).loc main_arg16)
  blv := m ((c.tc : Thread nD τ).loc main_arg17)
  Wov := m ((c.tc : Thread nD τ).loc main_arg18)
  bov := m ((c.tc : Thread nD τ).loc main_arg19)

/-- The program's operations are the seven stretches in order. -/
theorem ops_eq : (Cert.ReferenceIdeal.RefRun.ops : List (HloOp τ sig (Elt F))) = rRows ++ (rP1 ++ (rP2 ++ (rPH ++ (rV1 ++ (rV2 ++ (rVH)))))) := rfl

/-- The contents after stretch 1 of 7. -/
abbrev X0 (c : Dev nD) : Valuation τ sig (Elt F) := after rRows (fun b => m (c, b))
/-- The contents after stretch 2 of 7. -/
abbrev X1 (c : Dev nD) : Valuation τ sig (Elt F) := after rP1 (X0 m c)
/-- The contents after stretch 3 of 7. -/
abbrev X2 (c : Dev nD) : Valuation τ sig (Elt F) := after rP2 (X1 m c)
/-- The contents after stretch 4 of 7. -/
abbrev X3 (c : Dev nD) : Valuation τ sig (Elt F) := after rPH (X2 m c)
/-- The contents after stretch 5 of 7. -/
abbrev X4 (c : Dev nD) : Valuation τ sig (Elt F) := after rV1 (X3 m c)
/-- The contents after stretch 6 of 7. -/
abbrev X5 (c : Dev nD) : Valuation τ sig (Elt F) := after rV2 (X4 m c)

theorem after_ops (c : Dev nD) : after Cert.ReferenceIdeal.RefRun.ops (fun b => m (c, b)) = after rVH (X5 m c) := by
  rw [ops_eq, after_append, after_append, after_append, after_append, after_append, after_append]

/-! ## What no stretch so far has written -/
theorem X0_keep (c : Dev nD) (r : Ref sig .tc) (h0 : r ∉ rRows_W) : X0 m c (Proc.devRef .tc r) = m ((c.tc : Thread nD τ).loc r) :=
  rRows_keep _ r h0
theorem X1_keep (c : Dev nD) (r : Ref sig .tc) (h0 : r ∉ rRows_W) (h1 : r ∉ rP1_W) : X1 m c (Proc.devRef .tc r) = m ((c.tc : Thread nD τ).loc r) :=
  (rP1_keep _ r h1).trans (X0_keep m c r h0)
theorem X2_keep (c : Dev nD) (r : Ref sig .tc) (h0 : r ∉ rRows_W) (h1 : r ∉ rP1_W) (h2 : r ∉ rP2_W) : X2 m c (Proc.devRef .tc r) = m ((c.tc : Thread nD τ).loc r) :=
  (rP2_keep _ r h2).trans (X1_keep m c r h0 h1)
theorem X3_keep (c : Dev nD) (r : Ref sig .tc) (h0 : r ∉ rRows_W) (h1 : r ∉ rP1_W) (h2 : r ∉ rP2_W) (h3 : r ∉ rPH_W) : X3 m c (Proc.devRef .tc r) = m ((c.tc : Thread nD τ).loc r) :=
  (rPH_keep _ r h3).trans (X2_keep m c r h0 h1 h2)
theorem X4_keep (c : Dev nD) (r : Ref sig .tc) (h0 : r ∉ rRows_W) (h1 : r ∉ rP1_W) (h2 : r ∉ rP2_W) (h3 : r ∉ rPH_W) (h4 : r ∉ rV1_W) : X4 m c (Proc.devRef .tc r) = m ((c.tc : Thread nD τ).loc r) :=
  (rV1_keep _ r h4).trans (X3_keep m c r h0 h1 h2 h3)
theorem X5_keep (c : Dev nD) (r : Ref sig .tc) (h0 : r ∉ rRows_W) (h1 : r ∉ rP1_W) (h2 : r ∉ rP2_W) (h3 : r ∉ rPH_W) (h4 : r ∉ rV1_W) (h5 : r ∉ rV2_W) : X5 m c (Proc.devRef .tc r) = m ((c.tc : Thread nD τ).loc r) :=
  (rV2_keep _ r h5).trans (X4_keep m c r h0 h1 h2 h3 h4)
theorem end_keep (c : Dev nD) (r : Ref sig .tc) (h0 : r ∉ rRows_W) (h1 : r ∉ rP1_W) (h2 : r ∉ rP2_W) (h3 : r ∉ rPH_W) (h4 : r ∉ rV1_W) (h5 : r ∉ rV2_W) (h6 : r ∉ rVH_W) :
    after Cert.ReferenceIdeal.RefRun.ops (fun b => m (c, b)) (Proc.devRef .tc r) = m ((c.tc : Thread nD τ).loc r) := by
  rw [after_ops]
  exact (rVH_keep _ r h6).trans (X5_keep m c r h0 h1 h2 h3 h4 h5)

/-! ## The rows of the edge list, carried along -/

theorem X0_v1 (c : Dev nD) : X0 m c (Proc.devRef .tc main_v1) = Spec.row0 (argsR m c).e := rRows_v1 _
theorem X0_v3 (c : Dev nD) : X0 m c (Proc.devRef .tc main_v3) = Spec.row1 (argsR m c).e := rRows_v3 _
theorem X1_v1 (c : Dev nD) : X1 m c (Proc.devRef .tc main_v1) = Spec.row0 (argsR m c).e := (rP1_keep _ main_v1 (by decide)).trans (X0_v1 m c)
theorem X1_v3 (c : Dev nD) : X1 m c (Proc.devRef .tc main_v3) = Spec.row1 (argsR m c).e := (rP1_keep _ main_v3 (by decide)).trans (X0_v3 m c)
theorem X2_v1 (c : Dev nD) : X2 m c (Proc.devRef .tc main_v1) = Spec.row0 (argsR m c).e := (rP2_keep _ main_v1 (by decide)).trans (X1_v1 m c)
theorem X2_v3 (c : Dev nD) : X2 m c (Proc.devRef .tc main_v3) = Spec.row1 (argsR m c).e := (rP2_keep _ main_v3 (by decide)).trans (X1_v3 m c)
theorem X3_v1 (c : Dev nD) : X3 m c (Proc.devRef .tc main_v1) = Spec.row0 (argsR m c).e := (rPH_keep _ main_v1 (by decide)).trans (X2_v1 m c)
theorem X3_v3 (c : Dev nD) : X3 m c (Proc.devRef .tc main_v3) = Spec.row1 (argsR m c).e := (rPH_keep _ main_v3 (by decide)).trans (X2_v3 m c)
theorem X4_v1 (c : Dev nD) : X4 m c (Proc.devRef .tc main_v1) = Spec.row0 (argsR m c).e := (rV1_keep _ main_v1 (by decide)).trans (X3_v1 m c)
theorem X4_v3 (c : Dev nD) : X4 m c (Proc.devRef .tc main_v3) = Spec.row1 (argsR m c).e := (rV1_keep _ main_v3 (by decide)).trans (X3_v3 m c)
theorem X5_v1 (c : Dev nD) : X5 m c (Proc.devRef .tc main_v1) = Spec.row0 (argsR m c).e := (rV2_keep _ main_v1 (by decide)).trans (X4_v1 m c)
theorem X5_v3 (c : Dev nD) : X5 m c (Proc.devRef .tc main_v3) = Spec.row1 (argsR m c).e := (rV2_keep _ main_v3 (by decide)).trans (X4_v3 m c)

/-! ## The policy net -/

theorem X1_v48 (c : Dev nD) : X1 m c (Proc.devRef .tc main_v48) = Spec.conv (Spec.src (argsR m c).e) (Spec.dst (argsR m c).e) (Spec.xw128 (argsR m c).xp (argsR m c).W1p) (argsR m c).b1p := by
  show after rP1 (X0 m c) _ = _
  rw [rP1_v48, X0_v1, X0_v3, X0_keep m c main_arg0 (by decide), X0_keep m c main_arg4 (by decide), X0_keep m c main_arg5 (by decide)]
  rfl
theorem X2_v93 (c : Dev nD) : X2 m c (Proc.devRef .tc main_v93) = Spec.conv (Spec.src (argsR m c).e) (Spec.dst (argsR m c).e) (Spec.xw32 (Spec.conv (Spec.src (argsR m c).e) (Spec.dst (argsR m c).e) (Spec.xw128 (argsR m c).xp (argsR m c).W1p) (argsR m c).b1p) (argsR m c).W2p) (argsR m c).b2p := by
  show after rP2 (X1 m c) _ = _
  rw [rP2_v93, X1_v1, X1_v3, X1_v48, X1_keep m c main_arg6 (by decide) (by decide), X1_keep m c main_arg7 (by decide) (by decide)]
  rfl
theorem X3_v108 (c : Dev nD) : X3 m c (Proc.devRef .tc main_v108) = (argsR m c).rOut0 := by
  show after rPH (X2 m c) _ = _
  rw [rPH_v108, X2_v93, X2_keep m c main_arg3 (by decide) (by decide) (by decide), X2_keep m c main_arg8 (by decide) (by decide) (by decide), X2_keep m c main_arg9 (by decide) (by decide) (by decide), X2_keep m c main_arg10 (by decide) (by decide) (by decide), X2_keep m c main_arg11 (by decide) (by decide) (by decide)]
  rfl

/-! ## The value net -/

theorem X4_v153 (c : Dev nD) : X4 m c (Proc.devRef .tc main_v153) = Spec.conv (Spec.src (argsR m c).e) (Spec.dst (argsR m c).e) (Spec.xw128 (argsR m c).xs (argsR m c).W1v) (argsR m c).b1v := by
  show after rV1 (X3 m c) _ = _
  rw [rV1_v153, X3_v1, X3_v3, X3_keep m c main_arg1 (by decide) (by decide) (by decide) (by decide), X3_keep m c main_arg12 (by decide) (by decide) (by decide) (by decide), X3_keep m c main_arg13 (by decide) (by decide) (by decide) (by decide)]
  rfl
theorem X5_v198 (c : Dev nD) : X5 m c (Proc.devRef .tc main_v198) = Spec.conv (Spec.src (argsR m c).e) (Spec.dst (argsR m c).e) (Spec.xw32 (Spec.conv (Spec.src (argsR m c).e) (Spec.dst (argsR m c).e) (Spec.xw128 (argsR m c).xs (argsR m c).W1v) (argsR m c).b1v) (argsR m c).W2v) (argsR m c).b2v := by
  show after rV2 (X4 m c) _ = _
  rw [rV2_v198, X4_v1, X4_v3, X4_v153, X4_keep m c main_arg14 (by decide) (by decide) (by decide) (by decide) (by decide), X4_keep m c main_arg15 (by decide) (by decide) (by decide) (by decide) (by decide)]
  rfl

/-! ## The two results -/

/-- The masked logits after the whole program. -/
theorem end_v108 (c : Dev nD) : after Cert.ReferenceIdeal.RefRun.ops (fun b => m (c, b)) (Proc.devRef .tc main_v108) = (argsR m c).rOut0 := by
  rw [after_ops, rVH_keep _ main_v108 (by decide)]
  show after rV2 (X4 m c) _ = _
  rw [rV2_keep _ main_v108 (by decide)]
  show after rV1 (X3 m c) _ = _
  rw [rV1_keep _ main_v108 (by decide)]
  exact X3_v108 m c

/-- The value after the whole program. -/
theorem end_v211 (c : Dev nD) : after Cert.ReferenceIdeal.RefRun.ops (fun b => m (c, b)) (Proc.devRef .tc main_v211) = (argsR m c).rOut1 := by
  rw [after_ops, rVH_v211, X5_v198, X5_keep m c main_arg16 (by decide) (by decide) (by decide) (by decide) (by decide) (by decide), X5_keep m c main_arg17 (by decide) (by decide) (by decide) (by decide) (by decide) (by decide), X5_keep m c main_arg18 (by decide) (by decide) (by decide) (by decide) (by decide) (by decide), X5_keep m c main_arg19 (by decide) (by decide) (by decide) (by decide) (by decide) (by decide)]
  rfl

/-- An argument after the whole program is as launched. -/
theorem end_arg (c : Dev nD) (r : Ref sig .tc) (h0 : r ∉ rRows_W) (h1 : r ∉ rP1_W) (h2 : r ∉ rP2_W) (h3 : r ∉ rPH_W) (h4 : r ∉ rV1_W) (h5 : r ∉ rV2_W) (h6 : r ∉ rVH_W) :
    after Cert.ReferenceIdeal.RefRun.ops (fun b => m (c, b)) (Proc.devRef .tc r) = m ((c.tc : Thread nD τ).loc r) :=
  end_keep m c r h0 h1 h2 h3 h4 h5 h6

end Cert.ReferenceIdeal.Host

end
-- ==== Proof.Algebraic.lean ====
/-
  The algebraic claim: on the extended reals the kernel's program and the reference, run from memories that agree
  on the twenty arguments, both terminate with the same masked logits and the same value, and leave their
  arguments unchanged.  Both results are the reference's arrangement of the network over the (agreeing) argument
  arrays: the kernel's by its frame run, its host operations before and after the region and the packing argument;
  the reference's by its host operations read in order.
-/
import proofs.«128091_j10213432230367_2_alg».proof.Defs
import proofs.«128091_j10213432230367_2_alg».proof.Proof.Gen.Pre_finite_inputs
import proofs.«128091_j10213432230367_2_alg».proof.Proof.KernelValue
import proofs.«128091_j10213432230367_2_alg».proof.Proof.RefValues

noncomputable section

namespace Cert.Proof.Claims

open Idealize.ShloMosaic Idealize.ShloMosaic.TcCoe Idealize.SL.Sem

theorem algebraic : Cert.algebraic_KernelIdeal_ReferenceIdeal := by
  intro m ρ m' ρ' _ hagree
  have ha : ∀ c, Cert.ReferenceIdeal.Host.argsR m' c = Cert.KernelIdeal.Host.argsK m c := fun c => by
    obtain ⟨h0, h1, h2, h3, h4, h5, h6, h7, h8, h9, h10, h11, h12, h13, h14, h15, h16, h17, h18, h19⟩ := hagree c
    unfold Cert.ReferenceIdeal.Host.argsR Cert.KernelIdeal.Host.argsK
    rw [h0, h1, h2, h3, h4, h5, h6, h7, h8, h9, h10, h11, h12, h13, h14, h15, h16, h17, h18, h19]
  refine ⟨fun c => (Cert.KernelIdeal.Host.argsK m c).rOut0, fun c => (Cert.KernelIdeal.Host.argsK m c).rOut1, ?_, ?_⟩
  · refine (θ_run Cert.KernelIdeal.defs _ _).mono (fun r h c => ?_) (Cert.KernelIdeal.KRun.kernel_run m ρ)
    obtain ⟨h97, h110, hargs⟩ := h c
    exact ⟨h97.trans (Cert.KernelIdeal.Host.kernel_v97 m c), h110.trans (Cert.KernelIdeal.Host.kernel_v110 m c), hargs⟩
  · refine (θ_run Cert.ReferenceIdeal.defs _ _).mono (fun r h c => ?_) (Cert.ReferenceIdeal.RefRun.run_raw m' ρ')
    exact ⟨(h c Cert.ReferenceIdeal.main_v108).trans ((Cert.ReferenceIdeal.Host.end_v108 m' c).trans (congrArg (fun a => a.rOut0) (ha c))),
      (h c Cert.ReferenceIdeal.main_v211).trans ((Cert.ReferenceIdeal.Host.end_v211 m' c).trans (congrArg (fun a => a.rOut1) (ha c))),
      (h c Cert.ReferenceIdeal.main_arg0).trans (Cert.ReferenceIdeal.Host.end_arg m' c Cert.ReferenceIdeal.main_arg0 (by decide) (by decide) (by decide) (by decide) (by decide) (by decide) (by decide)),
      (h c Cert.ReferenceIdeal.main_arg1).trans (Cert.ReferenceIdeal.Host.end_arg m' c Cert.ReferenceIdeal.main_arg1 (by decide) (by decide) (by decide) (by decide) (by decide) (by decide) (by decide)),
      (h c Cert.ReferenceIdeal.main_arg2).trans (Cert.ReferenceIdeal.Host.end_arg m' c Cert.ReferenceIdeal.main_arg2 (by decide) (by decide) (by decide) (by decide) (by decide) (by decide) (by decide)),
      (h c Cert.ReferenceIdeal.main_arg3).trans (Cert.ReferenceIdeal.Host.end_arg m' c Cert.ReferenceIdeal.main_arg3 (by decide) (by decide) (by decide) (by decide) (by decide) (by decide) (by decide)),
      (h c Cert.ReferenceIdeal.main_arg4).trans (Cert.ReferenceIdeal.Host.end_arg m' c Cert.ReferenceIdeal.main_arg4 (by decide) (by decide) (by decide) (by decide) (by decide) (by decide) (by decide)),
      (h c Cert.ReferenceIdeal.main_arg5).trans (Cert.ReferenceIdeal.Host.end_arg m' c Cert.ReferenceIdeal.main_arg5 (by decide) (by decide) (by decide) (by decide) (by decide) (by decide) (by decide)),
      (h c Cert.ReferenceIdeal.main_arg6).trans (Cert.ReferenceIdeal.Host.end_arg m' c Cert.ReferenceIdeal.main_arg6 (by decide) (by decide) (by decide) (by decide) (by decide) (by decide) (by decide)),
      (h c Cert.ReferenceIdeal.main_arg7).trans (Cert.ReferenceIdeal.Host.end_arg m' c Cert.ReferenceIdeal.main_arg7 (by decide) (by decide) (by decide) (by decide) (by decide) (by decide) (by decide)),
      (h c Cert.ReferenceIdeal.main_arg8).trans (Cert.ReferenceIdeal.Host.end_arg m' c Cert.ReferenceIdeal.main_arg8 (by decide) (by decide) (by decide) (by decide) (by decide) (by decide) (by decide)),
      (h c Cert.ReferenceIdeal.main_arg9).trans (Cert.ReferenceIdeal.Host.end_arg m' c Cert.ReferenceIdeal.main_arg9 (by decide) (by decide) (by decide) (by decide) (by decide) (by decide) (by decide)),
      (h c Cert.ReferenceIdeal.main_arg10).trans (Cert.ReferenceIdeal.Host.end_arg m' c Cert.ReferenceIdeal.main_arg10 (by decide) (by decide) (by decide) (by decide) (by decide) (by decide) (by decide)),
      (h c Cert.ReferenceIdeal.main_arg11).trans (Cert.ReferenceIdeal.Host.end_arg m' c Cert.ReferenceIdeal.main_arg11 (by decide) (by decide) (by decide) (by decide) (by decide) (by decide) (by decide)),
      (h c Cert.ReferenceIdeal.main_arg12).trans (Cert.ReferenceIdeal.Host.end_arg m' c Cert.ReferenceIdeal.main_arg12 (by decide) (by decide) (by decide) (by decide) (by decide) (by decide) (by decide)),
      (h c Cert.ReferenceIdeal.main_arg13).trans (Cert.ReferenceIdeal.Host.end_arg m' c Cert.ReferenceIdeal.main_arg13 (by decide) (by decide) (by decide) (by decide) (by decide) (by decide) (by decide)),
      (h c Cert.ReferenceIdeal.main_arg14).trans (Cert.ReferenceIdeal.Host.end_arg m' c Cert.ReferenceIdeal.main_arg14 (by decide) (by decide) (by decide) (by decide) (by decide) (by decide) (by decide)),
      (h c Cert.ReferenceIdeal.main_arg15).trans (Cert.ReferenceIdeal.Host.end_arg m' c Cert.ReferenceIdeal.main_arg15 (by decide) (by decide) (by decide) (by decide) (by decide) (by decide) (by decide)),
      (h c Cert.ReferenceIdeal.main_arg16).trans (Cert.ReferenceIdeal.Host.end_arg m' c Cert.ReferenceIdeal.main_arg16 (by decide) (by decide) (by decide) (by decide) (by decide) (by decide) (by decide)),
      (h c Cert.ReferenceIdeal.main_arg17).trans (Cert.ReferenceIdeal.Host.end_arg m' c Cert.ReferenceIdeal.main_arg17 (by decide) (by decide) (by decide) (by decide) (by decide) (by decide) (by decide)),
      (h c Cert.ReferenceIdeal.main_arg18).trans (Cert.ReferenceIdeal.Host.end_arg m' c Cert.ReferenceIdeal.main_arg18 (by decide) (by decide) (by decide) (by decide) (by decide) (by decide) (by decide)),
      (h c Cert.ReferenceIdeal.main_arg19).trans (Cert.ReferenceIdeal.Host.end_arg m' c Cert.ReferenceIdeal.main_arg19 (by decide) (by decide) (by decide) (by decide) (by decide) (by decide) (by decide))⟩

/-- The reference's frame: its run, with the results dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.Host.end_arg m c Cert.ReferenceIdeal.main_arg0 (by decide) (by decide) (by decide) (by decide) (by decide) (by decide) (by decide)),
      (h c Cert.ReferenceIdeal.main_arg1).trans (Cert.ReferenceIdeal.Host.end_arg m c Cert.ReferenceIdeal.main_arg1 (by decide) (by decide) (by decide) (by decide) (by decide) (by decide) (by decide)),
      (h c Cert.ReferenceIdeal.main_arg2).trans (Cert.ReferenceIdeal.Host.end_arg m c Cert.ReferenceIdeal.main_arg2 (by decide) (by decide) (by decide) (by decide) (by decide) (by decide) (by decide)),
      (h c Cert.ReferenceIdeal.main_arg3).trans (Cert.ReferenceIdeal.Host.end_arg m c Cert.ReferenceIdeal.main_arg3 (by decide) (by decide) (by decide) (by decide) (by decide) (by decide) (by decide)),
      (h c Cert.ReferenceIdeal.main_arg4).trans (Cert.ReferenceIdeal.Host.end_arg m c Cert.ReferenceIdeal.main_arg4 (by decide) (by decide) (by decide) (by decide) (by decide) (by decide) (by decide)),
      (h c Cert.ReferenceIdeal.main_arg5).trans (Cert.ReferenceIdeal.Host.end_arg m c Cert.ReferenceIdeal.main_arg5 (by decide) (by decide) (by decide) (by decide) (by decide) (by decide) (by decide)),
      (h c Cert.ReferenceIdeal.main_arg6).trans (Cert.ReferenceIdeal.Host.end_arg m c Cert.ReferenceIdeal.main_arg6 (by decide) (by decide) (by decide) (by decide) (by decide) (by decide) (by decide)),
      (h c Cert.ReferenceIdeal.main_arg7).trans (Cert.ReferenceIdeal.Host.end_arg m c Cert.ReferenceIdeal.main_arg7 (by decide) (by decide) (by decide) (by decide) (by decide) (by decide) (by decide)),
      (h c Cert.ReferenceIdeal.main_arg8).trans (Cert.ReferenceIdeal.Host.end_arg m c Cert.ReferenceIdeal.main_arg8 (by decide) (by decide) (by decide) (by decide) (by decide) (by decide) (by decide)),
      (h c Cert.ReferenceIdeal.main_arg9).trans (Cert.ReferenceIdeal.Host.end_arg m c Cert.ReferenceIdeal.main_arg9 (by decide) (by decide) (by decide) (by decide) (by decide) (by decide) (by decide)),
      (h c Cert.ReferenceIdeal.main_arg10).trans (Cert.ReferenceIdeal.Host.end_arg m c Cert.ReferenceIdeal.main_arg10 (by decide) (by decide) (by decide) (by decide) (by decide) (by decide) (by decide)),
      (h c Cert.ReferenceIdeal.main_arg11).trans (Cert.ReferenceIdeal.Host.end_arg m c Cert.ReferenceIdeal.main_arg11 (by decide) (by decide) (by decide) (by decide) (by decide) (by decide) (by decide)),
      (h c Cert.ReferenceIdeal.main_arg12).trans (Cert.ReferenceIdeal.Host.end_arg m c Cert.ReferenceIdeal.main_arg12 (by decide) (by decide) (by decide) (by decide) (by decide) (by decide) (by decide)),
      (h c Cert.ReferenceIdeal.main_arg13).trans (Cert.ReferenceIdeal.Host.end_arg m c Cert.ReferenceIdeal.main_arg13 (by decide) (by decide) (by decide) (by decide) (by decide) (by decide) (by decide)),
      (h c Cert.ReferenceIdeal.main_arg14).trans (Cert.ReferenceIdeal.Host.end_arg m c Cert.ReferenceIdeal.main_arg14 (by decide) (by decide) (by decide) (by decide) (by decide) (by decide) (by decide)),
      (h c Cert.ReferenceIdeal.main_arg15).trans (Cert.ReferenceIdeal.Host.end_arg m c Cert.ReferenceIdeal.main_arg15 (by decide) (by decide) (by decide) (by decide) (by decide) (by decide) (by decide)),
      (h c Cert.ReferenceIdeal.main_arg16).trans (Cert.ReferenceIdeal.Host.end_arg m c Cert.ReferenceIdeal.main_arg16 (by decide) (by decide) (by decide) (by decide) (by decide) (by decide) (by decide)),
      (h c Cert.ReferenceIdeal.main_arg17).trans (Cert.ReferenceIdeal.Host.end_arg m c Cert.ReferenceIdeal.main_arg17 (by decide) (by decide) (by decide) (by decide) (by decide) (by decide) (by decide)),
      (h c Cert.ReferenceIdeal.main_arg18).trans (Cert.ReferenceIdeal.Host.end_arg m c Cert.ReferenceIdeal.main_arg18 (by decide) (by decide) (by decide) (by decide) (by decide) (by decide) (by decide)),
      (h c Cert.ReferenceIdeal.main_arg19).trans (Cert.ReferenceIdeal.Host.end_arg m c Cert.ReferenceIdeal.main_arg19 (by decide) (by decide) (by decide) (by decide) (by decide) (by decide) (by decide))⟩)
    (Cert.ReferenceIdeal.RefRun.run_raw m ρ)

end Cert.Proof.Claims

end
-- ==== Proof.lean ====
/-
  The certificate of a graph policy/value network whose last policy layer runs as a tiled kernel.

  The network: two graph convolutions per net (a linear map of the node features, a degree-normalised aggregation
  over 262144 edges plus self loops, a bias and a tanh), then per net a linear layer with tanh; the policy net pools
  each node's features into a row of 8192 entries, multiplies it by the transposed 8192 x 8192 output matrix, adds a
  bias and masks the result with the sentinel -1e32; the value net sums its features over the nodes and applies a
  1 x 32 linear layer.

  The kernel's program differs from the reference in three places.  It computes the degrees and the edge weights
  once instead of once per convolution (the same function of the edge list each time).  It runs each of the two
  convolutions once on the policy and value features laid side by side, 64 columns, and cuts the halves out again:
  a scatter-add of rows never mixes columns, so each half is the separate 32-column aggregation.  And it computes the
  8192 output logits in a region of 16 grid points, point i producing entries 512 i .. 512 i + 511 as the pooled row
  times the transposed block of 512 rows of the matrix plus the bias block: entry n is the sum over k of
  pooled[k] * W[n, k] plus bias[n], the reference's matrix product and bias at n (a change of float format is the
  identity on the extended reals).  None of this uses finiteness of an input: sums are only regrouped and
  reindexed.

  The three frames: the kernel's two programs by their generated frame certificates; the reference's by its host
  operations run in order.  The idealization rewrote no operation, so its claim is trivial.  The algebraic claim is
  `Cert.Proof.Claims.algebraic`.
-/
import proofs.«128091_j10213432230367_2_alg».proof.Defs
import proofs.«128091_j10213432230367_2_alg».proof.Proof.Gen.Kernel
import proofs.«128091_j10213432230367_2_alg».proof.Proof.Gen.Kernel.Skeleton
import proofs.«128091_j10213432230367_2_alg».proof.Proof.Gen.Kernel.Launch
import proofs.«128091_j10213432230367_2_alg».proof.Proof.Gen.Kernel.Points
import proofs.«128091_j10213432230367_2_alg».proof.Proof.Gen.Kernel.Frame
import proofs.«128091_j10213432230367_2_alg».proof.Proof.Gen.KernelIdeal
import proofs.«128091_j10213432230367_2_alg».proof.Proof.Gen.KernelIdeal.Skeleton
import proofs.«128091_j10213432230367_2_alg».proof.Proof.Gen.KernelIdeal.Launch
import proofs.«128091_j10213432230367_2_alg».proof.Proof.Gen.KernelIdeal.Points
import proofs.«128091_j10213432230367_2_alg».proof.Proof.Gen.KernelIdeal.Frame
import proofs.«128091_j10213432230367_2_alg».proof.Proof.Gen.ReferenceIdeal
import proofs.«128091_j10213432230367_2_alg».proof.Proof.Gen.Pre_finite_inputs
import proofs.«128091_j10213432230367_2_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.Claims.frame_ri,
  trivial,
  Cert.Proof.Claims.algebraic⟩

end Cert.Proof

end
